-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v114)) (v1 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_v98) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S100000x128 : Shape := ⟨2, ![100000, 128]⟩
abbrev S2x1500000 : Shape := ⟨2, ![2, 1500000]⟩
abbrev S128x128 : Shape := ⟨2, ![128, 128]⟩
abbrev S128 : Shape := ⟨1, ![128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128x128 .f32) (main_arg13 : FVec F S128 .f32) (main_arg14 : FVec F S128x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_v63 main_v67

def fn_part2 {F : FTy → Type} [FloatOps F] (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S200000x128 .f32) (main_arg1 : FVec F S100000x128 .f32) (main_arg2 : IVec S2x1500000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S200000x128 : Shape := ⟨2, ![200000, 128]⟩
abbrev S100000x128 : Shape := ⟨2, ![100000, 128]⟩
abbrev S2x1500000 : Shape := ⟨2, ![2, 1500000]⟩
abbrev S128x128 : Shape := ⟨2, ![128, 128]⟩
abbrev S128 : Shape := ⟨1, ![128]⟩
abbrev S1x1500000 : Shape := ⟨2, ![1, 1500000]⟩
abbrev S1500000 : Shape := ⟨1, ![1500000]⟩
abbrev S_ : Shape := ⟨0, ![]⟩
abbrev S1500000x1 : Shape := ⟨2, ![1500000, 1]⟩
abbrev S100000 : Shape := ⟨1, ![100000]⟩
abbrev S100000x1 : Shape := ⟨2, ![100000, 1]⟩
abbrev S200000 : Shape := ⟨1, ![200000]⟩
abbrev S200000x1 : Shape := ⟨2, ![200000, 1]⟩
abbrev S1500000x128 : Shape := ⟨2, ![1500000, 128]⟩
abbrev S1x128 : Shape := ⟨2, ![1, 128]⟩
abbrev S5000x128 : Shape := ⟨2, ![5000, 128]⟩

abbrev nBuf : Space → Nat
  | .hbm => 161
  | .vmem => 36
  | .smem => 0
  | _ => 0

abbrev hbmTy0_0 (i : Nat) : BufTy := match i % 128 with
  | 0 => ⟨S200000x128, .f32⟩
  | 1 => ⟨S100000x128, .f32⟩
  | 2 => ⟨S2x1500000, .i32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S128x128, .f32⟩
  | 15 => ⟨S1x1500000, .i32⟩
  | 16 => ⟨S1500000, .i32⟩
  | 17 => ⟨S1x1500000, .i32⟩
  | 18 => ⟨S1500000, .i32⟩
  | 19 => ⟨S1500000, .i32⟩
  | 20 => ⟨S1500000, .i32⟩
  | 21 => ⟨S1500000, .i32⟩
  | 22 => ⟨S_, .i32⟩
  | 23 => ⟨S1500000, .i32⟩
  | 24 => ⟨S1500000, .i1⟩
  | 25 => ⟨S_, .i32⟩
  | 26 => ⟨S1500000, .i32⟩
  | 27 => ⟨S1500000, .i32⟩
  | 28 => ⟨S1500000, .i32⟩
  | 29 => ⟨S1500000x1, .i32⟩
  | 30 => ⟨S1500000, .i32⟩
  | 31 => ⟨S_, .i32⟩
  | 32 => ⟨S1500000, .i32⟩
  | 33 => ⟨S1500000, .i1⟩
  | 34 => ⟨S_, .i32⟩
  | 35 => ⟨S1500000, .i32⟩
  | 36 => ⟨S1500000, .i32⟩
  | 37 => ⟨S1500000, .i32⟩
  | 38 => ⟨S1500000x1, .i32⟩
  | 39 => ⟨S1500000, .i32⟩
  | 40 => ⟨S1500000, .i32⟩
  | 41 => ⟨S1500000, .i32⟩
  | 42 => ⟨S1500000, .i32⟩
  | 43 => ⟨S_, .i32⟩
  | 44 => ⟨S1500000, .i32⟩
  | 45 => ⟨S1500000, .i1⟩
  | 46 => ⟨S_, .i32⟩
  | 47 => ⟨S1500000, .i32⟩
  | 48 => ⟨S1500000, .i32⟩
  | 49 => ⟨S1500000, .i32⟩
  | 50 => ⟨S1500000x1, .i32⟩
  | 51 => ⟨S1500000, .i32⟩
  | 52 => ⟨S_, .i32⟩
  | 53 => ⟨S1500000, .i32⟩
  | 54 => ⟨S1500000, .i1⟩
  | 55 => ⟨S_, .i32⟩
  | 56 => ⟨S1500000, .i32⟩
  | 57 => ⟨S1500000, .i32⟩
  | 58 => ⟨S1500000, .i32⟩
  | 59 => ⟨S1500000x1, .i32⟩
  | 60 => ⟨S1500000, .i32⟩
  | 61 => ⟨S_, .f32⟩
  | 62 => ⟨S1500000, .f32⟩
  | 63 => ⟨S_, .f32⟩
  | 64 => ⟨S100000, .f32⟩
  | 65 => ⟨S1500000x1, .i32⟩
  | 66 => ⟨S100000, .f32⟩
  | 67 => ⟨S_, .f32⟩
  | 68 => ⟨S100000, .f32⟩
  | 69 => ⟨S100000, .f32⟩
  | 70 => ⟨S_, .f32⟩
  | 71 => ⟨S100000, .f32⟩
  | 72 => ⟨S100000, .f32⟩
  | 73 => ⟨S100000x1, .f32⟩
  | 74 => ⟨S_, .f32⟩
  | 75 => ⟨S200000, .f32⟩
  | 76 => ⟨S1500000x1, .i32⟩
  | 77 => ⟨S200000, .f32⟩
  | 78 => ⟨S_, .f32⟩
  | 79 => ⟨S200000, .f32⟩
  | 80 => ⟨S200000, .f32⟩
  | 81 => ⟨S_, .f32⟩
  | 82 => ⟨S200000, .f32⟩
  | 83 => ⟨S200000, .f32⟩
  | 84 => ⟨S200000x1, .f32⟩
  | 85 => ⟨S_, .i32⟩
  | 86 => ⟨S1500000, .i32⟩
  | 87 => ⟨S1500000, .i1⟩
  | 88 => ⟨S_, .i32⟩
  | 89 => ⟨S1500000, .i32⟩
  | 90 => ⟨S1500000, .i32⟩
  | 91 => ⟨S1500000, .i32⟩
  | 92 => ⟨S1500000x1, .i32⟩
  | 93 => ⟨S1500000x128, .f32⟩
  | 94 => ⟨S_, .f32⟩
  | 95 => ⟨S100000x128, .f32⟩
  | 96 => ⟨S1500000x1, .i32⟩
  | 97 => ⟨S100000x128, .f32⟩
  | 98 => ⟨S100000x128, .f32⟩
  | 99 => ⟨S100000x128, .f32⟩
  | 100 => ⟨S128x128, .bf16⟩
  | 101 => ⟨S128x128, .bf16⟩
  | 102 => ⟨S1x128, .f32⟩
  | 103 => ⟨S100000x128, .f32⟩
  | 104 => ⟨S_, .i32⟩
  | 105 => ⟨S1500000, .i32⟩
  | 106 => ⟨S1500000, .i1⟩
  | 107 => ⟨S_, .i32⟩
  | 108 => ⟨S1500000, .i32⟩
  | 109 => ⟨S1500000, .i32⟩
  | 110 => ⟨S1500000, .i32⟩
  | 111 => ⟨S1500000x1, .i32⟩
  | 112 => ⟨S1500000x128, .f32⟩
  | 113 => ⟨S_, .f32⟩
  | 114 => ⟨S200000x128, .f32⟩
  | 115 => ⟨S1500000x1, .i32⟩
  | 116 => ⟨S200000x128, .f32⟩
  | 117 => ⟨S200000x128, .f32⟩
  | 118 => ⟨S200000x128, .f32⟩
  | 119 => ⟨S128x128, .bf16⟩
  | 120 => ⟨S128x128, .bf16⟩
  | 121 => ⟨S1x128, .f32⟩
  | 122 => ⟨S200000x128, .f32⟩
  | 123 => ⟨S_, .i32⟩
  | 124 => ⟨S1500000, .i32⟩
  | 125 => ⟨S1500000, .i1⟩
  | 126 => ⟨S_, .i32⟩
  | 127 => ⟨S1500000, .i32⟩
  | _ => ⟨S200000x128, .f32⟩

abbrev hbmTy0_1 (i : Nat) : BufTy := match i % 128 with
  | 0 => ⟨S1500000, .i32⟩
  | 1 => ⟨S1500000, .i32⟩
  | 2 => ⟨S1500000x1, .i32⟩
  | 3 => ⟨S1500000x128, .f32⟩
  | 4 => ⟨S_, .f32⟩
  | 5 => ⟨S100000x128, .f32⟩
  | 6 => ⟨S1500000x1, .i32⟩
  | 7 => ⟨S100000x128, .f32⟩
  | 8 => ⟨S100000x128, .f32⟩
  | 9 => ⟨S100000x128, .f32⟩
  | 10 => ⟨S128x128, .bf16⟩
  | 11 => ⟨S128x128, .bf16⟩
  | 12 => ⟨S1x128, .f32⟩
  | 13 => ⟨S100000x128, .f32⟩
  | 14 => ⟨S_, .i32⟩
  | 15 => ⟨S1500000, .i32⟩
  | 16 => ⟨S1500000, .i1⟩
  | 17 => ⟨S_, .i32⟩
  | 18 => ⟨S1500000, .i32⟩
  | 19 => ⟨S1500000, .i32⟩
  | 20 => ⟨S1500000, .i32⟩
  | 21 => ⟨S1500000x1, .i32⟩
  | 22 => ⟨S1500000x128, .f32⟩
  | 23 => ⟨S_, .f32⟩
  | 24 => ⟨S200000x128, .f32⟩
  | 25 => ⟨S1500000x1, .i32⟩
  | 26 => ⟨S200000x128, .f32⟩
  | 27 => ⟨S200000x128, .f32⟩
  | 28 => ⟨S200000x128, .f32⟩
  | 29 => ⟨S128x128, .bf16⟩
  | 30 => ⟨S128x128, .bf16⟩
  | 31 => ⟨S1x128, .f32⟩
  | 32 => ⟨S200000x128, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .bf16⟩
  | .local _ .vmem, ⟨14, _⟩ => ⟨S1x128, .f32⟩
  | .local _ .vmem, ⟨15, _⟩ => ⟨S128x128, .bf16⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .bf16⟩
  | .local _ .vmem, ⟨23, _⟩ => ⟨S1x128, .f32⟩
  | .local _ .vmem, ⟨24, _⟩ => ⟨S128x128, .bf16⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .bf16⟩
  | .local _ .vmem, ⟨32, _⟩ => ⟨S1x128, .f32⟩
  | .local _ .vmem, ⟨33, _⟩ => ⟨S128x128, .bf16⟩
  | .local _ .vmem, ⟨34, _⟩ => ⟨S5000x128, .f32⟩
  | .local _ .vmem, ⟨35, _⟩ => ⟨S5000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_v0 : Ref sig .tc := ⟨.hbm, 19, rfl⟩
abbrev main_call0_v1_0 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_1 : Ref sig .tc := ⟨.hbm, 31, rfl⟩
abbrev main_v12 : Ref sig .tc := ⟨.hbm, 32, rfl⟩
abbrev main_v13 : Ref sig .tc := ⟨.hbm, 33, rfl⟩
abbrev main_c_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call1_v0 : Ref sig .tc := ⟨.hbm, 40, rfl⟩
abbrev main_call1_v1_0 : Ref sig .tc := ⟨.hbm, 41, rfl⟩
abbrev main_v19 : Ref sig .tc := ⟨.hbm, 42, rfl⟩
abbrev main_c_3 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_v28 : Ref sig .tc := ⟨.hbm, 54, rfl⟩
abbrev main_c_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst : Ref sig .tc := ⟨.hbm, 61, rfl⟩
abbrev main_v34 : Ref sig .tc := ⟨.hbm, 62, rfl⟩
abbrev main_cst_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_8 : Ref sig .tc := ⟨.hbm, 67, rfl⟩
abbrev main_v38 : Ref sig .tc := ⟨.hbm, 68, rfl⟩
abbrev main_v39 : Ref sig .tc := ⟨.hbm, 69, rfl⟩
abbrev main_cst_9 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_10 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_11 : Ref sig .tc := ⟨.hbm, 78, rfl⟩
abbrev main_v46 : Ref sig .tc := ⟨.hbm, 79, rfl⟩
abbrev main_v47 : Ref sig .tc := ⟨.hbm, 80, rfl⟩
abbrev main_cst_12 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_c_13 : Ref sig .tc := ⟨.hbm, 85, rfl⟩
abbrev main_v51 : Ref sig .tc := ⟨.hbm, 86, rfl⟩
abbrev main_v52 : Ref sig .tc := ⟨.hbm, 87, rfl⟩
abbrev main_c_14 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_15 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_c_16 : Ref sig .tc := ⟨.hbm, 104, rfl⟩
abbrev main_v67 : Ref sig .tc := ⟨.hbm, 105, rfl⟩
abbrev main_v68 : Ref sig .tc := ⟨.hbm, 106, rfl⟩
abbrev main_c_17 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_18 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_c_19 : Ref sig .tc := ⟨.hbm, 123, rfl⟩
abbrev main_v83 : Ref sig .tc := ⟨.hbm, 124, rfl⟩
abbrev main_v84 : Ref sig .tc := ⟨.hbm, 125, rfl⟩
abbrev main_c_20 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_21 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_c_22 : Ref sig .tc := ⟨.hbm, 142, rfl⟩
abbrev main_v99 : Ref sig .tc := ⟨.hbm, 143, rfl⟩
abbrev main_v100 : Ref sig .tc := ⟨.hbm, 144, rfl⟩
abbrev main_c_23 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_24 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1500000_S1x1500000_0_0 : S2x1500000.Slices ![0, 0] S1x1500000
  shapeCasts_S1x1500000_S1500000 : S1x1500000.ShapeCasts S1500000
  slices_S2x1500000_S1x1500000_1_0 : S2x1500000.Slices ![1, 0] S1x1500000
  bcast_S_S1500000 : S_.BroadcastsInDim S1500000 (![] : Fin 0 → Fin S1500000.rank)
  bcast_S1500000_S1500000x1_0 : S1500000.BroadcastsInDim S1500000x1 (![0] : Fin 1 → Fin S1500000x1.rank)
  bcast_S_S100000 : S_.BroadcastsInDim S100000 (![] : Fin 0 → Fin S100000.rank)
  shapeCasts_S100000_S100000x1 : S100000.ShapeCasts S100000x1
  bcast_S_S200000 : S_.BroadcastsInDim S200000 (![] : Fin 0 → Fin S200000.rank)
  shapeCasts_S200000_S200000x1 : S200000.ShapeCasts S200000x1
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S200000x128 : S_.BroadcastsInDim S200000x128 (![] : Fin 0 → Fin S200000x128.rank)
  bcast_S200000x1_S200000x128_0_1 : S200000x1.BroadcastsInDim S200000x128 (![0, 1] : Fin 2 → Fin S200000x128.rank)
  gather_S1500000_S1500000x1_S1500000_n_0_n_n_0_1_1_wf : GatherDims.WF S1500000 S1500000x1 S1500000 [] [0] [] [0] [] 1 ![1]
  scatter_S100000_S1500000x1_S1500000_n_0_0_1_wf : ScatterDims.WF S100000 S1500000x1 S1500000 [] [0] [0] 1
  scatter_S200000_S1500000x1_S1500000_n_0_0_1_wf : ScatterDims.WF S200000 S1500000x1 S1500000 [] [0] [0] 1
  gather_S200000x128_S1500000x1_S1500000x128_1_0_n_n_0_1_1128_wf : GatherDims.WF S200000x128 S1500000x1 S1500000x128 [1] [0] [] [0] [] 1 ![1, 128]
  scatter_S100000x128_S1500000x1_S1500000x128_1_0_0_1_wf : ScatterDims.WF S100000x128 S1500000x1 S1500000x128 [1] [0] [0] 1
  dot_S5000x128_S128x128_S5000x128_1_0_0_1_n_n_wf : DotDims.WF S5000x128 S128x128 S5000x128 [1] [0] [0] [1] [] []
  gather_S100000x128_S1500000x1_S1500000x128_1_0_n_n_0_1_1128_wf : GatherDims.WF S100000x128 S1500000x1 S1500000x128 [1] [0] [] [0] [] 1 ![1, 128]
  scatter_S200000x128_S1500000x1_S1500000x128_1_0_0_1_wf : ScatterDims.WF S200000x128 S1500000x1 S1500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S200000x128.size a
  hwx1_0 : ∀ i : grid1.Coords, EltTy.bits .f32 = 32 ∨ (Rect.block (s := S200000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S200000x128.size a
  hwx1_1 : ∀ i : grid1.Coords, EltTy.bits .f32 = 32 ∨ (Rect.block (s := S200000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S200000x128.size a
  hwx1_5 : ∀ i : grid1.Coords, EltTy.bits .f32 = 32 ∨ (Rect.block (s := S200000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S200000x128.size a
  hwx3_0 : ∀ i : grid3.Coords, EltTy.bits .f32 = 32 ∨ (Rect.block (s := S200000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S200000x128.size a
  hwx3_1 : ∀ i : grid3.Coords, EltTy.bits .f32 = 32 ∨ (Rect.block (s := S200000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .bf16 = 32 ∨ (Rect.block (s := S128x128) S128x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .bf16 = 32 ∨ (Rect.block (s := S128x128) S128x128.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S200000x128.size a
  hwx3_5 : ∀ i : grid3.Coords, EltTy.bits .f32 = 32 ∨ (Rect.block (s := S200000x128) S5000x128.size (cc3_transform_5 i) (hinb3_5 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S1500000_S1500000x1_S1500000_n_0_n_n_0_1_1 : GatherDims S1500000 S1500000x1 S1500000 where
  offsetDims := []
  collapsedSliceDims := [0]
  operandBatchingDims := []
  startIndicesBatchingDims := []
  startIndexMap := [0]
  indexVectorDim := 1
  sliceSizes := ![1]
  wf := gather_S1500000_S1500000x1_S1500000_n_0_n_n_0_1_1_wf
def scatter_S100000_S1500000x1_S1500000_n_0_0_1 : ScatterDims S100000 S1500000x1 S1500000 where
  updateWindowDims := []
  insertedWindowDims := [0]
  scatterDimsToOperandDims := [0]
  indexVectorDim := 1
  wf := scatter_S100000_S1500000x1_S1500000_n_0_0_1_wf
def scatter_S200000_S1500000x1_S1500000_n_0_0_1 : ScatterDims S200000 S1500000x1 S1500000 where
  updateWindowDims := []
  insertedWindowDims := [0]
  scatterDimsToOperandDims := [0]
  indexVectorDim := 1
  wf := scatter_S200000_S1500000x1_S1500000_n_0_0_1_wf
def gather_S200000x128_S1500000x1_S1500000x128_1_0_n_n_0_1_1128 : GatherDims S200000x128 S1500000x1 S1500000x128 where
  offsetDims := [1]
  collapsedSliceDims := [0]
  operandBatchingDims := []
  startIndicesBatchingDims := []
  startIndexMap := [0]
  indexVectorDim := 1
  sliceSizes := ![1, 128]
  wf := gather_S200000x128_S1500000x1_S1500000x128_1_0_n_n_0_1_1128_wf
def scatter_S100000x128_S1500000x1_S1500000x128_1_0_0_1 : ScatterDims S100000x128 S1500000x1 S1500000x128 where
  updateWindowDims := [1]
  insertedWindowDims := [0]
  scatterDimsToOperandDims := [0]
  indexVectorDim := 1
  wf := scatter_S100000x128_S1500000x1_S1500000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1500000x1_S1500000x128_1_0_n_n_0_1_1128 : GatherDims S100000x128 S1500000x1 S1500000x128 where
  offsetDims := [1]
  collapsedSliceDims := [0]
  operandBatchingDims := []
  startIndicesBatchingDims := []
  startIndexMap := [0]
  indexVectorDim := 1
  sliceSizes := ![1, 128]
  wf := gather_S100000x128_S1500000x1_S1500000x128_1_0_n_n_0_1_1128_wf
def scatter_S200000x128_S1500000x1_S1500000x128_1_0_0_1 : ScatterDims S200000x128 S1500000x1 S1500000x128 where
  updateWindowDims := [1]
  insertedWindowDims := [0]
  scatterDimsToOperandDims := [0]
  indexVectorDim := 1
  wf := scatter_S200000x128_S1500000x1_S1500000x128_1_0_0_1_wf

abbrev win0_0 : Pipeline.Window sig grid0 :=
  Pipeline.Window.ofSpec (Memref.whole main_v62) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v63) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v65) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v64) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v66) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v78) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v79) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v81) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v80) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v82) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v94) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v95) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v97) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v96) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v98) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v110) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v82) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v111) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v113) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v112) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v114) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S200000x128 : Shape := ⟨2, ![200000, 128]⟩
abbrev S100000x128 : Shape := ⟨2, ![100000, 128]⟩
abbrev S2x1500000 : Shape := ⟨2, ![2, 1500000]⟩
abbrev S128x128 : Shape := ⟨2, ![128, 128]⟩
abbrev S128 : Shape := ⟨1, ![128]⟩
abbrev S1x1500000 : Shape := ⟨2, ![1, 1500000]⟩
abbrev S1500000 : Shape := ⟨1, ![1500000]⟩
abbrev S_ : Shape := ⟨0, ![]⟩
abbrev S1500000x1 : Shape := ⟨2, ![1500000, 1]⟩
abbrev S1500000x128 : Shape := ⟨2, ![1500000, 128]⟩
abbrev S100000 : Shape := ⟨1, ![100000]⟩
abbrev S100000x1 : Shape := ⟨2, ![100000, 1]⟩
abbrev S1x128 : Shape := ⟨2, ![1, 128]⟩
abbrev S200000 : Shape := ⟨1, ![200000]⟩
abbrev S200000x1 : Shape := ⟨2, ![200000, 1]⟩

abbrev nBuf : Space → Nat
  | .hbm => 149
  | .vmem => 0
  | .smem => 0
  | _ => 0

abbrev hbmTy0_0 (i : Nat) : BufTy := match i % 128 with
  | 0 => ⟨S200000x128, .f32⟩
  | 1 => ⟨S100000x128, .f32⟩
  | 2 => ⟨S2x1500000, .i32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S128x128, .f32⟩
  | 15 => ⟨S1x1500000, .i32⟩
  | 16 => ⟨S1500000, .i32⟩
  | 17 => ⟨S1x1500000, .i32⟩
  | 18 => ⟨S1500000, .i32⟩
  | 19 => ⟨S_, .i32⟩
  | 20 => ⟨S1500000, .i32⟩
  | 21 => ⟨S1500000, .i1⟩
  | 22 => ⟨S_, .i32⟩
  | 23 => ⟨S1500000, .i32⟩
  | 24 => ⟨S1500000, .i32⟩
  | 25 => ⟨S1500000, .i32⟩
  | 26 => ⟨S1500000x1, .i32⟩
  | 27 => ⟨S1500000x128, .f32⟩
  | 28 => ⟨S_, .f32⟩
  | 29 => ⟨S100000x128, .f32⟩
  | 30 => ⟨S1500000x1, .i32⟩
  | 31 => ⟨S100000x128, .f32⟩
  | 32 => ⟨S_, .f32⟩
  | 33 => ⟨S1500000, .f32⟩
  | 34 => ⟨S_, .f32⟩
  | 35 => ⟨S100000, .f32⟩
  | 36 => ⟨S1500000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S_, .i32⟩
  | 54 => ⟨S1500000, .i32⟩
  | 55 => ⟨S1500000, .i1⟩
  | 56 => ⟨S_, .i32⟩
  | 57 => ⟨S1500000, .i32⟩
  | 58 => ⟨S1500000, .i32⟩
  | 59 => ⟨S1500000, .i32⟩
  | 60 => ⟨S1500000x1, .i32⟩
  | 61 => ⟨S1500000x128, .f32⟩
  | 62 => ⟨S_, .f32⟩
  | 63 => ⟨S200000x128, .f32⟩
  | 64 => ⟨S1500000x1, .i32⟩
  | 65 => ⟨S200000x128, .f32⟩
  | 66 => ⟨S_, .f32⟩
  | 67 => ⟨S1500000, .f32⟩
  | 68 => ⟨S_, .f32⟩
  | 69 => ⟨S200000, .f32⟩
  | 70 => ⟨S1500000x1, .i32⟩
  | 71 => ⟨S200000, .f32⟩
  | 72 => ⟨S_, .f32⟩
  | 73 => ⟨S200000, .f32⟩
  | 74 => ⟨S200000, .f32⟩
  | 75 => ⟨S200000x1, .f32⟩
  | 76 => ⟨S200000x128, .f32⟩
  | 77 => ⟨S200000x128, .f32⟩
  | 78 => ⟨S200000x128, .f32⟩
  | 79 => ⟨S1x128, .f32⟩
  | 80 => ⟨S200000x128, .f32⟩
  | 81 => ⟨S200000x128, .f32⟩
  | 82 => ⟨S200000x128, .f32⟩
  | 83 => ⟨S200000x128, .f32⟩
  | 84 => ⟨S_, .f32⟩
  | 85 => ⟨S200000x128, .f32⟩
  | 86 => ⟨S200000x128, .f32⟩
  | 87 => ⟨S_, .i32⟩
  | 88 => ⟨S1500000, .i32⟩
  | 89 => ⟨S1500000, .i1⟩
  | 90 => ⟨S_, .i32⟩
  | 91 => ⟨S1500000, .i32⟩
  | 92 => ⟨S1500000, .i32⟩
  | 93 => ⟨S1500000, .i32⟩
  | 94 => ⟨S1500000x1, .i32⟩
  | 95 => ⟨S1500000x128, .f32⟩
  | 96 => ⟨S_, .f32⟩
  | 97 => ⟨S100000x128, .f32⟩
  | 98 => ⟨S1500000x1, .i32⟩
  | 99 => ⟨S100000x128, .f32⟩
  | 100 => ⟨S_, .f32⟩
  | 101 => ⟨S1500000, .f32⟩
  | 102 => ⟨S_, .f32⟩
  | 103 => ⟨S100000, .f32⟩
  | 104 => ⟨S1500000x1, .i32⟩
  | 105 => ⟨S100000, .f32⟩
  | 106 => ⟨S_, .f32⟩
  | 107 => ⟨S100000, .f32⟩
  | 108 => ⟨S100000, .f32⟩
  | 109 => ⟨S100000x1, .f32⟩
  | 110 => ⟨S100000x128, .f32⟩
  | 111 => ⟨S100000x128, .f32⟩
  | 112 => ⟨S100000x128, .f32⟩
  | 113 => ⟨S1x128, .f32⟩
  | 114 => ⟨S100000x128, .f32⟩
  | 115 => ⟨S100000x128, .f32⟩
  | 116 => ⟨S100000x128, .f32⟩
  | 117 => ⟨S100000x128, .f32⟩
  | 118 => ⟨S_, .i32⟩
  | 119 => ⟨S1500000, .i32⟩
  | 120 => ⟨S1500000, .i1⟩
  | 121 => ⟨S_, .i32⟩
  | 122 => ⟨S1500000, .i32⟩
  | 123 => ⟨S1500000, .i32⟩
  | 124 => ⟨S1500000, .i32⟩
  | 125 => ⟨S1500000x1, .i32⟩
  | 126 => ⟨S1500000x128, .f32⟩
  | 127 => ⟨S_, .f32⟩
  | _ => ⟨S200000x128, .f32⟩

abbrev hbmTy0_1 (i : Nat) : BufTy := match i % 128 with
  | 0 => ⟨S200000x128, .f32⟩
  | 1 => ⟨S1500000x1, .i32⟩
  | 2 => ⟨S200000x128, .f32⟩
  | 3 => ⟨S_, .f32⟩
  | 4 => ⟨S1500000, .f32⟩
  | 5 => ⟨S_, .f32⟩
  | 6 => ⟨S200000, .f32⟩
  | 7 => ⟨S1500000x1, .i32⟩
  | 8 => ⟨S200000, .f32⟩
  | 9 => ⟨S_, .f32⟩
  | 10 => ⟨S200000, .f32⟩
  | 11 => ⟨S200000, .f32⟩
  | 12 => ⟨S200000x1, .f32⟩
  | 13 => ⟨S200000x128, .f32⟩
  | 14 => ⟨S200000x128, .f32⟩
  | 15 => ⟨S200000x128, .f32⟩
  | 16 => ⟨S1x128, .f32⟩
  | 17 => ⟨S200000x128, .f32⟩
  | 18 => ⟨S200000x128, .f32⟩
  | 19 => ⟨S200000x128, .f32⟩
  | 20 => ⟨S200000x128, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call0_cst : Ref sig .tc := ⟨.hbm, 50, rfl⟩
abbrev main_call0_v0 : Ref sig .tc := ⟨.hbm, 51, rfl⟩
abbrev main_v29 : Ref sig .tc := ⟨.hbm, 52, rfl⟩
abbrev main_c_4 : Ref sig .tc := ⟨.hbm, 53, rfl⟩
abbrev main_v30 : Ref sig .tc := ⟨.hbm, 54, rfl⟩
abbrev main_v31 : Ref sig .tc := ⟨.hbm, 55, rfl⟩
abbrev main_c_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_9 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call1_cst : Ref sig .tc := ⟨.hbm, 84, rfl⟩
abbrev main_call1_v0 : Ref sig .tc := ⟨.hbm, 85, rfl⟩
abbrev main_v55 : Ref sig .tc := ⟨.hbm, 86, rfl⟩
abbrev main_c_10 : Ref sig .tc := ⟨.hbm, 87, rfl⟩
abbrev main_v56 : Ref sig .tc := ⟨.hbm, 88, rfl⟩
abbrev main_v57 : Ref sig .tc := ⟨.hbm, 89, rfl⟩
abbrev main_c_11 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_12 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_13 : Ref sig .tc := ⟨.hbm, 100, rfl⟩
abbrev main_v66 : Ref sig .tc := ⟨.hbm, 101, rfl⟩
abbrev main_cst_14 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_15 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_c_16 : Ref sig .tc := ⟨.hbm, 118, rfl⟩
abbrev main_v81 : Ref sig .tc := ⟨.hbm, 119, rfl⟩
abbrev main_v82 : Ref sig .tc := ⟨.hbm, 120, rfl⟩
abbrev main_c_17 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_18 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_19 : Ref sig .tc := ⟨.hbm, 131, rfl⟩
abbrev main_v91 : Ref sig .tc := ⟨.hbm, 132, rfl⟩
abbrev main_cst_20 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_21 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩

abbrev nD : Nat := 1
abbrev τ : Topo := Topo.v7x

variable {F : FTy → Type} [FloatOps F]

class Facts₀ : Prop where
  slices_S2x1500000_S1x1500000_0_0 : S2x1500000.Slices ![0, 0] S1x1500000
  shapeCasts_S1x1500000_S1500000 : S1x1500000.ShapeCasts S1500000
  slices_S2x1500000_S1x1500000_1_0 : S2x1500000.Slices ![1, 0] S1x1500000
  bcast_S_S1500000 : S_.BroadcastsInDim S1500000 (![] : Fin 0 → Fin S1500000.rank)
  bcast_S1500000_S1500000x1_0 : S1500000.BroadcastsInDim S1500000x1 (![0] : Fin 1 → Fin S1500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S1x128_S200000x128_0_1 : S1x128.BroadcastsInDim S200000x128 (![0, 1] : Fin 2 → Fin S200000x128.rank)
  gather_S200000x128_S1500000x1_S1500000x128_1_0_n_n_0_1_1128_wf : GatherDims.WF S200000x128 S1500000x1 S1500000x128 [1] [0] [] [0] [] 1 ![1, 128]
  scatter_S100000x128_S1500000x1_S1500000x128_1_0_0_1_wf : ScatterDims.WF S100000x128 S1500000x1 S1500000x128 [1] [0] [0] 1
  scatter_S100000_S1500000x1_S1500000_n_0_0_1_wf : ScatterDims.WF S100000 S1500000x1 S1500000 [] [0] [0] 1
  dot_S100000x128_S128x128_S100000x128_1_0_0_1_n_n_wf : DotDims.WF S100000x128 S128x128 S100000x128 [1] [0] [0] [1] [] []
  gather_S100000x128_S1500000x1_S1500000x128_1_0_n_n_0_1_1128_wf : GatherDims.WF S100000x128 S1500000x1 S1500000x128 [1] [0] [] [0] [] 1 ![1, 128]
  scatter_S200000x128_S1500000x1_S1500000x128_1_0_0_1_wf : ScatterDims.WF S200000x128 S1500000x1 S1500000x128 [1] [0] [0] 1
  scatter_S200000_S1500000x1_S1500000_n_0_0_1_wf : ScatterDims.WF S200000 S1500000x1 S1500000 [] [0] [0] 1
  dot_S200000x128_S128x128_S200000x128_1_0_0_1_n_n_wf : DotDims.WF S200000x128 S128x128 S200000x128 [1] [0] [0] [1] [] []

variable [Facts₀]

def gather_S200000x128_S1500000x1_S1500000x128_1_0_n_n_0_1_1128 : GatherDims S200000x128 S1500000x1 S1500000x128 where
  offsetDims := [1]
  collapsedSliceDims := [0]
  operandBatchingDims := []
  startIndicesBatchingDims := []
  startIndexMap := [0]
  indexVectorDim := 1
  sliceSizes := ![1, 128]
  wf := gather_S200000x128_S1500000x1_S1500000x128_1_0_n_n_0_1_1128_wf
def scatter_S100000x128_S1500000x1_S1500000x128_1_0_0_1 : ScatterDims S100000x128 S1500000x1 S1500000x128 where
  updateWindowDims := [1]
  insertedWindowDims := [0]
  scatterDimsToOperandDims := [0]
  indexVectorDim := 1
  wf := scatter_S100000x128_S1500000x1_S1500000x128_1_0_0_1_wf
def scatter_S100000_S1500000x1_S1500000_n_0_0_1 : ScatterDims S100000 S1500000x1 S1500000 where
  updateWindowDims := []
  insertedWindowDims := [0]
  scatterDimsToOperandDims := [0]
  indexVectorDim := 1
  wf := scatter_S100000_S1500000x1_S1500000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1500000x1_S1500000x128_1_0_n_n_0_1_1128 : GatherDims S100000x128 S1500000x1 S1500000x128 where
  offsetDims := [1]
  collapsedSliceDims := [0]
  operandBatchingDims := []
  startIndicesBatchingDims := []
  startIndexMap := [0]
  indexVectorDim := 1
  sliceSizes := ![1, 128]
  wf := gather_S100000x128_S1500000x1_S1500000x128_1_0_n_n_0_1_1128_wf
def scatter_S200000x128_S1500000x1_S1500000x128_1_0_0_1 : ScatterDims S200000x128 S1500000x1 S1500000x128 where
  updateWindowDims := [1]
  insertedWindowDims := [0]
  scatterDimsToOperandDims := [0]
  indexVectorDim := 1
  wf := scatter_S200000x128_S1500000x1_S1500000x128_1_0_0_1_wf
def scatter_S200000_S1500000x1_S1500000_n_0_0_1 : ScatterDims S200000 S1500000x1 S1500000 where
  updateWindowDims := []
  insertedWindowDims := [0]
  scatterDimsToOperandDims := [0]
  indexVectorDim := 1
  wf := scatter_S200000_S1500000x1_S1500000_n_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf

class Facts : Prop extends Facts₀ where

variable [Facts]
-- ==== Proof.KernelRun.lean ====
/-
  The idealized kernel's run with its two results named.

  The program is four kernel regions among stretches of host operations. Every weakly fair execution terminates, without a
  fault, in a state whose every unscoped buffer holds the contents the fold through the program's segments leaves there
  (`Gen.W12`: each host stretch applied in turn, each region's arrays at what its write-backs leave). The generated frame
  keeps of this only that the arguments end unchanged; here the same run is read at the two result buffers as well, so
  that their final contents have a name the value proof can open.
-/
import proofs.«130617_j64527588655555_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN, with the results: every weakly fair execution of the program terminates, nothing faulting, with the two
    result buffers at the last boundary's contents and the argument arrays as launched. -/
theorem run_main : θ_run defs (onTc (τ := τ) (main (F := F))) ⟨m, fun _ => 0, ρ⟩ (fun r => ∀ c : Dev nD,
      r.2.mem ((c.tc : Thread nD τ).loc main_v114) = W12 m ρ c (Proc.devRef .tc main_v114)
      ∧ r.2.mem ((c.tc : Thread nD τ).loc main_v98) = W12 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v114 (by decide)),
       h c _ (mem_uc main_v98 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c)⟩)

end Cert.KernelIdeal.RunValue

end
-- ==== Proof.LibScatterAddFinite.lean ====
/-
  The host's accumulating scatter and its gather on the extended reals: what the entries of their results are when the
  entries of their operands are reals.

  At the ideal instance an accumulating scatter's result at an index `i` is the operand's entry at `i` plus the sum of
  the updates whose result index is `i`. A finite sum of reals is a real, so the result's entries are reals when the
  operand's and the updates' are; and when the operand is 0 everywhere and every update is 1, the entry at `i` is the
  NUMBER of updates landing at `i`, a natural number. A gather's result entry is the operand's entry at a computed
  index, so it is a real when the operand's entries are. All of it holds for any shapes, any dimension numbers and any
  index arrays. (A count above 0 is at least 1, and one that is not above 0 is 0: the two facts a guarded mean needs.)
-/
import Idealize.ShloMosaic.PureOps.Ideal
import Idealize.ShloMosaic.PureOps

noncomputable section

open scoped BigOperators

namespace Cert.ScatterAddFinite

open Idealize.ShloMosaic

/-- A finite sum, in the extended reals, of terms that are reals is a real. -/
theorem exists_real_sum {ι : Type} (S : Finset ι) (f : ι → EReal) (hf : ∀ j ∈ S, ∃ r : ℝ, f j = (r : EReal)) :
    ∃ r : ℝ, ∑ j ∈ S, f j = (r : EReal) := by
  classical
  induction S using Finset.induction_on with
  | empty => exact ⟨0, by simp⟩
  | insert a S ha ih =>
    obtain ⟨ra, hra⟩ := hf a (Finset.mem_insert_self a S)
    obtain ⟨rs, hrs⟩ := ih (fun j hj => hf j (Finset.mem_insert_of_mem hj))
    exact ⟨ra + rs, by rw [Finset.sum_insert ha, hra, hrs, EReal.coe_add]⟩

/-- The accumulating scatter at an index, on the extended reals: the operand's entry there plus the sum of the updates
    whose result index is that index. -/
theorem scatterAdd_apply {s si su : Shape} {φ : FTy} {w : Nat} (d : ScatterDims s si su) (x : FVec Ideal s φ)
    (idx : IVec si w) (upd : FVec Ideal su φ) (i : s.Idx) :
    Host.scatterAdd (F := Ideal) d x idx upd i
      = x i + ∑ j ∈ Finset.univ.filter (fun j => d.resultIdx? j idx = some i), upd j := rfl

/-- (a) When every entry of the operand and every update is a real, every entry of the accumulating scatter's result
    is a real, whatever the indices. -/
theorem scatterAdd_real {s si su : Shape} {φ : FTy} {w : Nat} (d : ScatterDims s si su) (x : FVec Ideal s φ)
    (idx : IVec si w) (upd : FVec Ideal su φ) (hx : ∀ i, ∃ r : ℝ, x i = (r : EReal))
    (hu : ∀ j, ∃ r : ℝ, upd j = (r : EReal)) (i : s.Idx) :
    ∃ r : ℝ, Host.scatterAdd (F := Ideal) d x idx upd i = (r : EReal) := by
  obtain ⟨rx, hrx⟩ := hx i
  obtain ⟨rs, hrs⟩ :=
    exists_real_sum (Finset.univ.filter (fun j => d.resultIdx? j idx = some i)) upd (fun j _ => hu j)
  exact ⟨rx + rs, by rw [scatterAdd_apply, hrx, hrs, EReal.coe_add]⟩

/-- (b), with the number named: when the operand is 0 everywhere and every update is 1, the accumulating scatter's
    entry at `i` is the number of updates whose result index is `i`. -/
theorem scatterAdd_zero_one_apply {s si su : Shape} {φ : FTy} {w : Nat} (d : ScatterDims s si su) (x : FVec Ideal s φ)
    (idx : IVec si w) (upd : FVec Ideal su φ) (hx : ∀ i, x i = (0 : EReal)) (hu : ∀ j, upd j = (1 : EReal))
    (i : s.Idx) :
    Host.scatterAdd (F := Ideal) d x idx upd i
      = (((Finset.univ.filter (fun j => d.resultIdx? j idx = some i)).card : ℝ) : EReal) := by
  rw [scatterAdd_apply, hx i, zero_add, Finset.sum_congr rfl (fun j _ => hu j), Finset.sum_const,
    EReal.nsmul_eq_mul, mul_one]
  exact (EReal.coe_coe_eq_natCast _).symm

/-- (b) When the operand is 0 everywhere and every update is 1, every entry of the accumulating scatter's result is a
    natural number, whatever the indices. -/
theorem scatterAdd_zero_one_nat {s si su : Shape} {φ : FTy} {w : Nat} (d : ScatterDims s si su) (x : FVec Ideal s φ)
    (idx : IVec si w) (upd : FVec Ideal su φ) (hx : ∀ i, x i = (0 : EReal)) (hu : ∀ j, upd j = (1 : EReal))
    (i : s.Idx) :
    ∃ n : ℕ, Host.scatterAdd (F := Ideal) d x idx upd i = ((n : ℝ) : EReal) :=
  ⟨_, scatterAdd_zero_one_apply d x idx upd hx hu i⟩

/-- A natural number above 0 is at least 1: its maximum with 1, in the extended reals, is itself. -/
theorem natCast_max_one_of_pos (n : ℕ) (h : (0 : EReal) < ((n : ℝ) : EReal)) :
    max ((n : ℝ) : EReal) 1 = ((n : ℝ) : EReal) := by
  have h1 : 0 < n := Nat.cast_pos.1 (EReal.coe_pos.1 h)
  have h2 : (1 : ℝ) ≤ (n : ℝ) := Nat.one_le_cast.2 h1
  refine max_eq_left ?_
  rw [← EReal.coe_one]
  exact EReal.coe_le_coe_iff.2 h2

/-- A natural number not above 0 is 0, in the extended reals. -/
theorem natCast_eq_zero_of_not_pos (n : ℕ) (h : ¬ (0 : EReal) < ((n : ℝ) : EReal)) : ((n : ℝ) : EReal) = 0 := by
  have h1 : ¬ 0 < n := fun hn => h (EReal.coe_pos.2 (Nat.cast_pos.2 hn))
  have h2 : n = 0 := Nat.eq_zero_of_not_pos h1
  rw [h2, Nat.cast_zero, EReal.coe_zero]

/-- A natural number above 0, as an extended real, is not 0. -/
theorem natCast_ne_zero_of_pos (n : ℕ) (h : (0 : EReal) < ((n : ℝ) : EReal)) : ((n : ℝ) : EReal) ≠ 0 :=
  ne_of_gt h

/-- A gather's result entry is the operand's entry at the operand index the dimension numbers compute. -/
theorem gather_apply {s si t : Shape} {α : Type} {w : Nat} (d : GatherDims s si t) (x : s.Idx → α) (idx : IVec si w)
    (j : t.Idx) : Host.gather d x idx j = x (d.operandIdx j idx) := rfl

/-- (c) Every entry of a gather's result is an entry of its operand. -/
theorem gather_mem {s si t : Shape} {α : Type} {w : Nat} (d : GatherDims s si t) (x : s.Idx → α) (idx : IVec si w)
    (j : t.Idx) : ∃ k : s.Idx, Host.gather d x idx j = x k := ⟨_, rfl⟩

/-- (c) Every entry of a gather's result is a real when every entry of its operand is, whatever the indices. -/
theorem gather_real {s si t : Shape} {w : Nat} (d : GatherDims s si t) (x : s.Idx → EReal) (idx : IVec si w)
    (hx : ∀ i, ∃ r : ℝ, x i = (r : EReal)) (j : t.Idx) : ∃ r : ℝ, Host.gather d x idx j = (r : EReal) :=
  hx _

end Cert.ScatterAddFinite

end
-- ==== Proof.LibGraphIdx.lean ====
/-
  The host's row gather and row scatter-add of this graph convolution, read at an index.

  The index array has one start index per edge, shape [E, 1]. A gather of rows reads, for edge `e`, the row whose number
  is the edge's start index read signed, negatives taken to 0, clamped to the last row; it reads the same row of a matrix
  [N, D] and of a vector [N]. An accumulating scatter of rows adds edge `e`'s update row into the row whose number is the
  edge's start index read signed, when that number is a row's, and drops it otherwise; so the entry (p, q) of the result
  is the operand's entry plus the sum, over the edges whose start index is `p`, of the updates' entries (e, q).
-/
import Idealize.ShloMosaic.PureOps.Ideal
import Idealize.ShloMosaic.PureOps
import Idealize.ShloMosaic.Lib.ValueIdx
import proofs.«130617_j64527588655555_2_alg».proof.Proof.LibScatterAddFinite

noncomputable section

open scoped BigOperators

namespace Cert.GraphIdx

open Idealize.ShloMosaic Idealize.ShloMosaic.ValueIdx

variable {N E D : Nat}

/-- The row a start index selects for a gather: read signed, negatives to 0, clamped to the last row. -/
def rowOf (hN : 0 < N) {w : Nat} (idx : IVec ⟨2, ![E, 1]⟩ w) (e : Fin E) : Fin N :=
  ⟨min (idx (ix2 e 0)).toInt.toNat (N - 1), by omega⟩

/-- A start index that IS a row's number selects that row. -/
theorem rowOf_eq (hN : 0 < N) {w : Nat} (idx : IVec ⟨2, ![E, 1]⟩ w) (e : Fin E) (p : Fin N)
    (h : (idx (ix2 e 0)).toInt = (p.val : Int)) : rowOf hN idx e = p := by
  apply Fin.ext
  show min (idx (ix2 e 0)).toInt.toNat (N - 1) = p.val
  rw [h, Int.toNat_natCast]
  have := p.isLt
  omega

/-! ## The gathers -/

/-- The dimension numbers of a gather of rows of an [N, D] matrix by an [E, 1] index array. -/
abbrev gd2 (wf : GatherDims.WF ⟨2, ![N, D]⟩ ⟨2, ![E, 1]⟩ ⟨2, ![E, D]⟩ [1] [0] [] [0] [] 1 ![1, D]) : GatherDims ⟨2, ![N, D]⟩ ⟨2, ![E, 1]⟩ ⟨2, ![E, D]⟩ :=
  { offsetDims := [1], collapsedSliceDims := [0], operandBatchingDims := [], startIndicesBatchingDims := [],
    startIndexMap := [0], indexVectorDim := 1, sliceSizes := ![1, D], wf := wf }

/-- The operand index a row gather of a matrix reads at result index (e, q): (the edge's row, q). -/
theorem gd2_operandIdx (wf : GatherDims.WF ⟨2, ![N, D]⟩ ⟨2, ![E, 1]⟩ ⟨2, ![E, D]⟩ [1] [0] [] [0] [] 1 ![1, D]) (hN : 0 < N) {w : Nat} (idx : IVec ⟨2, ![E, 1]⟩ w) (e : Fin E) (q : Fin D) :
    (gd2 (N := N) (E := E) (D := D) wf).operandIdx (ix2 e q) idx = ix2 (rowOf hN idx e) q := by
  funext a
  apply Fin.ext
  match a with
  | ⟨0, _⟩ =>
    show (gd2 wf).start (ix2 e q) idx 0 + (gd2 wf).batchCoord (ix2 e q) 0 + (gd2 wf).offCoord (ix2 e q) 0 = min (idx (ix2 e 0)).toInt.toNat (N - 1)
    have h1 : (gd2 wf).batchCoord (ix2 e q) 0 = 0 :=
      (gd2 wf).batchCoord_eq_zero _ _ (show (0 : Fin 2) ∉ ([] : List (Fin 2)) by decide)
    have h2 : (gd2 wf).offCoord (ix2 e q) 0 = 0 :=
      (gd2 wf).offCoord_eq_zero _ _ (show (0 : Fin 2) ∉ ([1] : List (Fin 2)) by decide)
    have h3 : (gd2 wf).start (ix2 e q) idx 0 = min (idx (ix2 e 0)).toInt.toNat (N - 1) := by
      unfold GatherDims.start
      rw [dif_pos (show (0 : Fin 2) ∈ ([0] : List (Fin 2)) by decide)]
      have hs : ∀ hh, (gd2 wf).siIdx (ix2 e q) ⟨List.idxOf (0 : Fin 2) ([0] : List (Fin 2)), hh⟩ = ix2 e 0 := by
        intro hh
        funext b
        apply Fin.ext
        match b with
        | ⟨0, _⟩ => rfl
        | ⟨1, _⟩ => rfl
      rw [hs]
      rfl
    omega
  | ⟨1, _⟩ =>
    show (gd2 wf).start (ix2 e q) idx 1 + (gd2 wf).batchCoord (ix2 e q) 1 + (gd2 wf).offCoord (ix2 e q) 1 = q.val
    have h1 : (gd2 wf).batchCoord (ix2 e q) 1 = 0 :=
      (gd2 wf).batchCoord_eq_zero _ _ (show (1 : Fin 2) ∉ ([] : List (Fin 2)) by decide)
    have h0 : (gd2 wf).start (ix2 e q) idx 1 = 0 := by
      unfold GatherDims.start
      rw [dif_neg (show (1 : Fin 2) ∉ ([0] : List (Fin 2)) by decide)]
    have h3 : (gd2 wf).offCoord (ix2 e q) 1 = q.val := by
      unfold GatherDims.offCoord
      have hm : (1 : Fin 2) ∈ (gd2 wf).sKept := (show (1 : Fin 2) ∈ ([1] : List (Fin 2)) by decide)
      rw [dif_pos hm]
      rfl
    omega

/-- A gather of rows of a matrix reads, at (e, q), the matrix at (the edge's row, q). -/
theorem gather2_apply {α : Type} (wf : GatherDims.WF ⟨2, ![N, D]⟩ ⟨2, ![E, 1]⟩ ⟨2, ![E, D]⟩ [1] [0] [] [0] [] 1 ![1, D]) (hN : 0 < N) {w : Nat}
    (x : (⟨2, ![N, D]⟩ : Shape).Idx → α) (idx : IVec ⟨2, ![E, 1]⟩ w) (e : Fin E) (q : Fin D) :
    Host.gather (gd2 wf) x idx (ix2 e q) = x (ix2 (rowOf hN idx e) q) := by
  rw [Cert.ScatterAddFinite.gather_apply, gd2_operandIdx wf hN]

/-- The dimension numbers of a gather of entries of an [N] vector by an [E, 1] index array. -/
abbrev gd1 (wf : GatherDims.WF ⟨1, ![N]⟩ ⟨2, ![E, 1]⟩ ⟨1, ![E]⟩ [] [0] [] [0] [] 1 ![1]) : GatherDims ⟨1, ![N]⟩ ⟨2, ![E, 1]⟩ ⟨1, ![E]⟩ :=
  { offsetDims := [], collapsedSliceDims := [0], operandBatchingDims := [], startIndicesBatchingDims := [],
    startIndexMap := [0], indexVectorDim := 1, sliceSizes := ![1], wf := wf }

/-- The operand index a gather of a vector's entries reads at result index e: the edge's row. -/
theorem gd1_operandIdx (wf : GatherDims.WF ⟨1, ![N]⟩ ⟨2, ![E, 1]⟩ ⟨1, ![E]⟩ [] [0] [] [0] [] 1 ![1]) (hN : 0 < N) {w : Nat} (idx : IVec ⟨2, ![E, 1]⟩ w) (e : Fin E) :
    (gd1 (N := N) (E := E) wf).operandIdx (ix1 e) idx = ix1 (rowOf hN idx e) := by
  funext a
  apply Fin.ext
  match a with
  | ⟨0, _⟩ =>
    show (gd1 wf).start (ix1 e) idx 0 + (gd1 wf).batchCoord (ix1 e) 0 + (gd1 wf).offCoord (ix1 e) 0 = min (idx (ix2 e 0)).toInt.toNat (N - 1)
    have h1 : (gd1 wf).batchCoord (ix1 e) 0 = 0 :=
      (gd1 wf).batchCoord_eq_zero _ _ (show (0 : Fin 1) ∉ ([] : List (Fin 1)) by decide)
    have h2 : (gd1 wf).offCoord (ix1 e) 0 = 0 :=
      (gd1 wf).offCoord_eq_zero _ _ (show (0 : Fin 1) ∉ ([] : List (Fin 1)) by decide)
    have h3 : (gd1 wf).start (ix1 e) idx 0 = min (idx (ix2 e 0)).toInt.toNat (N - 1) := by
      unfold GatherDims.start
      rw [dif_pos (show (0 : Fin 1) ∈ ([0] : List (Fin 1)) by decide)]
      have hs : ∀ hh, (gd1 wf).siIdx (ix1 e) ⟨List.idxOf (0 : Fin 1) ([0] : List (Fin 1)), hh⟩ = ix2 e 0 := by
        intro hh
        funext b
        apply Fin.ext
        match b with
        | ⟨0, _⟩ => rfl
        | ⟨1, _⟩ => rfl
      rw [hs]
      rfl
    omega

/-- A gather of entries of a vector reads, at e, the vector at the edge's row: the SAME row as the matrix gather's. -/
theorem gather1_apply {α : Type} (wf : GatherDims.WF ⟨1, ![N]⟩ ⟨2, ![E, 1]⟩ ⟨1, ![E]⟩ [] [0] [] [0] [] 1 ![1]) (hN : 0 < N) {w : Nat}
    (x : (⟨1, ![N]⟩ : Shape).Idx → α) (idx : IVec ⟨2, ![E, 1]⟩ w) (e : Fin E) :
    Host.gather (gd1 wf) x idx (ix1 e) = x (ix1 (rowOf hN idx e)) := by
  rw [Cert.ScatterAddFinite.gather_apply, gd1_operandIdx wf hN]

/-! ## The accumulating scatters -/

/-- The dimension numbers of an accumulating scatter of [E, D] update rows into an [N, D] matrix by an [E, 1] index array. -/
abbrev sd2 (wf : ScatterDims.WF ⟨2, ![N, D]⟩ ⟨2, ![E, 1]⟩ ⟨2, ![E, D]⟩ [1] [0] [0] 1) : ScatterDims ⟨2, ![N, D]⟩ ⟨2, ![E, 1]⟩ ⟨2, ![E, D]⟩ :=
  { updateWindowDims := [1], insertedWindowDims := [0], scatterDimsToOperandDims := [0], indexVectorDim := 1, wf := wf }

theorem sd2_start0 (wf : ScatterDims.WF ⟨2, ![N, D]⟩ ⟨2, ![E, 1]⟩ ⟨2, ![E, D]⟩ [1] [0] [0] 1) {w : Nat} (idx : IVec ⟨2, ![E, 1]⟩ w) (e : Fin E) (q : Fin D) :
    (sd2 (N := N) wf).start (ix2 e q) idx 0 = (idx (ix2 e 0)).toInt := by
  unfold ScatterDims.start
  rw [dif_pos (show (0 : Fin 2) ∈ ([0] : List (Fin 2)) by decide)]
  have hs : ∀ hh, (sd2 wf).siIdx (ix2 e q) ⟨List.idxOf (0 : Fin 2) ([0] : List (Fin 2)), hh⟩ = ix2 e 0 := by
    intro hh
    funext b
    apply Fin.ext
    match b with
    | ⟨0, _⟩ => rfl
    | ⟨1, _⟩ => rfl
  rw [hs]

theorem sd2_start1 (wf : ScatterDims.WF ⟨2, ![N, D]⟩ ⟨2, ![E, 1]⟩ ⟨2, ![E, D]⟩ [1] [0] [0] 1) {w : Nat} (idx : IVec ⟨2, ![E, 1]⟩ w) (e : Fin E) (q : Fin D) :
    (sd2 (N := N) wf).start (ix2 e q) idx 1 = 0 := by
  unfold ScatterDims.start
  rw [dif_neg (show (1 : Fin 2) ∉ ([0] : List (Fin 2)) by decide)]

theorem sd2_window0 (wf : ScatterDims.WF ⟨2, ![N, D]⟩ ⟨2, ![E, 1]⟩ ⟨2, ![E, D]⟩ [1] [0] [0] 1) (e : Fin E) (q : Fin D) : (sd2 (N := N) wf).window (ix2 e q) 0 = 0 := by
  unfold ScatterDims.window
  have hm : (0 : Fin 2) ∉ (sd2 wf).sKept := (show (0 : Fin 2) ∉ ([1] : List (Fin 2)) by decide)
  rw [dif_neg hm]

theorem sd2_window1 (wf : ScatterDims.WF ⟨2, ![N, D]⟩ ⟨2, ![E, 1]⟩ ⟨2, ![E, D]⟩ [1] [0] [0] 1) (e : Fin E) (q : Fin D) : (sd2 (N := N) wf).window (ix2 e q) 1 = q.val := by
  unfold ScatterDims.window
  have hm : (1 : Fin 2) ∈ (sd2 wf).sKept := (show (1 : Fin 2) ∈ ([1] : List (Fin 2)) by decide)
  rw [dif_pos hm]
  rfl

/-- Update index (e, q) lands on (p, q') exactly when edge e's start index, read signed, is p, and q = q'. -/
theorem sd2_lands (wf : ScatterDims.WF ⟨2, ![N, D]⟩ ⟨2, ![E, 1]⟩ ⟨2, ![E, D]⟩ [1] [0] [0] 1) {w : Nat} (idx : IVec ⟨2, ![E, 1]⟩ w) (e : Fin E) (q : Fin D) (p : Fin N) (q' : Fin D) :
    (sd2 wf).resultIdx? (ix2 e q) idx = some (ix2 p q') ↔ (idx (ix2 e 0)).toInt = (p.val : Int) ∧ q = q' := by
  have s0 := sd2_start0 (N := N) wf idx e q
  have s1 := sd2_start1 (N := N) wf idx e q
  have w0 := sd2_window0 (N := N) wf e q
  have w1 := sd2_window1 (N := N) wf e q
  have hp := p.isLt
  have hq := q.isLt
  unfold ScatterDims.resultIdx?
  split
  · rename_i h
    rw [Option.some.injEq]
    constructor
    · intro hf
      have h0 := congrArg (fun f => (f 0).val) hf
      have h1 := congrArg (fun f => (f 1).val) hf
      have a0 := h 0
      simp only [s0, w0] at h0 a0
      simp only [s1, w1] at h1
      refine ⟨?_, Fin.ext ?_⟩
      · change ((idx (ix2 e 0)).toInt + ((0 : Nat) : Int)).toNat = p.val at h0
        omega
      · change ((0 : Int) + (q.val : Int)).toNat = q'.val at h1
        omega
    · rintro ⟨hi, rfl⟩
      funext a
      apply Fin.ext
      match a with
      | ⟨0, _⟩ =>
        show ((sd2 wf).start (ix2 e q) idx 0 + ((sd2 wf).window (ix2 e q) 0 : Int)).toNat = p.val
        rw [s0, w0]; omega
      | ⟨1, _⟩ =>
        show ((sd2 wf).start (ix2 e q) idx 1 + ((sd2 wf).window (ix2 e q) 1 : Int)).toNat = q.val
        rw [s1, w1]; omega
  · rename_i h
    constructor
    · intro hf; exact absurd hf (by simp)
    · rintro ⟨hi, rfl⟩
      exfalso
      apply h
      intro a
      match a with
      | ⟨0, _⟩ =>
        show 0 ≤ (sd2 wf).start (ix2 e q) idx 0 + ((sd2 wf).window (ix2 e q) 0 : Int) ∧ (sd2 wf).start (ix2 e q) idx 0 + ((sd2 wf).window (ix2 e q) 0 : Int) < (N : Int)
        rw [s0, w0]; omega
      | ⟨1, _⟩ =>
        show 0 ≤ (sd2 wf).start (ix2 e q) idx 1 + ((sd2 wf).window (ix2 e q) 1 : Int) ∧ (sd2 wf).start (ix2 e q) idx 1 + ((sd2 wf).window (ix2 e q) 1 : Int) < (D : Int)
        rw [s1, w1]; omega

/-- An accumulating scatter of rows, at (p, q): the operand's entry plus the sum, over the edges whose start index is p,
    of the updates' entries (e, q). -/
theorem scatterAdd2_apply (wf : ScatterDims.WF ⟨2, ![N, D]⟩ ⟨2, ![E, 1]⟩ ⟨2, ![E, D]⟩ [1] [0] [0] 1) {w : Nat} {φ : FTy} (x : FVec Ideal ⟨2, ![N, D]⟩ φ) (idx : IVec ⟨2, ![E, 1]⟩ w)
    (upd : FVec Ideal ⟨2, ![E, D]⟩ φ) (p : Fin N) (q : Fin D) :
    Host.scatterAdd (F := Ideal) (sd2 wf) x idx upd (ix2 p q)
      = x (ix2 p q) + ∑ e ∈ Finset.univ.filter (fun e : Fin E => (idx (ix2 e 0)).toInt = (p.val : Int)), upd (ix2 e q) := by
  classical
  rw [Cert.ScatterAddFinite.scatterAdd_apply]
  congr 1
  rw [Finset.sum_filter, sum_idx2, Finset.sum_filter]
  refine Finset.sum_congr rfl fun e _ => ?_
  by_cases hL : (idx (ix2 e 0)).toInt = (p.val : Int)
  · rw [if_pos hL]
    have : ∀ b : Fin D, (if (sd2 wf).resultIdx? (ix2 e b) idx = some (ix2 p q) then upd (ix2 e b) else 0)
        = if b = q then upd (ix2 e b) else 0 := by
      intro b
      by_cases hb : b = q
      · rw [if_pos hb, if_pos ((sd2_lands wf idx e b p q).2 ⟨hL, hb⟩)]
      · rw [if_neg hb, if_neg (fun h => hb ((sd2_lands wf idx e b p q).1 h).2)]
    rw [Finset.sum_congr rfl (fun b _ => this b), Finset.sum_ite_eq' Finset.univ q, if_pos (Finset.mem_univ q)]
  · rw [if_neg hL]
    refine Finset.sum_eq_zero fun b _ => ?_
    rw [if_neg (fun h => hL ((sd2_lands wf idx e b p q).1 h).1)]

/-- The dimension numbers of an accumulating scatter of [E] updates into an [N] vector by an [E, 1] index array. -/
abbrev sd1 (wf : ScatterDims.WF ⟨1, ![N]⟩ ⟨2, ![E, 1]⟩ ⟨1, ![E]⟩ [] [0] [0] 1) : ScatterDims ⟨1, ![N]⟩ ⟨2, ![E, 1]⟩ ⟨1, ![E]⟩ :=
  { updateWindowDims := [], insertedWindowDims := [0], scatterDimsToOperandDims := [0], indexVectorDim := 1, wf := wf }

theorem sd1_start0 (wf : ScatterDims.WF ⟨1, ![N]⟩ ⟨2, ![E, 1]⟩ ⟨1, ![E]⟩ [] [0] [0] 1) {w : Nat} (idx : IVec ⟨2, ![E, 1]⟩ w) (e : Fin E) :
    (sd1 (N := N) wf).start (ix1 e) idx 0 = (idx (ix2 e 0)).toInt := by
  unfold ScatterDims.start
  rw [dif_pos (show (0 : Fin 1) ∈ ([0] : List (Fin 1)) by decide)]
  have hs : ∀ hh, (sd1 wf).siIdx (ix1 e) ⟨List.idxOf (0 : Fin 1) ([0] : List (Fin 1)), hh⟩ = ix2 e 0 := by
    intro hh
    funext b
    apply Fin.ext
    match b with
    | ⟨0, _⟩ => rfl
    | ⟨1, _⟩ => rfl
  rw [hs]

theorem sd1_window0 (wf : ScatterDims.WF ⟨1, ![N]⟩ ⟨2, ![E, 1]⟩ ⟨1, ![E]⟩ [] [0] [0] 1) (e : Fin E) : (sd1 (N := N) wf).window (ix1 e) 0 = 0 := by
  unfold ScatterDims.window
  have hm : (0 : Fin 1) ∉ (sd1 wf).sKept := (show (0 : Fin 1) ∉ ([] : List (Fin 1)) by decide)
  rw [dif_neg hm]

/-- Update index e lands on p exactly when edge e's start index, read signed, is p. -/
theorem sd1_lands (wf : ScatterDims.WF ⟨1, ![N]⟩ ⟨2, ![E, 1]⟩ ⟨1, ![E]⟩ [] [0] [0] 1) {w : Nat} (idx : IVec ⟨2, ![E, 1]⟩ w) (e : Fin E) (p : Fin N) :
    (sd1 wf).resultIdx? (ix1 e) idx = some (ix1 p) ↔ (idx (ix2 e 0)).toInt = (p.val : Int) := by
  have s0 := sd1_start0 (N := N) wf idx e
  have w0 := sd1_window0 (N := N) wf e
  have hp := p.isLt
  unfold ScatterDims.resultIdx?
  split
  · rename_i h
    rw [Option.some.injEq]
    constructor
    · intro hf
      have h0 := congrArg (fun f => (f 0).val) hf
      have a0 := h 0
      simp only [s0, w0] at h0 a0
      change ((idx (ix2 e 0)).toInt + ((0 : Nat) : Int)).toNat = p.val at h0
      omega
    · intro hi
      funext a
      apply Fin.ext
      match a with
      | ⟨0, _⟩ =>
        show ((sd1 wf).start (ix1 e) idx 0 + ((sd1 wf).window (ix1 e) 0 : Int)).toNat = p.val
        rw [s0, w0]; omega
  · rename_i h
    constructor
    · intro hf; exact absurd hf (by simp)
    · intro hi
      exfalso
      apply h
      intro a
      match a with
      | ⟨0, _⟩ =>
        show 0 ≤ (sd1 wf).start (ix1 e) idx 0 + ((sd1 wf).window (ix1 e) 0 : Int) ∧ (sd1 wf).start (ix1 e) idx 0 + ((sd1 wf).window (ix1 e) 0 : Int) < (N : Int)
        rw [s0, w0]; omega

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- An accumulating scatter into a vector, at p: the operand's entry plus the sum of the updates of the edges whose
    start index is p. -/
theorem scatterAdd1_apply (wf : ScatterDims.WF ⟨1, ![N]⟩ ⟨2, ![E, 1]⟩ ⟨1, ![E]⟩ [] [0] [0] 1) {w : Nat} {φ : FTy} (x : FVec Ideal ⟨1, ![N]⟩ φ) (idx : IVec ⟨2, ![E, 1]⟩ w)
    (upd : FVec Ideal ⟨1, ![E]⟩ φ) (p : Fin N) :
    Host.scatterAdd (F := Ideal) (sd1 wf) x idx upd (ix1 p)
      = x (ix1 p) + ∑ e ∈ Finset.univ.filter (fun e : Fin E => (idx (ix2 e 0)).toInt = (p.val : Int)), upd (ix1 e) := by
  classical
  rw [Cert.ScatterAddFinite.scatterAdd_apply]
  congr 1
  rw [Finset.sum_filter, ← Equiv.sum_comp (idxEquiv1 (n := E)).symm, Finset.sum_filter]
  refine Finset.sum_congr rfl fun e _ => ?_
  show (if (sd1 wf).resultIdx? (ix1 e) idx = some (ix1 p) then upd (ix1 e) else 0) = _
  by_cases hL : (idx (ix2 e 0)).toInt = (p.val : Int)
  · rw [if_pos hL, if_pos ((sd1_lands wf idx e p).2 hL)]
  · rw [if_neg hL, if_neg (fun h => hL ((sd1_lands wf idx e p).1 h))]

end Cert.GraphIdx

end
-- ==== Proof.LibLayerAlgebra.lean ====
/-
  The two laws that join the kernel's dense layer to the reference's, on the extended reals.

  * The kernel scales a row of aggregated sums by the RECIPROCAL of the row's count, `a · (1 / y)`, where the
    reference DIVIDES by the count, `a / y`. For a real `y ≠ 0` these agree for every extended real `a`, the
    infinities included: the quotient by a nonzero real is by definition the product with its real reciprocal.
  * The kernel adds the two matrix products first and the bias last, the reference adds the bias between them.
    Addition of extended reals is commutative and associative, so the groupings agree with no finiteness.
-/
import Idealize.ShloMosaic.PureOps.Ideal.Laws

noncomputable section

namespace LibLayerAlgebra

open Idealize.ShloMosaic

/-- Multiplying by the reciprocal of a nonzero real is dividing by it. `one` is any spelling of the real one. -/
theorem mul_recip_eq_div {one : EReal} (hone : one = 1) {y : ℝ} (hy : y ≠ 0) (a : EReal) :
    a * Ideal.div one (y : EReal) = Ideal.div a (y : EReal) := by
  rw [hone, Ideal.div_coe hy 1, one_mul, Ideal.div_coe hy a]

/-- The bias added last is the bias added between the two products. -/
theorem bias_last_eq_between (A B b : EReal) : (A + B) + b = (A + b) + B := add_right_comm A B b

end LibLayerAlgebra

end
-- ==== Proof.LibMeanAlgebra.lean ====
/-
  The algebra of a mean-aggregating graph layer on the extended reals.

  Three facts, none about any program:
  * a finite sum of nonnegative reals, taken in the extended reals, is a nonnegative real — so a node's in-degree,
    counted by adding a one for every incoming edge, is a nonnegative real, and its maximum with one is a positive real;
  * dividing every entry of a row by a positive real `y` BEFORE contracting the row with a column gives the
    contraction multiplied by `1 / y` AFTER: `∑ₖ (aₖ / y) · wₖ = (∑ₖ aₖ · wₖ) · (1 / y)`. On the extended reals this
    needs no finiteness of `a` or `w`: the reciprocal of a positive real is a nonnegative real different from `⊤`, and
    multiplication by such a factor distributes over every sum of extended reals, infinite terms included;
  * the float pattern of `1.0` denotes the real one.
-/
import Idealize.ShloMosaic.PureOps.Ideal.Laws

noncomputable section

open scoped BigOperators

namespace LibMeanAlgebra

open Idealize.ShloMosaic

/-- The pattern of `1.0` denotes one. -/
theorem ofBits_one : Ideal.ofBits .f32 0x3F800000#32 = 1 := by
  simp [Ideal.ofBits, Ideal.ieee, -EReal.coe_mul]; norm_num

/-- A finite sum of nonnegative reals, taken in the extended reals, is a nonnegative real. -/
theorem sum_real_nonneg {ι : Type} (s : Finset ι) (f : ι → EReal)
    (hf : ∀ j ∈ s, ∃ r : ℝ, 0 ≤ r ∧ f j = (r : EReal)) :
    ∃ r : ℝ, 0 ≤ r ∧ ∑ j ∈ s, f j = (r : EReal) := by
  classical
  induction s using Finset.induction_on with
  | empty => exact ⟨0, le_refl 0, by simp⟩
  | insert a s ha ih =>
    obtain ⟨r, hr, e⟩ := hf a (Finset.mem_insert_self a s)
    obtain ⟨r', hr', e'⟩ := ih (fun j hj => hf j (Finset.mem_insert_of_mem hj))
    exact ⟨r + r', add_nonneg hr hr', by rw [Finset.sum_insert ha, e, e', EReal.coe_add]⟩

/-- COUNTING BY SCATTER: adding a one into a zero array for every update that lands on an element leaves, at every
    element, a nonnegative real (the number of updates that landed there). -/
theorem scatter_ones_real {s si su : Shape} (d : ScatterDims s si su) {w : Nat} (x : s.Idx → EReal) (idx : IVec si w)
    (upd : su.Idx → EReal) (i : s.Idx) (hx : x i = 0) (hu : ∀ j, upd j = 1) :
    ∃ r : ℝ, 0 ≤ r ∧ Ideal.hostScatterAdd d x idx upd i = (r : EReal) := by
  obtain ⟨r, hr, e⟩ := sum_real_nonneg (Finset.univ.filter fun j => d.resultIdx? j idx = some i) upd
    (fun j _ => ⟨1, zero_le_one, by rw [hu j, EReal.coe_one]⟩)
  exact ⟨r, hr, by unfold Ideal.hostScatterAdd; rw [hx, zero_add, e]⟩

/-- The maximum of a nonnegative real with one is a positive real. -/
theorem max_one_pos {z one : EReal} (hone : one = 1) (hz : ∃ r : ℝ, 0 ≤ r ∧ z = (r : EReal)) :
    ∃ y : ℝ, 0 < y ∧ max z one = (y : EReal) := by
  obtain ⟨r, _, rfl⟩ := hz
  refine ⟨max r 1, lt_of_lt_of_le zero_lt_one (le_max_right r 1), ?_⟩
  rw [hone, ← EReal.coe_one]
  exact (EReal.coe_strictMono.monotone.map_max).symm

/-- Multiplication by a nonnegative real distributes over a finite sum of extended reals. -/
theorem sum_mul_real {ι : Type} (s : Finset ι) (f : ι → EReal) {c : EReal} (hc : 0 ≤ c) (hct : c ≠ ⊤) :
    ∑ k ∈ s, f k * c = (∑ k ∈ s, f k) * c := by
  classical
  induction s using Finset.induction_on with
  | empty => simp
  | insert j s hj ih =>
    rw [Finset.sum_insert hj, Finset.sum_insert hj, ih, EReal.right_distrib_of_nonneg_of_ne_top hc hct]

/-- THE MEAN COMMUTES WITH THE LINEAR MAP: dividing a row by a positive real before contracting it with a column is
    multiplying the contraction by the reciprocal afterwards. `one` is any spelling of the real one. -/
theorem sum_div_mul {ι : Type} [Fintype ι] (a w : ι → EReal) {one : EReal} (hone : one = 1) {y : ℝ} (hy : 0 < y) :
    ∑ k, Ideal.div (a k) (y : EReal) * w k = (∑ k, a k * w k) * Ideal.div one (y : EReal) := by
  have hy0 : y ≠ 0 := ne_of_gt hy
  have hc : (0 : EReal) ≤ ((1 / y : ℝ) : EReal) := by exact_mod_cast (one_div_pos.mpr hy).le
  rw [hone, Ideal.div_coe hy0 1, one_mul, ← sum_mul_real Finset.univ _ hc (EReal.coe_ne_top _)]
  refine Finset.sum_congr rfl fun k _ => ?_
  rw [Ideal.div_coe hy0, mul_right_comm]

end LibMeanAlgebra

end
-- ==== Proof.LibBroadcastInDimPair.lean ====
/-
  A host `broadcast_in_dim` of a rank-2 operand with a unit axis onto axes (0, 1) of a rank-2 result, read at an index,
  in the style of the library's Lib/ValueLayout.lean (which has the vector-broadcast forms): a COLUMN [a, 1] spread along
  the second axis of [a, b], and a ROW [1, b] spread down the first axis of [a, b].  General in the two extents and in the
  element type.
-/
import Idealize.ShloMosaic.Lib.Pipeline.Value
import Idealize.ShloMosaic.Lib.ValueIdx

noncomputable section

namespace Idealize.ShloMosaic.ValueIdx

variable {α : Type}

/-- A column `[a, 1]` placed on axes (0, 1) of `[a, b]` reads, at `(p, c)`, the column's entry of row `p`. -/
theorem broadcastInDim_col_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` placed on axes (0, 1) of `[a, b]` reads, at `(p, c)`, the row's entry of column `c`. -/
theorem broadcastInDim_row_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx

end
-- ==== Proof.LibMeanScale.lean ====
/-
  The mean over incoming edges, scaled two ways, on the extended reals.

  A mean-aggregating graph layer sums the features of a node's in-neighbours and divides by the node's in-degree (at
  least one). One program multiplies every row `p` of the sums by the reciprocal `1 / cnt[p]`, computed once; another divides
  row `p` by `cnt[p]`. When every count is a positive real the two arrays are equal, entry by entry and for every
  extended-real sum, the infinities included: the quotient by a nonzero real is the product with its real reciprocal.
  Also here: the layout steps that carry a per-node vector to a per-entry array (a vector `[a]` placed as the column
  `[a, 1]`, a scalar spread over a whole array), read at an index; and that counting edges by scattering ones into zeros
  and taking the maximum with one gives a positive real at every node.
  General in every extent.
-/
import Idealize.ShloMosaic.PureOps.Ideal.Laws
import Idealize.ShloMosaic.Lib.ValueIdx
import Idealize.ShloMosaic.Lib.Pipeline.Value
import proofs.«130617_j64527588655555_2_alg».proof.Proof.LibLayerAlgebra
import proofs.«130617_j64527588655555_2_alg».proof.Proof.LibMeanAlgebra
import proofs.«130617_j64527588655555_2_alg».proof.Proof.LibBroadcastInDimPair

noncomputable section

namespace LibMeanScale

open Idealize.ShloMosaic Idealize.ShloMosaic.ValueIdx

/-- A vector `[a]` placed on axis 0 of a column `[a, 1]` reads, at `(p, u)`, the vector at `p`. -/
theorem broadcastInDim_vec_col_apply {α : Type} {a : Nat} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A scalar spread over a whole array reads, at every index, the scalar. -/
theorem broadcastInDim_scalar_apply {α : Type} {s : Shape} (v : (⟨0, ![]⟩ : Shape).Idx → α)
    (h : (⟨0, ![]⟩ : Shape).BroadcastsInDim s ![]) (i : s.Idx) :
    broadcastInDim s ![] h v i = v ix0 :=
  broadcastInDim_apply _ h v i ix0 fun ax => ax.elim0

/-- A per-node vector carried to a per-entry array (column, then spread along the features) reads, at `(p, q)`, the
    vector at `p`. -/
theorem spread_apply {α : Type} {a b : Nat} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [broadcastInDim_col_apply, broadcastInDim_vec_col_apply]

/-- MULTIPLYING BY THE RECIPROCAL COUNT IS DIVIDING BY THE COUNT, array against array: for counts that are positive
    reals and `one` the all-ones vector. -/
theorem mul_recip_eq_div {a b : Nat} (agg : FVec Ideal ⟨2, ![a, b]⟩ .f32) (one cnt : FVec Ideal ⟨1, ![a]⟩ .f32)
    (h1 : (⟨1, ![a]⟩ : Shape).BroadcastsInDim ⟨2, ![a, 1]⟩ ![0])
    (h2 : (⟨2, ![a, 1]⟩ : Shape).BroadcastsInDim ⟨2, ![a, b]⟩ ![0, 1])
    (hone : ∀ i, one i = 1) (hcnt : ∀ i, ∃ y : ℝ, 0 < y ∧ cnt i = (y : EReal)) :
    mulf agg (broadcastInDim ⟨2, ![a, b]⟩ ![0, 1] h2 (broadcastInDim ⟨2, ![a, 1]⟩ ![0] h1 (Host.divf one cnt)))
      = Host.divf agg (broadcastInDim ⟨2, ![a, b]⟩ ![0, 1] h2 (broadcastInDim ⟨2, ![a, 1]⟩ ![0] h1 cnt)) := by
  funext i
  obtain ⟨p, q, rfl⟩ : ∃ (p : Fin a) (q : Fin b), i = ix2 p q := ⟨i 0, i 1, eq_ix2 i⟩
  show agg (ix2 p q) * broadcastInDim ⟨2, ![a, b]⟩ ![0, 1] h2 (broadcastInDim ⟨2, ![a, 1]⟩ ![0] h1 (Host.divf one cnt)) (ix2 p q)
    = Ideal.div (agg (ix2 p q)) (broadcastInDim ⟨2, ![a, b]⟩ ![0, 1] h2 (broadcastInDim ⟨2, ![a, 1]⟩ ![0] h1 cnt) (ix2 p q))
  rw [spread_apply, spread_apply]
  obtain ⟨y, hy, e⟩ := hcnt (ix1 p)
  show agg (ix2 p q) * Ideal.div (one (ix1 p)) (cnt (ix1 p)) = Ideal.div (agg (ix2 p q)) (cnt (ix1 p))
  rw [e]
  exact LibLayerAlgebra.mul_recip_eq_div (hone _) (ne_of_gt hy) _

/-- COUNTING IN-EDGES: ones scattered into zeros, then the maximum with one, is a positive real at every node. -/
theorem count_pos {s si su : Shape} (d : ScatterDims s si su) {w : Nat} (zero one' : FVec Ideal s .f32) (idx : IVec si w)
    (one : FVec Ideal su .f32) (hz : ∀ i, zero i = 0) (ho : ∀ j, one j = 1) (ho' : ∀ i, one' i = 1) (i : s.Idx) :
    ∃ y : ℝ, 0 < y ∧ maximumf (Host.scatterAdd d zero idx one) one' i = (y : EReal) :=
  LibMeanAlgebra.max_one_pos (ho' i) (LibMeanAlgebra.scatter_ones_real d zero idx one i (hz i) ho)

end LibMeanScale

end
-- ==== Proof.LibVecToColumn.lean ====
/-
  A reshape keeps the row-major position of every element: a vector of length `n` and the column `[n, 1]` it is
  reshaped to hold element `r` at positions `r` and `r · 1 + 0`.
-/
import Idealize.ShloMosaic.Lib.Pipeline.Value
import Idealize.ShloMosaic.Lib.ValueIdx

noncomputable section

namespace LibVecToColumn

open Idealize.ShloMosaic Idealize.ShloMosaic.ValueIdx

/-- A vector of length `n` laid out as a column `[n, 1]` reads, at `(r, 0)`, the vector at `r`. -/
theorem vec_to_col_apply {α : Type} {n : Nat} (x : (⟨1, ![n]⟩ : Shape).Idx → α)
    (h : (⟨1, ![n]⟩ : Shape).ShapeCasts ⟨2, ![n, 1]⟩) (r : Fin n) :
    shapeCast ⟨2, ![n, 1]⟩ x h (ix2 r (0 : Fin 1)) = x (ix1 r) :=
  shapeCast_apply x h _ _ (by
    rw [Shape.rowMajor_val_one, Shape.rowMajor_val_two]
    show r.val = r.val * 1 + 0
    rw [Nat.mul_one, Nat.add_zero])

end LibVecToColumn

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibDotGeneralNN.lean ====
/-
  jnp's `dot_general` on the host of a row-major `M × K` array against a `K × N` array (the right operand NOT
  transposed: the left operand's axis 1 is contracted with the right operand's axis 0), read at the extended reals:
  entry `(p, q)` of the result is the sum over `k` of `x[p, k] · w[k, q]`, whatever the schedule key and the precision.
  It is the same sum, over the same index set `Fin K` and in the same form, as the matrix unit's product into a zero
  accumulator (LibMatmulNN.matmul_zero_apply), so a kernel's `tpu.matmul` and a reference's `dot_general` of equal
  operands are equal entry by entry.  General in the three extents and in the operands' float formats.
-/
import Idealize.ShloMosaic.PureOps.Ideal.Laws
import Idealize.ShloMosaic.Lib.ValueIdx
import proofs.«130617_j64527588655555_2_alg».proof.Proof.LibMatmulNN

noncomputable section

open scoped BigOperators

namespace LibDotGeneralNN

open Idealize.ShloMosaic Idealize.ShloMosaic.ValueIdx

variable (M K N : Nat)

/-- Entry `(p, q)` of the host's `dot_general` of `x` and `w` is `∑ k, x[p, k] · w[k, q]` on the extended reals. -/
theorem dotGeneral_apply {φ₁ φ₂ : FTy} (prec : Option ContractPrecision) (sched : HostSchedule)
    (x : FVec Ideal ⟨2, ![M, K]⟩ φ₁) (w : FVec Ideal ⟨2, ![K, N]⟩ φ₂) (p : Fin M) (q : Fin N) :
    FloatOps.dotGeneral (DotDims.plain M K N) prec sched x w (ix2 p q)
      = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [LibMatmulNN.lhsIdx_eq, LibMatmulNN.rhsIdx_eq]

end LibDotGeneralNN

end
-- ==== Proof.LibSageMean.lean ====
/-
  One mean-aggregating graph layer on the extended reals, entry by entry, and the forms the two programs compute it in.

  For source features `X` (Ns rows of D features), and E edges, edge `e` reading source row `src e` and adding it to the
  destination row whose number is the integer `dst e` (an edge whose `dst e` is no row's number is dropped):
    * `aggSum` at (p, q) is the sum over the edges with `dst e = p` of `X[src e, q]`;
    * `degree` at p is the number of those edges, as a sum of ones;
    * `mean` at (p, q) is `aggSum / max (degree, 1)`.
  All three are unchanged when the edges are listed in another order: for a bijection π of the edges,
  `mean X (src ∘ π) (dst ∘ π) = mean X src dst`, a reindexing of finite sums in a commutative monoid (no finiteness of
  the features is needed).
  One program multiplies the sums by the reciprocal `1 / max (degree, 1)`, computed per node and laid out as a column;
  the other divides by `max (degree, 1)` spread the same way. As `max (degree, 1)` is a positive real, the two are equal
  for every extended-real sum.
  The dense part, at (p, q): `(∑ k, a[p,k]·wl[k,q] + b[q]) + ∑ k, x[p,k]·wr[k,q]`, optionally clamped below at zero; a
  kernel computes a block of its rows with two matrix-unit products into zero accumulators, the host with two
  `dot_general`s, the same sums in the same grouping.
  General in every extent.
-/
import Idealize.ShloMosaic.PureOps.Ideal.Laws
import Idealize.ShloMosaic.Lib.ValueIdx
import Idealize.ShloMosaic.Lib.ValueLayout
import Idealize.ShloMosaic.Lib.Pipeline.Value
import proofs.«130617_j64527588655555_2_alg».proof.Proof.LibGraphIdx
import proofs.«130617_j64527588655555_2_alg».proof.Proof.LibMeanScale
import proofs.«130617_j64527588655555_2_alg».proof.Proof.LibVecToColumn
import proofs.«130617_j64527588655555_2_alg».proof.Proof.LibMatmulNN
import proofs.«130617_j64527588655555_2_alg».proof.Proof.LibDotGeneralNN
import proofs.«130617_j64527588655555_2_alg».proof.Proof.LibBroadcastInDimPair

noncomputable section

open scoped BigOperators

namespace Cert.Sage

open Idealize.ShloMosaic Idealize.ShloMosaic.ValueIdx Cert.GraphIdx

/-! ## The aggregation -/

section Agg

variable {Ns Nd E D : Nat}

/-- The sum, over the edges into node `p`, of feature `q` of the edges' source rows. -/
def aggSum (X : (⟨2, ![Ns, D]⟩ : Shape).Idx → EReal) (src : Fin E → Fin Ns) (dst : Fin E → Int) (p : Fin Nd) (q : Fin D) : EReal :=
  ∑ e ∈ Finset.univ.filter (fun e : Fin E => dst e = (p.val : Int)), X (ix2 (src e) q)

/-- The number of edges into node `p`, as a sum of ones. -/
def degree (dst : Fin E → Int) (p : Fin Nd) : EReal :=
  ∑ e ∈ Finset.univ.filter (fun e : Fin E => dst e = (p.val : Int)), (1 : EReal)

/-- The mean of the source rows over the edges into each node (an isolated node divides by one). -/
def mean (X : (⟨2, ![Ns, D]⟩ : Shape).Idx → EReal) (src : Fin E → Fin Ns) (dst : Fin E → Int) :
    (⟨2, ![Nd, D]⟩ : Shape).Idx → EReal :=
  fun i => Ideal.div (aggSum X src dst (i 0) (i 1)) (max (degree dst (i 0)) 1)

theorem aggSum_perm (X : (⟨2, ![Ns, D]⟩ : Shape).Idx → EReal) (src : Fin E → Fin Ns) (dst : Fin E → Int)
    (π : Fin E → Fin E) (hπ : Function.Bijective π) (p : Fin Nd) (q : Fin D) :
    aggSum X (fun e => src (π e)) (fun e => dst (π e)) p q = aggSum X src dst p q := by
  unfold aggSum
  rw [Finset.sum_filter, Finset.sum_filter]
  exact (Equiv.ofBijective π hπ).sum_comp (fun e => if dst e = (p.val : Int) then X (ix2 (src e) q) else 0)

theorem degree_perm (dst : Fin E → Int) (π : Fin E → Fin E) (hπ : Function.Bijective π) (p : Fin Nd) :
    degree (fun e => dst (π e)) p = degree dst p := by
  unfold degree
  rw [Finset.sum_filter, Finset.sum_filter]
  exact (Equiv.ofBijective π hπ).sum_comp (fun e => if dst e = (p.val : Int) then (1 : EReal) else 0)

theorem mean_apply (X : (⟨2, ![Ns, D]⟩ : Shape).Idx → EReal) (src : Fin E → Fin Ns) (dst : Fin E → Int) (p : Fin Nd) (q : Fin D) :
    mean X src dst (ix2 p q) = Ideal.div (aggSum X src dst p q) (max (degree dst p) 1) := rfl

/-- THE ORDER OF THE EDGES DOES NOT MATTER. -/
theorem mean_perm (X : (⟨2, ![Ns, D]⟩ : Shape).Idx → EReal) (src : Fin E → Fin Ns) (dst : Fin E → Int)
    (π : Fin E → Fin E) (hπ : Function.Bijective π) :
    mean (Nd := Nd) X (fun e => src (π e)) (fun e => dst (π e)) = mean X src dst := by
  funext i
  obtain ⟨p, q, rfl⟩ : ∃ (p : Fin Nd) (q : Fin D), i = ix2 p q := ⟨i 0, i 1, eq_ix2 i⟩
  rw [mean_apply, mean_apply, aggSum_perm X src dst π hπ, degree_perm dst π hπ]

/-- The divisor is a positive real. -/
theorem degree_max_pos (dst : Fin E → Int) (p : Fin Nd) : ∃ y : ℝ, 0 < y ∧ max (degree dst p) 1 = (y : EReal) :=
  LibMeanAlgebra.max_one_pos rfl
    (LibMeanAlgebra.sum_real_nonneg _ _ (fun _ _ => ⟨1, zero_le_one, EReal.coe_one.symm⟩))

variable (hNs : 0 < Ns)
  (gwf : GatherDims.WF ⟨2, ![Ns, D]⟩ ⟨2, ![E, 1]⟩ ⟨2, ![E, D]⟩ [1] [0] [] [0] [] 1 ![1, D])
  (swf2 : ScatterDims.WF ⟨2, ![Nd, D]⟩ ⟨2, ![E, 1]⟩ ⟨2, ![E, D]⟩ [1] [0] [0] 1)
  (swf1 : ScatterDims.WF ⟨1, ![Nd]⟩ ⟨2, ![E, 1]⟩ ⟨1, ![E]⟩ [] [0] [0] 1)
  (X : FVec Ideal ⟨2, ![Ns, D]⟩ .f32) (srcIdx dstIdx : IVec ⟨2, ![E, 1]⟩ 32)
  (Z2 : FVec Ideal ⟨2, ![Nd, D]⟩ .f32) (hZ2 : ∀ i, Z2 i = 0) (Z1 : FVec Ideal ⟨1, ![Nd]⟩ .f32) (hZ1 : ∀ i, Z1 i = 0)
  (ones : FVec Ideal ⟨1, ![E]⟩ .f32) (hones : ∀ i, ones i = 1)
  (oneA oneB : FVec Ideal ⟨1, ![Nd]⟩ .f32) (hA : ∀ i, oneA i = 1) (hB : ∀ i, oneB i = 1)
  (hbc : (⟨2, ![Nd, 1]⟩ : Shape).BroadcastsInDim ⟨2, ![Nd, D]⟩ ![0, 1])

include hZ2 in
/-- The scattered sums of the gathered rows, at (p, q). -/
theorem sums_apply (p : Fin Nd) (q : Fin D) :
    Host.scatterAdd (F := Ideal) (sd2 swf2) Z2 dstIdx (Host.gather (gd2 gwf) X srcIdx) (ix2 p q)
      = aggSum X (fun e => rowOf hNs srcIdx e) (fun e => (dstIdx (ix2 e 0)).toInt) p q := by
  rw [scatterAdd2_apply, hZ2, zero_add]
  exact Finset.sum_congr rfl (fun e _ => gather2_apply gwf hNs X srcIdx e q)

include hZ1 hones in
/-- The scattered ones, at p. -/
theorem count_apply (p : Fin Nd) :
    Host.scatterAdd (F := Ideal) (sd1 swf1) Z1 dstIdx ones (ix1 p) = degree (fun e => (dstIdx (ix2 e 0)).toInt) p := by
  rw [scatterAdd1_apply, hZ1, zero_add]
  exact Finset.sum_congr rfl (fun e _ => hones (ix1 e))

include hZ2 hZ1 hones hA hB in
/-- THE SUMS TIMES THE RECIPROCAL COUNT, the count's reciprocal computed per node and reshaped to a column. -/
theorem mul_recip_form (hc : (⟨1, ![Nd]⟩ : Shape).ShapeCasts ⟨2, ![Nd, 1]⟩) :
    mulf (Host.scatterAdd (F := Ideal) (sd2 swf2) Z2 dstIdx (Host.gather (gd2 gwf) X srcIdx))
        (broadcastInDim ⟨2, ![Nd, D]⟩ ![0, 1] hbc (shapeCast ⟨2, ![Nd, 1]⟩
          (Host.divf oneB (maximumf (Host.scatterAdd (F := Ideal) (sd1 swf1) Z1 dstIdx ones) oneA)) hc))
      = mean X (fun e => rowOf hNs srcIdx e) (fun e => (dstIdx (ix2 e 0)).toInt) := by
  funext i
  obtain ⟨p, q, rfl⟩ : ∃ (p : Fin Nd) (q : Fin D), i = ix2 p q := ⟨i 0, i 1, eq_ix2 i⟩
  show Host.scatterAdd (F := Ideal) (sd2 swf2) Z2 dstIdx (Host.gather (gd2 gwf) X srcIdx) (ix2 p q)
      * broadcastInDim ⟨2, ![Nd, D]⟩ ![0, 1] hbc (shapeCast ⟨2, ![Nd, 1]⟩
          (Host.divf oneB (maximumf (Host.scatterAdd (F := Ideal) (sd1 swf1) Z1 dstIdx ones) oneA)) hc) (ix2 p q)
    = Ideal.div (aggSum X (fun e => rowOf hNs srcIdx e) (fun e => (dstIdx (ix2 e 0)).toInt) p q)
        (max (degree (fun e => (dstIdx (ix2 e 0)).toInt) p) 1)
  rw [sums_apply hNs gwf swf2 X srcIdx dstIdx Z2 hZ2, broadcastInDim_col_apply, LibVecToColumn.vec_to_col_apply]
  show _ * Ideal.div (oneB (ix1 p)) (max (Host.scatterAdd (F := Ideal) (sd1 swf1) Z1 dstIdx ones (ix1 p)) (oneA (ix1 p))) = _
  rw [count_apply swf1 dstIdx Z1 hZ1 ones hones, hA, hB]
  obtain ⟨y, hy, ey⟩ := degree_max_pos (Nd := Nd) (fun e : Fin E => (dstIdx (ix2 e 0)).toInt) p
  rw [ey]
  exact LibLayerAlgebra.mul_recip_eq_div rfl (ne_of_gt hy) _

include hZ2 hZ1 hones hA in
/-- THE SUMS DIVIDED BY THE COUNT, the count placed as a column and spread along the features. -/
theorem div_form (hb1 : (⟨1, ![Nd]⟩ : Shape).BroadcastsInDim ⟨2, ![Nd, 1]⟩ ![0]) :
    Host.divf (Host.scatterAdd (F := Ideal) (sd2 swf2) Z2 dstIdx (Host.gather (gd2 gwf) X srcIdx))
        (broadcastInDim ⟨2, ![Nd, D]⟩ ![0, 1] hbc (broadcastInDim ⟨2, ![Nd, 1]⟩ ![0] hb1
          (maximumf (Host.scatterAdd (F := Ideal) (sd1 swf1) Z1 dstIdx ones) oneA)))
      = mean X (fun e => rowOf hNs srcIdx e) (fun e => (dstIdx (ix2 e 0)).toInt) := by
  funext i
  obtain ⟨p, q, rfl⟩ : ∃ (p : Fin Nd) (q : Fin D), i = ix2 p q := ⟨i 0, i 1, eq_ix2 i⟩
  show Ideal.div (Host.scatterAdd (F := Ideal) (sd2 swf2) Z2 dstIdx (Host.gather (gd2 gwf) X srcIdx) (ix2 p q))
      (broadcastInDim ⟨2, ![Nd, D]⟩ ![0, 1] hbc (broadcastInDim ⟨2, ![Nd, 1]⟩ ![0] hb1
          (maximumf (Host.scatterAdd (F := Ideal) (sd1 swf1) Z1 dstIdx ones) oneA)) (ix2 p q))
    = Ideal.div (aggSum X (fun e => rowOf hNs srcIdx e) (fun e => (dstIdx (ix2 e 0)).toInt) p q)
        (max (degree (fun e => (dstIdx (ix2 e 0)).toInt) p) 1)
  rw [sums_apply hNs gwf swf2 X srcIdx dstIdx Z2 hZ2, LibMeanScale.spread_apply]
  show Ideal.div _ (max (Host.scatterAdd (F := Ideal) (sd1 swf1) Z1 dstIdx ones (ix1 p)) (oneA (ix1 p))) = _
  rw [count_apply swf1 dstIdx Z1 hZ1 ones hones, hA]

end Agg

/-! ## The dense part -/

section Dense

variable {M K N : Nat}

/-- Entry (p, q) of the dense part: the aggregate's contraction, plus the bias, plus the node's own contraction. -/
def denseEntry (a x : (⟨2, ![M, K]⟩ : Shape).Idx → EReal) (wl wr : (⟨2, ![K, N]⟩ : Shape).Idx → EReal)
    (b : Fin N → EReal) (p : Fin M) (q : Fin N) : EReal :=
  ((∑ k : Fin K, a (ix2 p k) * wl (ix2 k q)) + b q) + ∑ k : Fin K, x (ix2 p k) * wr (ix2 k q)

/-- The dense part as one array. -/
def dense (a x : (⟨2, ![M, K]⟩ : Shape).Idx → EReal) (wl wr : (⟨2, ![K, N]⟩ : Shape).Idx → EReal)
    (b : Fin N → EReal) : (⟨2, ![M, N]⟩ : Shape).Idx → EReal :=
  fun i => denseEntry a x wl wr b (i 0) (i 1)

/-- The dense part clamped below at zero. -/
def denseRelu (a x : (⟨2, ![M, K]⟩ : Shape).Idx → EReal) (wl wr : (⟨2, ![K, N]⟩ : Shape).Idx → EReal)
    (b : Fin N → EReal) : (⟨2, ![M, N]⟩ : Shape).Idx → EReal :=
  fun i => max (denseEntry a x wl wr b (i 0) (i 1)) 0

/-- A block's entry is the whole array's entry of the block's row. -/
theorem denseEntry_of_rows {m : Nat} (a0 x0 : (⟨2, ![m, K]⟩ : Shape).Idx → EReal) (a x : (⟨2, ![M, K]⟩ : Shape).Idx → EReal)
    (wl wr : (⟨2, ![K, N]⟩ : Shape).Idx → EReal) (b : Fin N → EReal) (r : Fin m) (p : Fin M) (q : Fin N)
    (h0 : ∀ k : Fin K, a0 (ix2 r k) = a (ix2 p k)) (h1 : ∀ k : Fin K, x0 (ix2 r k) = x (ix2 p k)) :
    denseEntry a0 x0 wl wr b r q = denseEntry a x wl wr b p q := by
  unfold denseEntry
  simp only [h0, h1]

/-- THE KERNEL'S BLOCK at (r, q): the product of the aggregate's rows into a zero accumulator, plus the bias row spread down
    the block, plus the product of the node's own rows into a zero accumulator. -/
theorem block_apply {m : Nat} {φ₁ φ₂ : FTy} (Dm : DotDims ⟨2, ![m, K]⟩ ⟨2, ![K, N]⟩ ⟨2, ![m, N]⟩) (hD : Dm = DotDims.plain m K N)
    (prec : Option ContractPrecision)
    (a0 x0 : FVec Ideal ⟨2, ![m, K]⟩ φ₁) (wl wr : FVec Ideal ⟨2, ![K, N]⟩ φ₂) (brow : FVec Ideal ⟨2, ![1, N]⟩ .f32)
    (hb : (⟨2, ![1, N]⟩ : Shape).Broadcasts ⟨2, ![m, N]⟩) (r : Fin m) (q : Fin N) :
    (FloatOps.matmul Dm prec a0 wl (constant (F := Ideal) ⟨2, ![m, N]⟩ .f32 0x00000000#32) (ix2 r q)
        + broadcastTo ⟨2, ![m, N]⟩ brow hb (ix2 r q))
      + FloatOps.matmul Dm prec x0 wr (constant (F := Ideal) ⟨2, ![m, N]⟩ .f32 0x00000000#32) (ix2 r q)
      = denseEntry a0 x0 wl wr (fun q => brow (ix2 (0 : Fin 1) q)) r q := by
  subst hD
  rw [LibMatmulNN.matmul_zero_apply, LibMatmulNN.matmul_zero_apply, broadcastTo_1b_ab_apply]
  rfl

/-- THE HOST'S DENSE PART: a `dot_general`, plus the bias placed as a row and spread down the array, plus a `dot_general`. -/
theorem host_dense {φ₁ φ₂ : FTy} (Dm : DotDims ⟨2, ![M, K]⟩ ⟨2, ![K, N]⟩ ⟨2, ![M, N]⟩) (hD : Dm = DotDims.plain M K N)
    (prec : Option ContractPrecision)
    (a x : FVec Ideal ⟨2, ![M, K]⟩ φ₁) (wl wr : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (addf (Host.dotGeneral Dm prec a wl)
        (broadcastInDim ⟨2, ![M, N]⟩ ![0, 1] h2 (broadcastInDim ⟨2, ![1, N]⟩ ![1] h1 b))) (Host.dotGeneral Dm prec x wr)
      = dense a x wl wr (fun q => b (ix1 q)) := by
  subst hD
  funext i
  obtain ⟨p, q, rfl⟩ : ∃ (p : Fin M) (q : Fin N), i = ix2 p q := ⟨i 0, i 1, eq_ix2 i⟩
  show (FloatOps.dotGeneral (DotDims.plain M K N) prec .single a wl (ix2 p q)
      + broadcastInDim ⟨2, ![M, N]⟩ ![0, 1] h2 (broadcastInDim ⟨2, ![1, N]⟩ ![1] h1 b) (ix2 p q))
      + FloatOps.dotGeneral (DotDims.plain M K N) prec .single x wr (ix2 p q) = denseEntry a x wl wr (fun q => b (ix1 q)) p q
  rw [LibDotGeneralNN.dotGeneral_apply, LibDotGeneralNN.dotGeneral_apply, broadcastInDim_row_apply]
  have hb : broadcastInDim ⟨2, ![1, N]⟩ ![1] h1 b (ix2 (0 : Fin 1) q) = b (ix1 q) := by
    refine broadcastInDim_apply _ h1 b (ix2 (0 : Fin 1) q) (ix1 q) fun ax => ?_
    match ax with
    | ⟨0, _⟩ =>
      show q.val = if N = 1 then 0 else q.val
      split
      · have := q.isLt; omega
      · rfl
  rw [hb]
  rfl

end Dense

end Cert.Sage

end
-- ==== Proof.LibArgsortPerm.lean ====
/-
  An argsort lists the positions of its keys in a sorted order: it is a permutation of the positions.

  A sort of a rank-1 array of keys that carries the identity table (position `k` holds the word `k`) reads both arrays
  through ONE self-map of the positions, the stable sorting permutation of the comparator on the pairs (key, position).
  That map is a bijection of the positions, whatever the keys and the comparator are. So the carried table, after the
  sort, holds at entry `e` the word of position `perm e`; and taking the entries of any array `v` at those words
  (negative words wrapped by the length, the start index clamped to the array: both are the identity on the words of
  positions) gives `v` read through the permutation, `e ↦ v (perm e)`.
-/
import Idealize.ShloMosaic.PureOps
import Idealize.ShloMosaic.Lib.ValueIdx
import Idealize.ShloMosaic.Lib.SortFacts
import Idealize.ShloMosaic.Lib.Pipeline.Value
import proofs.«130617_j64527588655555_2_alg».proof.Proof.LibGraphIdx
import proofs.«130617_j64527588655555_2_alg».proof.Proof.LibMeanScale

noncomputable section

namespace Cert.SortPerm

open Idealize.ShloMosaic Idealize.ShloMosaic.ValueIdx

variable {n : Nat}

/-- The order on positions a two-operand sort sorts by: the comparator on the pairs the two arrays hold there. -/
def order {α β : Type} (cmp : α × β → α × β → BitVec 1) (x : (⟨1, ![n]⟩ : Shape).Idx → α)
    (y : (⟨1, ![n]⟩ : Shape).Idx → β) (k k' : Fin n) : Bool :=
  cmp (x (Shape.Idx.ofFin k), y (Shape.Idx.ofFin k)) (x (Shape.Idx.ofFin k'), y (Shape.Idx.ofFin k')) == 1#1

/-- The sorting permutation: the position whose pair the sort puts at `e`. -/
def perm {α β : Type} (cmp : α × β → α × β → BitVec 1) (x : (⟨1, ![n]⟩ : Shape).Idx → α)
    (y : (⟨1, ![n]⟩ : Shape).Idx → β) : Fin n → Fin n :=
  sortedFrom (order cmp x y)

theorem perm_bijective {α β : Type} (cmp : α × β → α × β → BitVec 1) (x : (⟨1, ![n]⟩ : Shape).Idx → α)
    (y : (⟨1, ![n]⟩ : Shape).Idx → β) : Function.Bijective (perm cmp x y) :=
  ⟨sortedFrom_injective _, sortedFrom_surjective _⟩

theorem ofFin_eq_ix1 (k : Fin n) : Shape.Idx.ofFin k = ix1 k := by
  funext d
  match d with
  | ⟨0, _⟩ => rfl

/-- The second array of a two-operand sort along the one axis is the array read through the sorting permutation. -/
theorem sort2_snd_apply {α β : Type} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).2 j = y (Shape.Idx.ofFin (perm cmp x y (j 0))) := by
  unfold Host.sort2
  simp [perm]
  rfl

/-- AN ARGSORT IS A PERMUTATION: the identity table carried through a sort of the keys `x` holds, at `e`, the word of the
    position `perm e`. -/
theorem argsort_apply (cmp : BitVec 32 × BitVec 32 → BitVec 32 × BitVec 32 → BitVec 1) (x : IVec ⟨1, ![n]⟩ 32) (e : Fin n) :
    (Host.sort2 ⟨1, ![n]⟩ 0 cmp x (iotaInDim ⟨1, ![n]⟩ 32 0)).2 (ix1 e)
      = BitVec.ofNat 32 (perm cmp x (iotaInDim ⟨1, ![n]⟩ 32 0) e).val := by
  rw [sort2_snd_apply]
  rfl

/-- A word below 2^31 read signed is itself. -/
theorem toInt_ofNat_small (k : Nat) (hk : k < 2147483648) : (BitVec.ofNat 32 k).toInt = (k : Int) := by
  rw [BitVec.toInt_eq_toNat_cond, BitVec.toNat_ofNat]
  have h : k % 2 ^ 32 = k := Nat.mod_eq_of_lt (by omega)
  rw [h]
  split <;> omega

/-- A position's word is not negative. -/
theorem slt_zero_ofNat_small (k : Nat) (hk : k < 2147483648) : IntOp.cmpi .slt (BitVec.ofNat 32 k) 0#32 = 0#1 := by
  show BitVec.ofBool ((BitVec.ofNat 32 k).slt 0#32) = 0#1
  have : (BitVec.ofNat 32 k).slt 0#32 = false := by
    unfold BitVec.slt
    rw [toInt_ofNat_small k hk, BitVec.toInt_zero]
    exact decide_eq_false (by omega)
  rw [this]
  rfl

/-- TAKING ENTRIES AT THE SORTED POSITIONS: for a table `s` holding at `e` the word of position `π e`, the gather of the
    entries of `v` at those words — negative words wrapped by `nb`, as the host program prints an indexing — reads, at
    `e`, `v` at position `π e`. -/
theorem take_apply {α : Type} (hn : 0 < n) (hn31 : n < 2147483648)
    (wf : GatherDims.WF ⟨1, ![n]⟩ ⟨2, ![n, 1]⟩ ⟨1, ![n]⟩ [] [0] [] [0] [] 1 ![1])
    (hb : (⟨1, ![n]⟩ : Shape).BroadcastsInDim ⟨2, ![n, 1]⟩ ![0])
    (z nb s : IVec ⟨1, ![n]⟩ 32) (hz : ∀ i, z i = 0#32) (π : Fin n → Fin n)
    (hs : ∀ e, s (ix1 e) = BitVec.ofNat 32 (π e).val) (v : (⟨1, ![n]⟩ : Shape).Idx → α) (e : Fin n) :
    Host.gather (Cert.GraphIdx.gd1 wf) v
        (broadcastInDim ⟨2, ![n, 1]⟩ ![0] hb (select (cmpi .slt s z) (addi s nb) s)) (ix1 e)
      = v (ix1 (π e)) := by
  rw [Cert.GraphIdx.gather1_apply wf hn]
  refine congrArg (fun r => v (ix1 r)) (Cert.GraphIdx.rowOf_eq hn _ e (π e) ?_)
  rw [LibMeanScale.broadcastInDim_vec_col_apply]
  show (Scalar.select (IntOp.cmpi .slt (s (ix1 e)) (z (ix1 e))) (IntOp.addi (s (ix1 e)) (nb (ix1 e))) (s (ix1 e))).toInt = _
  have hlt : (π e).val < 2147483648 := lt_trans (π e).isLt hn31
  rw [hs e, hz, slt_zero_ofNat_small _ hlt, select_zero, toInt_ofNat_small _ hlt]

end Cert.SortPerm

end
-- ==== Proof.LibSageSorted.lean ====
/-
  The mean over incoming edges as the two programs print it, against the one entry-by-entry mean.

  Both programs pick edge `e`'s source row by the word `srcV[e]` read signed, a negative word first wrapped by the number
  of source rows (the host's indexing convention) and the result clamped to the rows; both add the row into the
  destination row numbered by the word `dstV[e]` read signed, dropping the edge when that is no row's number.
    * One program does so with the edges in the order given (`plain_mean`) and divides the sums by the counts.
    * The other first sorts the edges: with `s` the table of sorted positions (an argsort: entry `e` holds the word of
      position `π e`, `π` a bijection of the edges), it takes `srcV` and `dstV` at those positions, aggregates in that
      order, and multiplies by the reciprocal counts (`sorted_mean`).
  Both arrays are the mean of `LibSageMean` over the edges in the order given: reindexing the finite sums along `π`.
-/
import proofs.«130617_j64527588655555_2_alg».proof.Proof.LibSageMean
import proofs.«130617_j64527588655555_2_alg».proof.Proof.LibArgsortPerm

noncomputable section

open scoped BigOperators

namespace Cert.Sage

open Idealize.ShloMosaic Idealize.ShloMosaic.ValueIdx Cert.GraphIdx

variable {Ns Nd E D : Nat}

/-- The source row edge `e` reads: its word read signed, a negative word first wrapped by `nbc`, negatives then to 0,
    clamped to the last row. -/
def wrapRow (hNs : 0 < Ns) (nbc : BitVec 32) (v : IVec ⟨1, ![E]⟩ 32) (e : Fin E) : Fin Ns :=
  ⟨min (Scalar.select (IntOp.cmpi .slt (v (ix1 e)) 0#32) (IntOp.addi (v (ix1 e)) nbc) (v (ix1 e))).toInt.toNat (Ns - 1), by omega⟩

/-- The printed wrap-and-place of an index vector selects that row. -/
theorem rowOf_wrap (hNs : 0 < Ns) (nbc : BitVec 32) (hb : (⟨1, ![E]⟩ : Shape).BroadcastsInDim ⟨2, ![E, 1]⟩ ![0])
    (z nb v : IVec ⟨1, ![E]⟩ 32) (hz : ∀ i, z i = 0#32) (hnb : ∀ i, nb i = nbc) (e : Fin E) :
    rowOf hNs (broadcastInDim ⟨2, ![E, 1]⟩ ![0] hb (select (cmpi .slt v z) (addi v nb) v)) e = wrapRow hNs nbc v e := by
  apply Fin.ext
  show min ((broadcastInDim ⟨2, ![E, 1]⟩ ![0] hb (select (cmpi .slt v z) (addi v nb) v)) (ix2 e 0)).toInt.toNat (Ns - 1) = _
  rw [LibMeanScale.broadcastInDim_vec_col_apply]
  show min (Scalar.select (IntOp.cmpi .slt (v (ix1 e)) (z (ix1 e))) (IntOp.addi (v (ix1 e)) (nb (ix1 e))) (v (ix1 e))).toInt.toNat (Ns - 1) = _
  rw [hz, hnb]
  rfl

/-- The row read through a permutation of the edges. -/
theorem wrapRow_comp (hNs : 0 < Ns) (nbc : BitVec 32) (v v' : IVec ⟨1, ![E]⟩ 32) (π : Fin E → Fin E)
    (h : ∀ e, v' (ix1 e) = v (ix1 (π e))) (e : Fin E) : wrapRow hNs nbc v' e = wrapRow hNs nbc v (π e) := by
  unfold wrapRow
  simp only [h e]

section Forms

variable (hNs : 0 < Ns) (nbc : BitVec 32)
  (gwf : GatherDims.WF ⟨2, ![Ns, D]⟩ ⟨2, ![E, 1]⟩ ⟨2, ![E, D]⟩ [1] [0] [] [0] [] 1 ![1, D])
  (swf2 : ScatterDims.WF ⟨2, ![Nd, D]⟩ ⟨2, ![E, 1]⟩ ⟨2, ![E, D]⟩ [1] [0] [0] 1)
  (swf1 : ScatterDims.WF ⟨1, ![Nd]⟩ ⟨2, ![E, 1]⟩ ⟨1, ![E]⟩ [] [0] [0] 1)
  (hb : (⟨1, ![E]⟩ : Shape).BroadcastsInDim ⟨2, ![E, 1]⟩ ![0])
  (X : FVec Ideal ⟨2, ![Ns, D]⟩ .f32) (srcV dstV : IVec ⟨1, ![E]⟩ 32)
  (zS nbS : IVec ⟨1, ![E]⟩ 32) (hzS : ∀ i, zS i = 0#32) (hnbS : ∀ i, nbS i = nbc)
  (Z2 : FVec Ideal ⟨2, ![Nd, D]⟩ .f32) (hZ2 : ∀ i, Z2 i = 0) (Z1 : FVec Ideal ⟨1, ![Nd]⟩ .f32) (hZ1 : ∀ i, Z1 i = 0)
  (ones : FVec Ideal ⟨1, ![E]⟩ .f32) (hones : ∀ i, ones i = 1)
  (oneA oneB : FVec Ideal ⟨1, ![Nd]⟩ .f32) (hA : ∀ i, oneA i = 1) (hB : ∀ i, oneB i = 1)
  (hbc : (⟨2, ![Nd, 1]⟩ : Shape).BroadcastsInDim ⟨2, ![Nd, D]⟩ ![0, 1])

include hzS hnbS hZ2 hZ1 hones hA in
/-- THE EDGES IN THE ORDER GIVEN, sums divided by counts. -/
theorem plain_mean (hb1 : (⟨1, ![Nd]⟩ : Shape).BroadcastsInDim ⟨2, ![Nd, 1]⟩ ![0]) :
    Host.divf (Host.scatterAdd (F := Ideal) (sd2 swf2) Z2 (broadcastInDim ⟨2, ![E, 1]⟩ ![0] hb dstV)
          (Host.gather (gd2 gwf) X (broadcastInDim ⟨2, ![E, 1]⟩ ![0] hb (select (cmpi .slt srcV zS) (addi srcV nbS) srcV))))
        (broadcastInDim ⟨2, ![Nd, D]⟩ ![0, 1] hbc (broadcastInDim ⟨2, ![Nd, 1]⟩ ![0] hb1
          (maximumf (Host.scatterAdd (F := Ideal) (sd1 swf1) Z1 (broadcastInDim ⟨2, ![E, 1]⟩ ![0] hb dstV) ones) oneA)))
      = mean X (fun e => wrapRow hNs nbc srcV e) (fun e => (dstV (ix1 e)).toInt) := by
  rw [div_form hNs gwf swf2 swf1 X _ _ Z2 hZ2 Z1 hZ1 ones hones oneA hA hbc hb1]
  have h1 : (fun e => rowOf hNs (broadcastInDim ⟨2, ![E, 1]⟩ ![0] hb (select (cmpi .slt srcV zS) (addi srcV nbS) srcV)) e)
      = fun e => wrapRow hNs nbc srcV e := funext fun e => rowOf_wrap hNs nbc hb zS nbS srcV hzS hnbS e
  have h2 : (fun e : Fin E => ((broadcastInDim ⟨2, ![E, 1]⟩ ![0] hb dstV) (ix2 e 0)).toInt) = fun e => (dstV (ix1 e)).toInt :=
    funext fun e => by rw [LibMeanScale.broadcastInDim_vec_col_apply]
  rw [h1, h2]

include hzS hnbS hZ2 hZ1 hones hA hB in
/-- THE EDGES SORTED FIRST, sums times reciprocal counts: the same mean. -/
theorem sorted_mean (hE : 0 < E) (hE31 : E < 2147483648)
    (g1wf : GatherDims.WF ⟨1, ![E]⟩ ⟨2, ![E, 1]⟩ ⟨1, ![E]⟩ [] [0] [] [0] [] 1 ![1])
    (zE nbE s : IVec ⟨1, ![E]⟩ 32) (hzE : ∀ i, zE i = 0#32) (π : Fin E → Fin E) (hπ : Function.Bijective π)
    (hs : ∀ e, s (ix1 e) = BitVec.ofNat 32 (π e).val)
    (hc : (⟨1, ![Nd]⟩ : Shape).ShapeCasts ⟨2, ![Nd, 1]⟩) :
    mulf (Host.scatterAdd (F := Ideal) (sd2 swf2) Z2
          (broadcastInDim ⟨2, ![E, 1]⟩ ![0] hb (Host.gather (gd1 g1wf) dstV
            (broadcastInDim ⟨2, ![E, 1]⟩ ![0] hb (select (cmpi .slt s zE) (addi s nbE) s))))
          (Host.gather (gd2 gwf) X (broadcastInDim ⟨2, ![E, 1]⟩ ![0] hb
            (select (cmpi .slt (Host.gather (gd1 g1wf) srcV
                (broadcastInDim ⟨2, ![E, 1]⟩ ![0] hb (select (cmpi .slt s zE) (addi s nbE) s))) zS)
              (addi (Host.gather (gd1 g1wf) srcV
                (broadcastInDim ⟨2, ![E, 1]⟩ ![0] hb (select (cmpi .slt s zE) (addi s nbE) s))) nbS)
              (Host.gather (gd1 g1wf) srcV
                (broadcastInDim ⟨2, ![E, 1]⟩ ![0] hb (select (cmpi .slt s zE) (addi s nbE) s)))))))
        (broadcastInDim ⟨2, ![Nd, D]⟩ ![0, 1] hbc (shapeCast ⟨2, ![Nd, 1]⟩
          (Host.divf oneB (maximumf (Host.scatterAdd (F := Ideal) (sd1 swf1) Z1
            (broadcastInDim ⟨2, ![E, 1]⟩ ![0] hb (Host.gather (gd1 g1wf) dstV
              (broadcastInDim ⟨2, ![E, 1]⟩ ![0] hb (select (cmpi .slt s zE) (addi s nbE) s)))) ones) oneA)) hc))
      = mean X (fun e => wrapRow hNs nbc srcV e) (fun e => (dstV (ix1 e)).toInt) := by
  rw [mul_recip_form hNs gwf swf2 swf1 X _ _ Z2 hZ2 Z1 hZ1 ones hones oneA oneB hA hB hbc hc]
  have hsrc : ∀ e, Host.gather (gd1 g1wf) srcV
      (broadcastInDim ⟨2, ![E, 1]⟩ ![0] hb (select (cmpi .slt s zE) (addi s nbE) s)) (ix1 e) = srcV (ix1 (π e)) :=
    fun e => Cert.SortPerm.take_apply hE hE31 g1wf hb zE nbE s hzE π hs srcV e
  have hdst : ∀ e, Host.gather (gd1 g1wf) dstV
      (broadcastInDim ⟨2, ![E, 1]⟩ ![0] hb (select (cmpi .slt s zE) (addi s nbE) s)) (ix1 e) = dstV (ix1 (π e)) :=
    fun e => Cert.SortPerm.take_apply hE hE31 g1wf hb zE nbE s hzE π hs dstV e
  have h1 : (fun e => rowOf hNs (broadcastInDim ⟨2, ![E, 1]⟩ ![0] hb
            (select (cmpi .slt (Host.gather (gd1 g1wf) srcV
                (broadcastInDim ⟨2, ![E, 1]⟩ ![0] hb (select (cmpi .slt s zE) (addi s nbE) s))) zS)
              (addi (Host.gather (gd1 g1wf) srcV
                (broadcastInDim ⟨2, ![E, 1]⟩ ![0] hb (select (cmpi .slt s zE) (addi s nbE) s))) nbS)
              (Host.gather (gd1 g1wf) srcV
                (broadcastInDim ⟨2, ![E, 1]⟩ ![0] hb (select (cmpi .slt s zE) (addi s nbE) s))))) e)
      = fun e => wrapRow hNs nbc srcV (π e) := funext fun e =>
    (rowOf_wrap hNs nbc hb zS nbS _ hzS hnbS e).trans (wrapRow_comp hNs nbc srcV _ π hsrc e)
  have h2 : (fun e : Fin E => ((broadcastInDim ⟨2, ![E, 1]⟩ ![0] hb (Host.gather (gd1 g1wf) dstV
            (broadcastInDim ⟨2, ![E, 1]⟩ ![0] hb (select (cmpi .slt s zE) (addi s nbE) s)))) (ix2 e 0)).toInt)
      = fun e => (dstV (ix1 (π e))).toInt :=
    funext fun e => by rw [LibMeanScale.broadcastInDim_vec_col_apply, hdst e]
  rw [h1, h2]
  exact mean_perm X (fun e => wrapRow hNs nbc srcV e) (fun e => (dstV (ix1 e)).toInt) π hπ

end Forms

end Cert.Sage

end
-- ==== Proof.Spec.lean ====
/-
  The two-layer heterogeneous graph network both programs compute, entry by entry on the extended reals.

  Two node types, 200000 "user" rows and 100000 "repo" rows of 128 features, and 1500000 edges, edge `e` joining user
  `u[e]` and repo `r[e]`. A layer updating the repos takes, for every repo, the mean of the features of the users joined
  to it (`Sage.mean`: source rows chosen by `u`, destination rows by `r`), and adds its contraction with one weight
  matrix, a bias, and the contraction of the repo's own features with another weight matrix (`Sage.dense`); a layer
  updating the users is the same with the roles of `u` and `r` exchanged. The first layer of each kind is clamped below
  at zero and feeds the second.
-/
import proofs.«130617_j64527588655555_2_alg».proof.Proof.LibSageSorted

noncomputable section

namespace Cert.Spec

open Idealize.ShloMosaic Idealize.ShloMosaic.ValueIdx

abbrev SU : Shape := ⟨2, ![200000, 128]⟩
abbrev SR : Shape := ⟨2, ![100000, 128]⟩
abbrev SW : Shape := ⟨2, ![128, 128]⟩
abbrev SB : Shape := ⟨1, ![128]⟩
abbrev SE : Shape := ⟨1, ![1500000]⟩

/-- The user row edge `e` reads. -/
def srcU (u : IVec SE 32) : Fin 1500000 → Fin 200000 := fun e => Cert.Sage.wrapRow (Ns := 200000) (by omega) 200000#32 u e
/-- The repo row edge `e` reads. -/
def srcR (r : IVec SE 32) : Fin 1500000 → Fin 100000 := fun e => Cert.Sage.wrapRow (Ns := 100000) (by omega) 100000#32 r e
/-- The number of the row edge `e` adds into. -/
def dstOf (v : IVec SE 32) : Fin 1500000 → Int := fun e => (v (ix1 e)).toInt
/-- A bias vector by feature. -/
def bias (b : SB.Idx → EReal) : Fin 128 → EReal := fun q => b (ix1 q)

/-- A layer updating the repos from the users joined to them. -/
def layerRepo (u r : IVec SE 32) (xs : SU.Idx → EReal) (xd : SR.Idx → EReal) (wl : SW.Idx → EReal) (b : SB.Idx → EReal)
    (wr : SW.Idx → EReal) : SR.Idx → EReal :=
  Cert.Sage.dense (Cert.Sage.mean xs (srcU u) (dstOf r)) xd wl wr (bias b)

/-- The same, clamped below at zero. -/
def layerRepoRelu (u r : IVec SE 32) (xs : SU.Idx → EReal) (xd : SR.Idx → EReal) (wl : SW.Idx → EReal) (b : SB.Idx → EReal)
    (wr : SW.Idx → EReal) : SR.Idx → EReal :=
  Cert.Sage.denseRelu (Cert.Sage.mean xs (srcU u) (dstOf r)) xd wl wr (bias b)

/-- A layer updating the users from the repos joined to them. -/
def layerUser (u r : IVec SE 32) (xs : SR.Idx → EReal) (xd : SU.Idx → EReal) (wl : SW.Idx → EReal) (b : SB.Idx → EReal)
    (wr : SW.Idx → EReal) : SU.Idx → EReal :=
  Cert.Sage.dense (Cert.Sage.mean xs (srcR r) (dstOf u)) xd wl wr (bias b)

/-- The same, clamped below at zero. -/
def layerUserRelu (u r : IVec SE 32) (xs : SR.Idx → EReal) (xd : SU.Idx → EReal) (wl : SW.Idx → EReal) (b : SB.Idx → EReal)
    (wr : SW.Idx → EReal) : SU.Idx → EReal :=
  Cert.Sage.denseRelu (Cert.Sage.mean xs (srcR r) (dstOf u)) xd wl wr (bias b)

end Cert.Spec

end
-- ==== Proof.LibTypedRef.lean ====
/-
  A typed reference pairs a buffer with the contents type its values have; contents are carried to the buffer's own
  type and back along the equation between the two types.
-/
import Idealize.ShloMosaic.Lib.StableHlo

namespace Idealize.ShloMosaic.StableHlo.TRef

/-- Carrying contents of the stated type to the buffer's own type and back changes nothing: both transports are along
    one equation of types, in opposite directions. -/
theorem ofBuf_toBuf {sig : RefSig} {Val : EltTy → Type} {T : BufTy} (x : TRef sig T) (v : T.Contents Val) :
    x.ofBuf (x.toBuf v) = v := by
  obtain ⟨r, ty_eq, od, us⟩ := x
  subst ty_eq
  rfl

end Idealize.ShloMosaic.StableHlo.TRef
-- ==== Proof.Region0.lean ====
/-
  Region 0 of the idealized kernel: what its pipeline leaves in its output array.

  The region's grid has 20 points; point `t` is handed rows `5000·t … 5000·t + 4999` of the aggregated-neighbour array and of
  the nodes' own feature array, and the two whole weight matrices and the whole bias row. Its body stores, at (r, q) of
  the output's block, the dense part's entry of those rows, clamped below at zero: two products into zero accumulators and the bias
  row spread down the block. As the 20 blocks tile the 100000 rows, the output array ends holding the dense part, clamped, of the
  whole arrays as the region found them, entry by entry.
-/
import proofs.«130617_j64527588655555_2_alg».proof.Proof.Gen.KernelIdeal.Frame
import proofs.«130617_j64527588655555_2_alg».proof.Proof.LibSageMean

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-- The body's stored value at (r, q) of the block: the dense part's entry of the block's rows, clamped. -/
theorem pay_apply (x0 x1 : Vec Ideal S5000x128 .f32) (x2 x4 : Vec Ideal S128x128 .bf16) (x3 : Vec Ideal S1x128 .f32)
    (r : Fin 5000) (q : Fin 128) :
    k0_pay1 (F := Ideal) x0 x1 x2 x3 x4 (ix2 r q)
      = max (Cert.Sage.denseEntry x0 x1 x2 x4 (fun q => x3 (ix2 (0 : Fin 1) q)) r q) 0 := by
  unfold k0_pay1
  rw [shapeCast_self, shapeCast_self, shapeCast_self, shapeCast_self]
  exact congrArg₂ max (Cert.Sage.block_apply (m := 5000) (K := 128) (N := 128) dot_S5000x128_S128x128_S5000x128_1_0_0_1_n_n rfl none
    (truncf .bf16 x0 bitsLt_bf16_f32) (truncf .bf16 x1 bitsLt_bf16_f32) x2 x4 x3 broadcasts_S1x128_S5000x128 r q) Ideal.ofBits_zero_f32

theorem pay_apply' (x0 x1 : Vec Ideal S5000x128 .f32) (x2 x4 : Vec Ideal S128x128 .bf16) (x3 : Vec Ideal S1x128 .f32)
    (y : S5000x128.Idx) :
    k0_pay1 (F := Ideal) x0 x1 x2 x3 x4 y
      = max (Cert.Sage.denseEntry x0 x1 x2 x4 (fun q => x3 (ix2 (0 : Fin 1) q)) (y 0) (y 1)) 0 := by
  obtain ⟨r, q, rfl⟩ : ∃ (r : Fin 5000) (q : Fin 128), y = ix2 r q := ⟨y 0, y 1, eq_ix2 y⟩
  exact pay_apply x0 x1 x2 x4 x3 r q

/-- The printed index maps, decided over the grid: the two row-blocked inputs move with the output, point `t` at block
    row `t`; the weights and the bias are whole. -/
theorem idx_facts : ∀ t : Fin cfg0.N, win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

variable (V : (c : Dev nD) → (b : Ref sig .tc) → Buf (Elt Ideal) ((c : Thread nD τ).loc b))

/-- What the region leaves in its output array, of the arrays it reads. -/
def G (A X : S100000x128.Idx → EReal) (Wl Wr : S128x128.Idx → EReal) (B : S1x128.Idx → EReal) : S100000x128.Idx → EReal :=
  Cert.Sage.denseRelu A X Wl Wr (fun q => B (ix2 (0 : Fin 1) q))

/-- WHAT POINT `t` WRITES BACK is block `t` of `G` of the arrays as the region finds them. -/
theorem flushed_eq (c : Dev nD) (t : Fin cfg0.N) :
    (dat0 V c).flushed 5 t = ((cfg0.win 5).blk t).view.read (Elt Ideal)
      (G (V c main_v62) (V c main_arg1) (V c main_v63) (V c main_v64) (V c main_v65)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e50, e51, e00, e01, e10, e11, e20, e21, e30, e31, e40, e41⟩ := idx_facts t
  funext j
  refine (pay_apply' _ _ _ _ _ j).trans ?_
  have hj0 : (j 0).val < 5000 := (j 0).isLt
  have hj1 : (j 1).val < 128 := (j 1).isLt
  show _ = max (Cert.Sage.denseEntry (V c main_v62) (V c main_arg1) (V c main_v63) (V c main_v64) (fun q => V c main_v65 (ix2 (0 : Fin 1) q))
      ((((cfg0.win 5).blk t).view.emb j) 0) ((((cfg0.win 5).blk t).view.emb j) 1)) 0
  refine congrArg (fun y => max y (0 : EReal)) ?_
  unfold Cert.Sage.denseEntry
  refine congrArg₂ (· + ·) (congrArg₂ (· + ·) (Finset.sum_congr rfl fun k _ => congrArg₂ (· * ·) ?_ ?_) ?_)
    (Finset.sum_congr rfl fun k _ => congrArg₂ (· * ·) ?_ ?_)
  · show V c main_v62 (((cfg0.win 0).blk t).view.emb (ix2 (j 0) k)) = V c main_v62 (ix2 ((((cfg0.win 5).blk t).view.emb j) 0) k)
    refine congrArg (V c main_v62) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · show V c main_v63 (((cfg0.win 2).blk t).view.emb (ix2 k (j 1))) = V c main_v63 (ix2 k ((((cfg0.win 5).blk t).view.emb j) 1))
    refine congrArg (V c main_v63) (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  · show V c main_v65 (((cfg0.win 3).blk t).view.emb (ix2 (0 : Fin 1) (j 1))) = V c main_v65 (ix2 (0 : Fin 1) ((((cfg0.win 5).blk t).view.emb j) 1))
    refine congrArg (V c main_v65) (funext fun a => Fin.ext ?_)
    match a with
    | ⟨0, _⟩ => show win0_3.index t (0 : Fin 2) * 1 + 1 * 0 = 0; omega
    | ⟨1, _⟩ => show win0_3.index t (1 : Fin 2) * 128 + 1 * (j 1).val = win0_5.index t (1 : Fin 2) * 128 + 1 * (j 1).val; omega
  · show V c main_arg1 (((cfg0.win 1).blk t).view.emb (ix2 (j 0) k)) = V c main_arg1 (ix2 ((((cfg0.win 5).blk t).view.emb j) 0) k)
    refine congrArg (V c main_arg1) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · show V c main_v64 (((cfg0.win 4).blk t).view.emb (ix2 k (j 1))) = V c main_v64 (ix2 k ((((cfg0.win 5).blk t).view.emb j) 1))
    refine congrArg (V c main_v64) (funext fun a => Fin.ext ?_)
    match a with
    | ⟨0, _⟩ => show win0_4.index t (0 : Fin 2) * 128 + 1 * k.val = k.val; omega
    | ⟨1, _⟩ => show win0_4.index t (1 : Fin 2) * 128 + 1 * (j 1).val = win0_5.index t (1 : Fin 2) * 128 + 1 * (j 1).val; omega

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v66).slice (win0_5.rect t)).set ↔ _
  rw [View.set_slice_whole, Rect.mem_set_unit]
  exact Iff.rfl

/-- Every block row is SOME point's. -/
theorem idx_onto : ∀ q0 : Fin 20, ∃ t : Fin cfg0.N, win0_5.index t = ![q0.val, 0] :=
  (by decide +kernel : ∀ q0 : Fin 20, ∃ t : Fin grid0.N, win0_5.index t = ![q0.val, 0])

/-- The blocks tile the array: row `r` is in the block of point `r / 5000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY after the region: `G` of the arrays as the region finds them. -/
theorem final (c : Dev nD) :
    (dat0 V c).arrAt 5 cfg0.N = G (V c main_v62) (V c main_arg1) (V c main_v63) (V c main_v64) (V c main_v65) :=
  (dat0 V c).arrAt_eq_of_cover 5 _ (fun t _ => flushed_eq V c t) cover

end Cert.KernelIdeal.Region0

end
-- ==== Proof.Region1.lean ====
/-
  Region 1 of the idealized kernel: what its pipeline leaves in its output array.

  The region's grid has 40 points; point `t` is handed rows `5000·t … 5000·t + 4999` of the aggregated-neighbour array and of
  the nodes' own feature array, and the two whole weight matrices and the whole bias row. Its body stores, at (r, q) of
  the output's block, the dense part's entry of those rows, clamped below at zero: two products into zero accumulators and the bias
  row spread down the block. As the 40 blocks tile the 200000 rows, the output array ends holding the dense part, clamped, of the
  whole arrays as the region found them, entry by entry.
-/
import proofs.«130617_j64527588655555_2_alg».proof.Proof.Gen.KernelIdeal.Frame
import proofs.«130617_j64527588655555_2_alg».proof.Proof.LibSageMean

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-- The body's stored value at (r, q) of the block: the dense part's entry of the block's rows, clamped. -/
theorem pay_apply (x0 x1 : Vec Ideal S5000x128 .f32) (x2 x4 : Vec Ideal S128x128 .bf16) (x3 : Vec Ideal S1x128 .f32)
    (r : Fin 5000) (q : Fin 128) :
    k1_pay1 (F := Ideal) x0 x1 x2 x3 x4 (ix2 r q)
      = max (Cert.Sage.denseEntry x0 x1 x2 x4 (fun q => x3 (ix2 (0 : Fin 1) q)) r q) 0 := by
  unfold k1_pay1
  simp only [shapeCast_self]
  exact congrArg₂ max (Cert.Sage.block_apply (m := 5000) (K := 128) (N := 128) dot_S5000x128_S128x128_S5000x128_1_0_0_1_n_n rfl none
    (truncf .bf16 x0 bitsLt_bf16_f32) (truncf .bf16 x1 bitsLt_bf16_f32) x2 x4 x3 broadcasts_S1x128_S5000x128 r q) Ideal.ofBits_zero_f32

theorem pay_apply' (x0 x1 : Vec Ideal S5000x128 .f32) (x2 x4 : Vec Ideal S128x128 .bf16) (x3 : Vec Ideal S1x128 .f32)
    (y : S5000x128.Idx) :
    k1_pay1 (F := Ideal) x0 x1 x2 x3 x4 y
      = max (Cert.Sage.denseEntry x0 x1 x2 x4 (fun q => x3 (ix2 (0 : Fin 1) q)) (y 0) (y 1)) 0 := by
  obtain ⟨r, q, rfl⟩ : ∃ (r : Fin 5000) (q : Fin 128), y = ix2 r q := ⟨y 0, y 1, eq_ix2 y⟩
  exact pay_apply x0 x1 x2 x4 x3 r q

/-- The printed index maps, decided over the grid: the two row-blocked inputs move with the output, point `t` at block
    row `t`; the weights and the bias are whole. -/
theorem idx_facts : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

variable (V : (c : Dev nD) → (b : Ref sig .tc) → Buf (Elt Ideal) ((c : Thread nD τ).loc b))

/-- What the region leaves in its output array, of the arrays it reads. -/
def G (A X : S200000x128.Idx → EReal) (Wl Wr : S128x128.Idx → EReal) (B : S1x128.Idx → EReal) : S200000x128.Idx → EReal :=
  Cert.Sage.denseRelu A X Wl Wr (fun q => B (ix2 (0 : Fin 1) q))

/-- WHAT POINT `t` WRITES BACK is block `t` of `G` of the arrays as the region finds them. -/
theorem flushed_eq (c : Dev nD) (t : Fin cfg1.N) :
    (dat1 V c).flushed 5 t = ((cfg1.win 5).blk t).view.read (Elt Ideal)
      (G (V c main_v78) (V c main_arg0) (V c main_v79) (V c main_v80) (V c main_v81)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e50, e51, e00, e01, e10, e11, e20, e21, e30, e31, e40, e41⟩ := idx_facts t
  funext j
  refine (pay_apply' _ _ _ _ _ j).trans ?_
  have hj0 : (j 0).val < 5000 := (j 0).isLt
  have hj1 : (j 1).val < 128 := (j 1).isLt
  show _ = max (Cert.Sage.denseEntry (V c main_v78) (V c main_arg0) (V c main_v79) (V c main_v80) (fun q => V c main_v81 (ix2 (0 : Fin 1) q))
      ((((cfg1.win 5).blk t).view.emb j) 0) ((((cfg1.win 5).blk t).view.emb j) 1)) 0
  refine congrArg (fun y => max y (0 : EReal)) ?_
  unfold Cert.Sage.denseEntry
  refine congrArg₂ (· + ·) (congrArg₂ (· + ·) (Finset.sum_congr rfl fun k _ => congrArg₂ (· * ·) ?_ ?_) ?_)
    (Finset.sum_congr rfl fun k _ => congrArg₂ (· * ·) ?_ ?_)
  · show V c main_v78 (((cfg1.win 0).blk t).view.emb (ix2 (j 0) k)) = V c main_v78 (ix2 ((((cfg1.win 5).blk t).view.emb j) 0) k)
    refine congrArg (V c main_v78) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · show V c main_v79 (((cfg1.win 2).blk t).view.emb (ix2 k (j 1))) = V c main_v79 (ix2 k ((((cfg1.win 5).blk t).view.emb j) 1))
    refine congrArg (V c main_v79) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  · show V c main_v81 (((cfg1.win 3).blk t).view.emb (ix2 (0 : Fin 1) (j 1))) = V c main_v81 (ix2 (0 : Fin 1) ((((cfg1.win 5).blk t).view.emb j) 1))
    refine congrArg (V c main_v81) (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_5.index t (1 : Fin 2) * 128 + 1 * (j 1).val; omega
  · show V c main_arg0 (((cfg1.win 1).blk t).view.emb (ix2 (j 0) k)) = V c main_arg0 (ix2 ((((cfg1.win 5).blk t).view.emb j) 0) k)
    refine congrArg (V c main_arg0) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · show V c main_v80 (((cfg1.win 4).blk t).view.emb (ix2 k (j 1))) = V c main_v80 (ix2 k ((((cfg1.win 5).blk t).view.emb j) 1))
    refine congrArg (V c main_v80) (funext fun a => Fin.ext ?_)
    match a with
    | ⟨0, _⟩ => show win1_4.index t (0 : Fin 2) * 128 + 1 * k.val = k.val; omega
    | ⟨1, _⟩ => show win1_4.index t (1 : Fin 2) * 128 + 1 * (j 1).val = win1_5.index t (1 : Fin 2) * 128 + 1 * (j 1).val; omega

/-- An index of the array is in point `t`'s block iff each coordinate is in the block's range on its axis. -/
theorem mem_blk (t : Fin cfg1.N) (i : S200000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v82).slice (win1_5.rect t)).set ↔ _
  rw [View.set_slice_whole, Rect.mem_set_unit]
  exact Iff.rfl

/-- Every block row is SOME point's. -/
theorem idx_onto : ∀ q0 : Fin 40, ∃ t : Fin cfg1.N, win1_5.index t = ![q0.val, 0] :=
  (by decide +kernel : ∀ q0 : Fin 40, ∃ t : Fin grid1.N, win1_5.index t = ![q0.val, 0])

/-- The blocks tile the array: row `r` is in the block of point `r / 5000`. -/
theorem cover (i : S200000x128.Idx) : ∃ t : Fin cfg1.N, (cfg1.win 5).flush t = true ∧ i ∈ ((cfg1.win 5).blk t).view.set := by
  have hi0 : (i 0).val < 200000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY after the region: `G` of the arrays as the region finds them. -/
theorem final (c : Dev nD) :
    (dat1 V c).arrAt 5 cfg1.N = G (V c main_v78) (V c main_arg0) (V c main_v79) (V c main_v80) (V c main_v81) :=
  (dat1 V c).arrAt_eq_of_cover 5 _ (fun t _ => flushed_eq V c t) cover

end Cert.KernelIdeal.Region1

end
-- ==== Proof.Region2.lean ====
/-
  Region 2 of the idealized kernel: what its pipeline leaves in its output array.

  The region's grid has 20 points; point `t` is handed rows `5000·t … 5000·t + 4999` of the aggregated-neighbour array and of
  the nodes' own feature array, and the two whole weight matrices and the whole bias row. Its body stores, at (r, q) of
  the output's block, the dense part's entry of those rows: two products into zero accumulators and the bias
  row spread down the block. As the 20 blocks tile the 100000 rows, the output array ends holding the dense part of the
  whole arrays as the region found them, entry by entry.
-/
import proofs.«130617_j64527588655555_2_alg».proof.Proof.Gen.KernelIdeal.Frame
import proofs.«130617_j64527588655555_2_alg».proof.Proof.LibSageMean

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-- The body's stored value at (r, q) of the block: the dense part's entry of the block's rows. -/
theorem pay_apply (x0 x1 : Vec Ideal S5000x128 .f32) (x2 x4 : Vec Ideal S128x128 .bf16) (x3 : Vec Ideal S1x128 .f32)
    (r : Fin 5000) (q : Fin 128) :
    k2_pay1 (F := Ideal) x0 x1 x2 x3 x4 (ix2 r q)
      = Cert.Sage.denseEntry x0 x1 x2 x4 (fun q => x3 (ix2 (0 : Fin 1) q)) r q := by
  unfold k2_pay1
  simp only [shapeCast_self]
  exact Cert.Sage.block_apply (m := 5000) (K := 128) (N := 128) dot_S5000x128_S128x128_S5000x128_1_0_0_1_n_n rfl none
    (truncf .bf16 x0 bitsLt_bf16_f32) (truncf .bf16 x1 bitsLt_bf16_f32) x2 x4 x3 broadcasts_S1x128_S5000x128 r q

theorem pay_apply' (x0 x1 : Vec Ideal S5000x128 .f32) (x2 x4 : Vec Ideal S128x128 .bf16) (x3 : Vec Ideal S1x128 .f32)
    (y : S5000x128.Idx) :
    k2_pay1 (F := Ideal) x0 x1 x2 x3 x4 y
      = Cert.Sage.denseEntry x0 x1 x2 x4 (fun q => x3 (ix2 (0 : Fin 1) q)) (y 0) (y 1) := by
  obtain ⟨r, q, rfl⟩ : ∃ (r : Fin 5000) (q : Fin 128), y = ix2 r q := ⟨y 0, y 1, eq_ix2 y⟩
  exact pay_apply x0 x1 x2 x4 x3 r q

/-- The printed index maps, decided over the grid: the two row-blocked inputs move with the output, point `t` at block
    row `t`; the weights and the bias are whole. -/
theorem idx_facts : ∀ t : Fin cfg2.N, win2_5.index t (0 : Fin 2) = t.val ∧ win2_5.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

variable (V : (c : Dev nD) → (b : Ref sig .tc) → Buf (Elt Ideal) ((c : Thread nD τ).loc b))

/-- What the region leaves in its output array, of the arrays it reads. -/
def G (A X : S100000x128.Idx → EReal) (Wl Wr : S128x128.Idx → EReal) (B : S1x128.Idx → EReal) : S100000x128.Idx → EReal :=
  Cert.Sage.dense A X Wl Wr (fun q => B (ix2 (0 : Fin 1) q))

/-- WHAT POINT `t` WRITES BACK is block `t` of `G` of the arrays as the region finds them. -/
theorem flushed_eq (c : Dev nD) (t : Fin cfg2.N) :
    (dat2 V c).flushed 5 t = ((cfg2.win 5).blk t).view.read (Elt Ideal)
      (G (V c main_v94) (V c main_v66) (V c main_v95) (V c main_v96) (V c main_v97)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  obtain ⟨e50, e51, e00, e01, e10, e11, e20, e21, e30, e31, e40, e41⟩ := idx_facts t
  funext j
  refine (pay_apply' _ _ _ _ _ j).trans ?_
  have hj0 : (j 0).val < 5000 := (j 0).isLt
  have hj1 : (j 1).val < 128 := (j 1).isLt
  show _ = Cert.Sage.denseEntry (V c main_v94) (V c main_v66) (V c main_v95) (V c main_v96) (fun q => V c main_v97 (ix2 (0 : Fin 1) q))
      ((((cfg2.win 5).blk t).view.emb j) 0) ((((cfg2.win 5).blk t).view.emb j) 1)

  unfold Cert.Sage.denseEntry
  refine congrArg₂ (· + ·) (congrArg₂ (· + ·) (Finset.sum_congr rfl fun k _ => congrArg₂ (· * ·) ?_ ?_) ?_)
    (Finset.sum_congr rfl fun k _ => congrArg₂ (· * ·) ?_ ?_)
  · show V c main_v94 (((cfg2.win 0).blk t).view.emb (ix2 (j 0) k)) = V c main_v94 (ix2 ((((cfg2.win 5).blk t).view.emb j) 0) k)
    refine congrArg (V c main_v94) (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * k.val = k.val; omega
  · show V c main_v95 (((cfg2.win 2).blk t).view.emb (ix2 k (j 1))) = V c main_v95 (ix2 k ((((cfg2.win 5).blk t).view.emb j) 1))
    refine congrArg (V c main_v95) (funext fun a => Fin.ext ?_)
    match a with
    | ⟨0, _⟩ => show win2_2.index t (0 : Fin 2) * 128 + 1 * k.val = k.val; omega
    | ⟨1, _⟩ => show win2_2.index t (1 : Fin 2) * 128 + 1 * (j 1).val = win2_5.index t (1 : Fin 2) * 128 + 1 * (j 1).val; omega
  · show V c main_v97 (((cfg2.win 3).blk t).view.emb (ix2 (0 : Fin 1) (j 1))) = V c main_v97 (ix2 (0 : Fin 1) ((((cfg2.win 5).blk t).view.emb j) 1))
    refine congrArg (V c main_v97) (funext fun a => Fin.ext ?_)
    match a with
    | ⟨0, _⟩ => show win2_3.index t (0 : Fin 2) * 1 + 1 * 0 = 0; omega
    | ⟨1, _⟩ => show win2_3.index t (1 : Fin 2) * 128 + 1 * (j 1).val = win2_5.index t (1 : Fin 2) * 128 + 1 * (j 1).val; omega
  · show V c main_v66 (((cfg2.win 1).blk t).view.emb (ix2 (j 0) k)) = V c main_v66 (ix2 ((((cfg2.win 5).blk t).view.emb j) 0) k)
    refine congrArg (V c main_v66) (funext fun a => Fin.ext ?_)
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 128 + 1 * k.val = k.val; omega
  · show V c main_v96 (((cfg2.win 4).blk t).view.emb (ix2 k (j 1))) = V c main_v96 (ix2 k ((((cfg2.win 5).blk t).view.emb j) 1))
    refine congrArg (V c main_v96) (funext fun a => Fin.ext ?_)
    match a with
    | ⟨0, _⟩ => show win2_4.index t (0 : Fin 2) * 128 + 1 * k.val = k.val; omega
    | ⟨1, _⟩ => show win2_4.index t (1 : Fin 2) * 128 + 1 * (j 1).val = win2_5.index t (1 : Fin 2) * 128 + 1 * (j 1).val; omega

/-- An index of the array is in point `t`'s block iff each coordinate is in the block's range on its axis. -/
theorem mem_blk (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v98).slice (win2_5.rect t)).set ↔ _
  rw [View.set_slice_whole, Rect.mem_set_unit]
  exact Iff.rfl

/-- Every block row is SOME point's. -/
theorem idx_onto : ∀ q0 : Fin 20, ∃ t : Fin cfg2.N, win2_5.index t = ![q0.val, 0] :=
  (by decide +kernel : ∀ q0 : Fin 20, ∃ t : Fin grid2.N, win2_5.index t = ![q0.val, 0])

/-- The blocks tile the array: row `r` is in the block of point `r / 5000`. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE OUTPUT ARRAY after the region: `G` of the arrays as the region finds them. -/
theorem final (c : Dev nD) :
    (dat2 V c).arrAt 5 cfg2.N = G (V c main_v94) (V c main_v66) (V c main_v95) (V c main_v96) (V c main_v97) :=
  (dat2 V c).arrAt_eq_of_cover 5 _ (fun t _ => flushed_eq V c t) cover

end Cert.KernelIdeal.Region2

end
-- ==== Proof.Region3.lean ====
/-
  Region 3 of the idealized kernel: what its pipeline leaves in its output array.

  The region's grid has 40 points; point `t` is handed rows `5000·t … 5000·t + 4999` of the aggregated-neighbour array and of
  the nodes' own feature array, and the two whole weight matrices and the whole bias row. Its body stores, at (r, q) of
  the output's block, the dense part's entry of those rows: two products into zero accumulators and the bias
  row spread down the block. As the 40 blocks tile the 200000 rows, the output array ends holding the dense part of the
  whole arrays as the region found them, entry by entry.
-/
import proofs.«130617_j64527588655555_2_alg».proof.Proof.Gen.KernelIdeal.Frame
import proofs.«130617_j64527588655555_2_alg».proof.Proof.LibSageMean

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-- The body's stored value at (r, q) of the block: the dense part's entry of the block's rows. -/
theorem pay_apply (x0 x1 : Vec Ideal S5000x128 .f32) (x2 x4 : Vec Ideal S128x128 .bf16) (x3 : Vec Ideal S1x128 .f32)
    (r : Fin 5000) (q : Fin 128) :
    k3_pay1 (F := Ideal) x0 x1 x2 x3 x4 (ix2 r q)
      = Cert.Sage.denseEntry x0 x1 x2 x4 (fun q => x3 (ix2 (0 : Fin 1) q)) r q := by
  unfold k3_pay1
  simp only [shapeCast_self]
  exact Cert.Sage.block_apply (m := 5000) (K := 128) (N := 128) dot_S5000x128_S128x128_S5000x128_1_0_0_1_n_n rfl none
    (truncf .bf16 x0 bitsLt_bf16_f32) (truncf .bf16 x1 bitsLt_bf16_f32) x2 x4 x3 broadcasts_S1x128_S5000x128 r q

theorem pay_apply' (x0 x1 : Vec Ideal S5000x128 .f32) (x2 x4 : Vec Ideal S128x128 .bf16) (x3 : Vec Ideal S1x128 .f32)
    (y : S5000x128.Idx) :
    k3_pay1 (F := Ideal) x0 x1 x2 x3 x4 y
      = Cert.Sage.denseEntry x0 x1 x2 x4 (fun q => x3 (ix2 (0 : Fin 1) q)) (y 0) (y 1) := by
  obtain ⟨r, q, rfl⟩ : ∃ (r : Fin 5000) (q : Fin 128), y = ix2 r q := ⟨y 0, y 1, eq_ix2 y⟩
  exact pay_apply x0 x1 x2 x4 x3 r q

/-- The printed index maps, decided over the grid: the two row-blocked inputs move with the output, point `t` at block
    row `t`; the weights and the bias are whole. -/
theorem idx_facts : ∀ t : Fin cfg3.N, win3_5.index t (0 : Fin 2) = t.val ∧ win3_5.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

variable (V : (c : Dev nD) → (b : Ref sig .tc) → Buf (Elt Ideal) ((c : Thread nD τ).loc b))

/-- What the region leaves in its output array, of the arrays it reads. -/
def G (A X : S200000x128.Idx → EReal) (Wl Wr : S128x128.Idx → EReal) (B : S1x128.Idx → EReal) : S200000x128.Idx → EReal :=
  Cert.Sage.dense A X Wl Wr (fun q => B (ix2 (0 : Fin 1) q))

/-- WHAT POINT `t` WRITES BACK is block `t` of `G` of the arrays as the region finds them. -/
theorem flushed_eq (c : Dev nD) (t : Fin cfg3.N) :
    (dat3 V c).flushed 5 t = ((cfg3.win 5).blk t).view.read (Elt Ideal)
      (G (V c main_v110) (V c main_v82) (V c main_v111) (V c main_v112) (V c main_v113)) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x128) hz, View.ld_unit_zero (S := S1x128) hz]
  obtain ⟨e50, e51, e00, e01, e10, e11, e20, e21, e30, e31, e40, e41⟩ := idx_facts t
  funext j
  refine (pay_apply' _ _ _ _ _ j).trans ?_
  have hj0 : (j 0).val < 5000 := (j 0).isLt
  have hj1 : (j 1).val < 128 := (j 1).isLt
  show _ = Cert.Sage.denseEntry (V c main_v110) (V c main_v82) (V c main_v111) (V c main_v112) (fun q => V c main_v113 (ix2 (0 : Fin 1) q))
      ((((cfg3.win 5).blk t).view.emb j) 0) ((((cfg3.win 5).blk t).view.emb j) 1)

  unfold Cert.Sage.denseEntry
  refine congrArg₂ (· + ·) (congrArg₂ (· + ·) (Finset.sum_congr rfl fun k _ => congrArg₂ (· * ·) ?_ ?_) ?_)
    (Finset.sum_congr rfl fun k _ => congrArg₂ (· * ·) ?_ ?_)
  · show V c main_v110 (((cfg3.win 0).blk t).view.emb (ix2 (j 0) k)) = V c main_v110 (ix2 ((((cfg3.win 5).blk t).view.emb j) 0) k)
    refine congrArg (V c main_v110) (funext fun a => Fin.ext ?_)
    match a with
    | ⟨0, _⟩ => show win3_0.index t (0 : Fin 2) * 5000 + 1 * (j 0).val = win3_5.index t (0 : Fin 2) * 5000 + 1 * (j 0).val; omega
    | ⟨1, _⟩ => show win3_0.index t (1 : Fin 2) * 128 + 1 * k.val = k.val; omega
  · show V c main_v111 (((cfg3.win 2).blk t).view.emb (ix2 k (j 1))) = V c main_v111 (ix2 k ((((cfg3.win 5).blk t).view.emb j) 1))
    refine congrArg (V c main_v111) (funext fun a => Fin.ext ?_)
    match a with
    | ⟨0, _⟩ => show win3_2.index t (0 : Fin 2) * 128 + 1 * k.val = k.val; omega
    | ⟨1, _⟩ => show win3_2.index t (1 : Fin 2) * 128 + 1 * (j 1).val = win3_5.index t (1 : Fin 2) * 128 + 1 * (j 1).val; omega
  · show V c main_v113 (((cfg3.win 3).blk t).view.emb (ix2 (0 : Fin 1) (j 1))) = V c main_v113 (ix2 (0 : Fin 1) ((((cfg3.win 5).blk t).view.emb j) 1))
    refine congrArg (V c main_v113) (funext fun a => Fin.ext ?_)
    match a with
    | ⟨0, _⟩ => show win3_3.index t (0 : Fin 2) * 1 + 1 * 0 = 0; omega
    | ⟨1, _⟩ => show win3_3.index t (1 : Fin 2) * 128 + 1 * (j 1).val = win3_5.index t (1 : Fin 2) * 128 + 1 * (j 1).val; omega
  · show V c main_v82 (((cfg3.win 1).blk t).view.emb (ix2 (j 0) k)) = V c main_v82 (ix2 ((((cfg3.win 5).blk t).view.emb j) 0) k)
    refine congrArg (V c main_v82) (funext fun a => Fin.ext ?_)
    match a with
    | ⟨0, _⟩ => show win3_1.index t (0 : Fin 2) * 5000 + 1 * (j 0).val = win3_5.index t (0 : Fin 2) * 5000 + 1 * (j 0).val; omega
    | ⟨1, _⟩ => show win3_1.index t (1 : Fin 2) * 128 + 1 * k.val = k.val; omega
  · show V c main_v112 (((cfg3.win 4).blk t).view.emb (ix2 k (j 1))) = V c main_v112 (ix2 k ((((cfg3.win 5).blk t).view.emb j) 1))
    refine congrArg (V c main_v112) (funext fun a => Fin.ext ?_)
    match a with
    | ⟨0, _⟩ => show win3_4.index t (0 : Fin 2) * 128 + 1 * k.val = k.val; omega
    | ⟨1, _⟩ => show win3_4.index t (1 : Fin 2) * 128 + 1 * (j 1).val = win3_5.index t (1 : Fin 2) * 128 + 1 * (j 1).val; omega

/-- An index of the array is in point `t`'s block iff each coordinate is in the block's range on its axis. -/
theorem mem_blk (t : Fin cfg3.N) (i : S200000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v114).slice (win3_5.rect t)).set ↔ _
  rw [View.set_slice_whole, Rect.mem_set_unit]
  exact Iff.rfl

/-- Every block row is SOME point's. -/
theorem idx_onto : ∀ q0 : Fin 40, ∃ t : Fin cfg3.N, win3_5.index t = ![q0.val, 0] :=
  (by decide +kernel : ∀ q0 : Fin 40, ∃ t : Fin grid3.N, win3_5.index t = ![q0.val, 0])

/-- The blocks tile the array: row `r` is in the block of point `r / 5000`. -/
theorem cover (i : S200000x128.Idx) : ∃ t : Fin cfg3.N, (cfg3.win 5).flush t = true ∧ i ∈ ((cfg3.win 5).blk t).view.set := by
  have hi0 : (i 0).val < 200000 := (i 0).isLt
  have hi1 : (i 1).val < 128 := (i 1).isLt
  obtain ⟨t, ht⟩ := idx_onto ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- THE OUTPUT ARRAY after the region: `G` of the arrays as the region finds them. -/
theorem final (c : Dev nD) :
    (dat3 V c).arrAt 5 cfg3.N = G (V c main_v110) (V c main_v82) (V c main_v111) (V c main_v112) (V c main_v113) :=
  (dat3 V c).arrAt_eq_of_cover 5 _ (fun t _ => flushed_eq V c t) cover

end Cert.KernelIdeal.Region3

end
-- ==== Proof.KernelStages.lean ====
/-
  The idealized kernel's host side, read stretch by stretch.

  Before its first region the program splits the edge list into its two sides `u` and `r`, argsorts each, takes both sides
  at the sorted positions (`rS, uS` sorted by repo; `uR, rR` sorted by user), and counts each node's edges once per
  direction, keeping the reciprocal of `max (count, 1)` as a column. Before every region it gathers the source rows at
  the sorted source indices, adds them into the destination rows at the sorted destination indices and multiplies by the
  reciprocal column. Each such array is the mean of `Spec` over the edges in the order given (`Sage.sorted_mean`: an
  argsort is a permutation); each region then leaves the dense part of it (`Region*.final`), which is the next layer's
  input. Read through the fold of the program's segments, the two result buffers hold the two-layer network of `Spec`.
-/
import proofs.«130617_j64527588655555_2_alg».proof.Proof.Gen.KernelIdeal.Frame
import proofs.«130617_j64527588655555_2_alg».proof.Proof.Spec
import proofs.«130617_j64527588655555_2_alg».proof.Proof.LibTypedRef
import proofs.«130617_j64527588655555_2_alg».proof.Proof.Region0
import proofs.«130617_j64527588655555_2_alg».proof.Proof.Region1
import proofs.«130617_j64527588655555_2_alg».proof.Proof.Region2
import proofs.«130617_j64527588655555_2_alg».proof.Proof.Region3

set_option maxRecDepth 16384

noncomputable section

namespace Cert.KernelIdeal.Stages

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen

theorem zero_bcast {s : Shape} (h : S_.BroadcastsInDim s ![]) (i : s.Idx) :
    broadcastInDim s ![] h (constant (F := Ideal) S_ .f32 0x00000000#32) i = 0 :=
  (LibMeanScale.broadcastInDim_scalar_apply _ h i).trans Ideal.ofBits_zero_f32

theorem one_bcast {s : Shape} (h : S_.BroadcastsInDim s ![]) (i : s.Idx) :
    broadcastInDim s ![] h (constant (F := Ideal) S_ .f32 0x3F800000#32) i = 1 :=
  (LibMeanScale.broadcastInDim_scalar_apply _ h i).trans LibMeanAlgebra.ofBits_one

theorem word_bcast {s : Shape} (w : BitVec 32) (h : S_.BroadcastsInDim s ![]) (i : s.Idx) :
    broadcastInDim s ![] h (constantI S_ 32 w) i = w :=
  LibMeanScale.broadcastInDim_scalar_apply _ h i

/-- A stretch of host operations leaves a buffer none of them writes as it was. -/
macro "not_written" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg) (c : Dev nD)

/-! ## The edge tables -/

/-- The users' side of the edge list. -/
def uK : IVec S1500000 32 :=
  shapeCast S1500000 (extractStridedSlice S1x1500000 ![0, 0] (m ((c : Thread nD τ).loc main_arg2)) slices_S2x1500000_S1x1500000_0_0) shapeCasts_S1x1500000_S1500000
/-- The repos' side of the edge list. -/
def rK : IVec S1500000 32 :=
  shapeCast S1500000 (extractStridedSlice S1x1500000 ![1, 0] (m ((c : Thread nD τ).loc main_arg2)) slices_S2x1500000_S1x1500000_1_0) shapeCasts_S1x1500000_S1500000
/-- The positions sorted by repo. -/
def sortS : IVec S1500000 32 := (Host.sort2 S1500000 0 comparator_i32_i32_d0 (rK m c) (iotaInDim S1500000 32 0)).2
/-- The positions sorted by user. -/
def sortR : IVec S1500000 32 := (Host.sort2 S1500000 0 comparator_i32_i32_d0 (uK m c) (iotaInDim S1500000 32 0)).2
/-- A table of positions as start indices, negative words wrapped by the number of edges. -/
def wrapE (s : IVec S1500000 32) : IVec S1500000x1 32 :=
  broadcastInDim S1500000x1 ![0] bcast_S1500000_S1500000x1_0
    (select (cmpi .slt s (broadcastInDim S1500000 ![] bcast_S_S1500000 (constantI S_ 32 0#32)))
      (addi s (broadcastInDim S1500000 ![] bcast_S_S1500000 (constantI S_ 32 1500000#32))) s)
def rS : IVec S1500000 32 := Host.gather gather_S1500000_S1500000x1_S1500000_n_0_n_n_0_1_1 (rK m c) (wrapE (sortS m c))
def uS : IVec S1500000 32 := Host.gather gather_S1500000_S1500000x1_S1500000_n_0_n_n_0_1_1 (uK m c) (wrapE (sortS m c))
def uR : IVec S1500000 32 := Host.gather gather_S1500000_S1500000x1_S1500000_n_0_n_n_0_1_1 (uK m c) (wrapE (sortR m c))
def rR : IVec S1500000 32 := Host.gather gather_S1500000_S1500000x1_S1500000_n_0_n_n_0_1_1 (rK m c) (wrapE (sortR m c))
/-- The reciprocal of `max (count, 1)` per repo, as a column. -/
def invRepo : FVec Ideal S100000x1 .f32 :=
  shapeCast S100000x1 (Host.divf (broadcastInDim S100000 ![] bcast_S_S100000 (constant S_ .f32 0x3F800000#32))
    (maximumf (Host.scatterAdd scatter_S100000_S1500000x1_S1500000_n_0_0_1
        (broadcastInDim S100000 ![] bcast_S_S100000 (constant S_ .f32 0x00000000#32))
        (broadcastInDim S1500000x1 ![0] bcast_S1500000_S1500000x1_0 (rS m c))
        (broadcastInDim S1500000 ![] bcast_S_S1500000 (constant S_ .f32 0x3F800000#32)))
      (broadcastInDim S100000 ![] bcast_S_S100000 (constant S_ .f32 0x3F800000#32)))) shapeCasts_S100000_S100000x1
/-- The reciprocal of `max (count, 1)` per user, as a column. -/
def invUser : FVec Ideal S200000x1 .f32 :=
  shapeCast S200000x1 (Host.divf (broadcastInDim S200000 ![] bcast_S_S200000 (constant S_ .f32 0x3F800000#32))
    (maximumf (Host.scatterAdd scatter_S200000_S1500000x1_S1500000_n_0_0_1
        (broadcastInDim S200000 ![] bcast_S_S200000 (constant S_ .f32 0x00000000#32))
        (broadcastInDim S1500000x1 ![0] bcast_S1500000_S1500000x1_0 (uR m c))
        (broadcastInDim S1500000 ![] bcast_S_S1500000 (constant S_ .f32 0x3F800000#32)))
      (broadcastInDim S200000 ![] bcast_S_S200000 (constant S_ .f32 0x3F800000#32)))) shapeCasts_S200000_S200000x1

/-! ## The sorted aggregation is the mean over the edges as given -/

/-- Into the repos, from any array of user rows. -/
theorem meanRepo_form (X : FVec Ideal S200000x128 .f32) :
    mulf (Host.scatterAdd scatter_S100000x128_S1500000x1_S1500000x128_1_0_0_1
          (broadcastInDim S100000x128 ![] bcast_S_S100000x128 (constant S_ .f32 0x00000000#32))
          (broadcastInDim S1500000x1 ![0] bcast_S1500000_S1500000x1_0 (rS m c))
          (Host.gather gather_S200000x128_S1500000x1_S1500000x128_1_0_n_n_0_1_1128 X
            (broadcastInDim S1500000x1 ![0] bcast_S1500000_S1500000x1_0
              (select (cmpi .slt (uS m c) (broadcastInDim S1500000 ![] bcast_S_S1500000 (constantI S_ 32 0#32)))
                (addi (uS m c) (broadcastInDim S1500000 ![] bcast_S_S1500000 (constantI S_ 32 200000#32))) (uS m c)))))
        (broadcastInDim S100000x128 ![0, 1] bcast_S100000x1_S100000x128_0_1 (invRepo m c))
      = Cert.Sage.mean X (Cert.Spec.srcU (uK m c)) (Cert.Spec.dstOf (rK m c)) := by
  unfold invRepo rS uS wrapE sortS
  exact Cert.Sage.sorted_mean (Ns := 200000) (Nd := 100000) (E := 1500000) (D := 128) (by omega) 200000#32
    gather_S200000x128_S1500000x1_S1500000x128_1_0_n_n_0_1_1128_wf scatter_S100000x128_S1500000x1_S1500000x128_1_0_0_1_wf
    scatter_S100000_S1500000x1_S1500000_n_0_0_1_wf bcast_S1500000_S1500000x1_0 X (uK m c) (rK m c)
    _ _ (word_bcast _ _) (word_bcast _ _)
    _ (zero_bcast _) _ (zero_bcast _) _ (one_bcast _) _ _ (one_bcast _) (one_bcast _) bcast_S100000x1_S100000x128_0_1
    (by omega) (by omega) gather_S1500000_S1500000x1_S1500000_n_0_n_n_0_1_1_wf _ _
    ((Host.sort2 S1500000 0 comparator_i32_i32_d0 (rK m c) (iotaInDim S1500000 32 0)).2) (word_bcast _ _)
    (Cert.SortPerm.perm comparator_i32_i32_d0 (rK m c) (iotaInDim S1500000 32 0))
    (Cert.SortPerm.perm_bijective _ _ _) (fun e => Cert.SortPerm.argsort_apply comparator_i32_i32_d0 (rK m c) e)
    shapeCasts_S100000_S100000x1

/-- Into the users, from any array of repo rows. -/
theorem meanUser_form (X : FVec Ideal S100000x128 .f32) :
    mulf (Host.scatterAdd scatter_S200000x128_S1500000x1_S1500000x128_1_0_0_1
          (broadcastInDim S200000x128 ![] bcast_S_S200000x128 (constant S_ .f32 0x00000000#32))
          (broadcastInDim S1500000x1 ![0] bcast_S1500000_S1500000x1_0 (uR m c))
          (Host.gather gather_S100000x128_S1500000x1_S1500000x128_1_0_n_n_0_1_1128 X
            (broadcastInDim S1500000x1 ![0] bcast_S1500000_S1500000x1_0
              (select (cmpi .slt (rR m c) (broadcastInDim S1500000 ![] bcast_S_S1500000 (constantI S_ 32 0#32)))
                (addi (rR m c) (broadcastInDim S1500000 ![] bcast_S_S1500000 (constantI S_ 32 100000#32))) (rR m c)))))
        (broadcastInDim S200000x128 ![0, 1] bcast_S200000x1_S200000x128_0_1 (invUser m c))
      = Cert.Sage.mean X (Cert.Spec.srcR (rK m c)) (Cert.Spec.dstOf (uK m c)) := by
  unfold invUser uR rR wrapE sortR
  exact Cert.Sage.sorted_mean (Ns := 100000) (Nd := 200000) (E := 1500000) (D := 128) (by omega) 100000#32
    gather_S100000x128_S1500000x1_S1500000x128_1_0_n_n_0_1_1128_wf scatter_S200000x128_S1500000x1_S1500000x128_1_0_0_1_wf
    scatter_S200000_S1500000x1_S1500000_n_0_0_1_wf bcast_S1500000_S1500000x1_0 X (rK m c) (uK m c)
    _ _ (word_bcast _ _) (word_bcast _ _)
    _ (zero_bcast _) _ (zero_bcast _) _ (one_bcast _) _ _ (one_bcast _) (one_bcast _) bcast_S200000x1_S200000x128_0_1
    (by omega) (by omega) gather_S1500000_S1500000x1_S1500000_n_0_n_n_0_1_1_wf _ _
    ((Host.sort2 S1500000 0 comparator_i32_i32_d0 (uK m c) (iotaInDim S1500000 32 0)).2) (word_bcast _ _)
    (Cert.SortPerm.perm comparator_i32_i32_d0 (uK m c) (iotaInDim S1500000 32 0))
    (Cert.SortPerm.perm_bijective _ _ _) (fun e => Cert.SortPerm.argsort_apply comparator_i32_i32_d0 (uK m c) e)
    shapeCasts_S200000_S200000x1

/-! ## The buffers before the first region -/

theorem W5_v11 : W5 (F := Ideal) m ρ c (Proc.devRef .tc main_v11) = rS m c := by
  show StableHlo.after hostOps0_4 (StableHlo.after hostOps0_3 (StableHlo.after hostOps0_2 (StableHlo.after hostOps0_1 (StableHlo.after hostOps0 (W0 m ρ c))))) (Proc.devRef .tc main_v11) = _
  after_results_simp
  simp only [TRef.ofBuf_toBuf]
  rfl

theorem W5_v18 : W5 (F := Ideal) m ρ c (Proc.devRef .tc main_v18) = uS m c := by
  show StableHlo.after hostOps0_4 (StableHlo.after hostOps0_3 (StableHlo.after hostOps0_2 (StableHlo.after hostOps0_1 (StableHlo.after hostOps0 (W0 m ρ c))))) (Proc.devRef .tc main_v18) = _
  after_results_simp
  simp only [TRef.ofBuf_toBuf]
  rfl

theorem W5_v26 : W5 (F := Ideal) m ρ c (Proc.devRef .tc main_v26) = uR m c := by
  show StableHlo.after hostOps0_4 (StableHlo.after hostOps0_3 (StableHlo.after hostOps0_2 (StableHlo.after hostOps0_1 (StableHlo.after hostOps0 (W0 m ρ c))))) (Proc.devRef .tc main_v26) = _
  after_results_simp
  simp only [TRef.ofBuf_toBuf]
  rfl

theorem W5_v33 : W5 (F := Ideal) m ρ c (Proc.devRef .tc main_v33) = rR m c := by
  show StableHlo.after hostOps0_4 (StableHlo.after hostOps0_3 (StableHlo.after hostOps0_2 (StableHlo.after hostOps0_1 (StableHlo.after hostOps0 (W0 m ρ c))))) (Proc.devRef .tc main_v33) = _
  after_results_simp
  simp only [TRef.ofBuf_toBuf]
  rfl

theorem W5_v42 : W5 (F := Ideal) m ρ c (Proc.devRef .tc main_v42) = invRepo m c := by
  show StableHlo.after hostOps0_4 (StableHlo.after hostOps0_3 (StableHlo.after hostOps0_2 (StableHlo.after hostOps0_1 (StableHlo.after hostOps0 (W0 m ρ c))))) (Proc.devRef .tc main_v42) = _
  after_results_simp
  simp only [TRef.ofBuf_toBuf]
  rfl

theorem W5_v50 : W5 (F := Ideal) m ρ c (Proc.devRef .tc main_v50) = invUser m c := by
  show StableHlo.after hostOps0_4 (StableHlo.after hostOps0_3 (StableHlo.after hostOps0_2 (StableHlo.after hostOps0_1 (StableHlo.after hostOps0 (W0 m ρ c))))) (Proc.devRef .tc main_v50) = _
  after_results_simp
  simp only [TRef.ofBuf_toBuf]
  rfl

theorem W5_arg0 : W5 (F := Ideal) m ρ c (Proc.devRef .tc main_arg0) = (m ((c : Thread nD τ).loc main_arg0)) := by
  show StableHlo.after hostOps0_4 (StableHlo.after hostOps0_3 (StableHlo.after hostOps0_2 (StableHlo.after hostOps0_1 (StableHlo.after hostOps0 (W0 m ρ c))))) (Proc.devRef .tc main_arg0) = _
  after_results_simp <;> rfl

theorem W5_arg1 : W5 (F := Ideal) m ρ c (Proc.devRef .tc main_arg1) = (m ((c : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_arg1) = _
  after_results_simp <;> rfl

theorem W5_arg3 : W5 (F := Ideal) m ρ c (Proc.devRef .tc main_arg3) = (m ((c : Thread nD τ).loc main_arg3)) := by
  show StableHlo.after hostOps0_4 (StableHlo.after hostOps0_3 (StableHlo.after hostOps0_2 (StableHlo.after hostOps0_1 (StableHlo.after hostOps0 (W0 m ρ c))))) (Proc.devRef .tc main_arg3) = _
  after_results_simp <;> rfl

theorem W5_arg4 : W5 (F := Ideal) m ρ c (Proc.devRef .tc main_arg4) = (m ((c : Thread nD τ).loc main_arg4)) := by
  show StableHlo.after hostOps0_4 (StableHlo.after hostOps0_3 (StableHlo.after hostOps0_2 (StableHlo.after hostOps0_1 (StableHlo.after hostOps0 (W0 m ρ c))))) (Proc.devRef .tc main_arg4) = _
  after_results_simp <;> rfl

theorem W5_arg5 : W5 (F := Ideal) m ρ c (Proc.devRef .tc main_arg5) = (m ((c : Thread nD τ).loc main_arg5)) := by
  show StableHlo.after hostOps0_4 (StableHlo.after hostOps0_3 (StableHlo.after hostOps0_2 (StableHlo.after hostOps0_1 (StableHlo.after hostOps0 (W0 m ρ c))))) (Proc.devRef .tc main_arg5) = _
  after_results_simp <;> rfl

theorem W5_arg6 : W5 (F := Ideal) m ρ c (Proc.devRef .tc main_arg6) = (m ((c : Thread nD τ).loc main_arg6)) := by
  show StableHlo.after hostOps0_4 (StableHlo.after hostOps0_3 (StableHlo.after hostOps0_2 (StableHlo.after hostOps0_1 (StableHlo.after hostOps0 (W0 m ρ c))))) (Proc.devRef .tc main_arg6) = _
  after_results_simp <;> rfl

theorem W5_arg7 : W5 (F := Ideal) m ρ c (Proc.devRef .tc main_arg7) = (m ((c : Thread nD τ).loc main_arg7)) := by
  show StableHlo.after hostOps0_4 (StableHlo.after hostOps0_3 (StableHlo.after hostOps0_2 (StableHlo.after hostOps0_1 (StableHlo.after hostOps0 (W0 m ρ c))))) (Proc.devRef .tc main_arg7) = _
  after_results_simp <;> rfl

theorem W5_arg8 : W5 (F := Ideal) m ρ c (Proc.devRef .tc main_arg8) = (m ((c : Thread nD τ).loc main_arg8)) := by
  show StableHlo.after hostOps0_4 (StableHlo.after hostOps0_3 (StableHlo.after hostOps0_2 (StableHlo.after hostOps0_1 (StableHlo.after hostOps0 (W0 m ρ c))))) (Proc.devRef .tc main_arg8) = _
  after_results_simp <;> rfl

theorem W5_arg9 : W5 (F := Ideal) m ρ c (Proc.devRef .tc main_arg9) = (m ((c : Thread nD τ).loc main_arg9)) := by
  show StableHlo.after hostOps0_4 (StableHlo.after hostOps0_3 (StableHlo.after hostOps0_2 (StableHlo.after hostOps0_1 (StableHlo.after hostOps0 (W0 m ρ c))))) (Proc.devRef .tc main_arg9) = _
  after_results_simp <;> rfl

theorem W5_arg10 : W5 (F := Ideal) m ρ c (Proc.devRef .tc main_arg10) = (m ((c : Thread nD τ).loc main_arg10)) := by
  show StableHlo.after hostOps0_4 (StableHlo.after hostOps0_3 (StableHlo.after hostOps0_2 (StableHlo.after hostOps0_1 (StableHlo.after hostOps0 (W0 m ρ c))))) (Proc.devRef .tc main_arg10) = _
  after_results_simp <;> rfl

theorem W5_arg11 : W5 (F := Ideal) m ρ c (Proc.devRef .tc main_arg11) = (m ((c : Thread nD τ).loc main_arg11)) := by
  show StableHlo.after hostOps0_4 (StableHlo.after hostOps0_3 (StableHlo.after hostOps0_2 (StableHlo.after hostOps0_1 (StableHlo.after hostOps0 (W0 m ρ c))))) (Proc.devRef .tc main_arg11) = _
  after_results_simp <;> rfl

theorem W5_arg12 : W5 (F := Ideal) m ρ c (Proc.devRef .tc main_arg12) = (m ((c : Thread nD τ).loc main_arg12)) := by
  show StableHlo.after hostOps0_4 (StableHlo.after hostOps0_3 (StableHlo.after hostOps0_2 (StableHlo.after hostOps0_1 (StableHlo.after hostOps0 (W0 m ρ c))))) (Proc.devRef .tc main_arg12) = _
  after_results_simp <;> rfl

theorem W5_arg13 : W5 (F := Ideal) m ρ c (Proc.devRef .tc main_arg13) = (m ((c : Thread nD τ).loc main_arg13)) := by
  show StableHlo.after hostOps0_4 (StableHlo.after hostOps0_3 (StableHlo.after hostOps0_2 (StableHlo.after hostOps0_1 (StableHlo.after hostOps0 (W0 m ρ c))))) (Proc.devRef .tc main_arg13) = _
  after_results_simp <;> rfl

theorem W5_arg14 : W5 (F := Ideal) m ρ c (Proc.devRef .tc main_arg14) = (m ((c : Thread nD τ).loc main_arg14)) := by
  show StableHlo.after hostOps0_4 (StableHlo.after hostOps0_3 (StableHlo.after hostOps0_2 (StableHlo.after hostOps0_1 (StableHlo.after hostOps0 (W0 m ρ c))))) (Proc.devRef .tc main_arg14) = _
  after_results_simp <;> rfl

/-- The first layer's aggregate into the repos. -/
theorem V5_v62 : V5 (F := Ideal) m ρ c main_v62
    = Cert.Sage.mean (m ((c : Thread nD τ).loc main_arg0)) (Cert.Spec.srcU (uK m c)) (Cert.Spec.dstOf (rK m c)) := by
  show StableHlo.after hostOps0_4 (StableHlo.after hostOps0_3 (StableHlo.after hostOps0_2 (StableHlo.after hostOps0_1 (StableHlo.after hostOps0 (W0 m ρ c))))) (Proc.devRef .tc main_v62) = _
  after_results_simp
  simp only [TRef.ofBuf_toBuf]
  exact meanRepo_form m c (m ((c : Thread nD τ).loc main_arg0))

theorem V5_v63 : V5 (F := Ideal) m ρ c main_v63 = (m ((c : Thread nD τ).loc main_arg3)) := by
  show StableHlo.after hostOps0_4 (StableHlo.after hostOps0_3 (StableHlo.after hostOps0_2 (StableHlo.after hostOps0_1 (StableHlo.after hostOps0 (W0 m ρ c))))) (Proc.devRef .tc main_v63) = _
  after_results_simp <;> rfl

theorem V5_v64 : V5 (F := Ideal) m ρ c main_v64 = (m ((c : Thread nD τ).loc main_arg5)) := by
  show StableHlo.after hostOps0_4 (StableHlo.after hostOps0_3 (StableHlo.after hostOps0_2 (StableHlo.after hostOps0_1 (StableHlo.after hostOps0 (W0 m ρ c))))) (Proc.devRef .tc main_v64) = _
  after_results_simp <;> rfl

theorem V5_v65 : V5 (F := Ideal) m ρ c main_v65 = shapeCast S1x128 (m ((c : Thread nD τ).loc main_arg4)) shapeCasts_S128_S1x128 := by
  show StableHlo.after hostOps0_4 (StableHlo.after hostOps0_3 (StableHlo.after hostOps0_2 (StableHlo.after hostOps0_1 (StableHlo.after hostOps0 (W0 m ρ c))))) (Proc.devRef .tc main_v65) = _
  after_results_simp <;> rfl

/-- A bias vector reshaped to a row, read by feature. -/
theorem bias_row (b : FVec Ideal S128 .f32) :
    (fun q : Fin 128 => shapeCast S1x128 b shapeCasts_S128_S1x128 (ix2 (0 : Fin 1) q)) = Cert.Spec.bias b :=
  funext fun q => shapeCast_a_1a_apply b shapeCasts_S128_S1x128 0 q

/-! ## Region 0: the first layer's repos -/

theorem repoH_eq : W6 (F := Ideal) m ρ c (Proc.devRef .tc main_v66)
    = Cert.Spec.layerRepoRelu (uK m c) (rK m c) (m ((c : Thread nD τ).loc main_arg0)) (m ((c : Thread nD τ).loc main_arg1)) (m ((c : Thread nD τ).loc main_arg3)) (m ((c : Thread nD τ).loc main_arg4)) (m ((c : Thread nD τ).loc main_arg5)) := by
  refine (W6_arr m ρ c 5).trans ((Cert.KernelIdeal.Region0.final (V5 m ρ) c).trans ?_)
  unfold Cert.KernelIdeal.Region0.G Cert.Spec.layerRepoRelu
  rw [V5_v62, V5_v63, V5_v64, V5_v65, bias_row]
  exact congrArg (fun x => Cert.Sage.denseRelu _ x _ _ _) (W5_arg1 m ρ c)

/-! ## The first layer's results, named -/

/-- The first layer's repos. -/
def hR : Cert.Spec.SR.Idx → EReal :=
  Cert.Spec.layerRepoRelu (uK m c) (rK m c) (m ((c : Thread nD τ).loc main_arg0)) (m ((c : Thread nD τ).loc main_arg1)) (m ((c : Thread nD τ).loc main_arg3)) (m ((c : Thread nD τ).loc main_arg4)) (m ((c : Thread nD τ).loc main_arg5))
/-- The first layer's users. -/
def hU : Cert.Spec.SU.Idx → EReal :=
  Cert.Spec.layerUserRelu (uK m c) (rK m c) (m ((c : Thread nD τ).loc main_arg1)) (m ((c : Thread nD τ).loc main_arg0)) (m ((c : Thread nD τ).loc main_arg6)) (m ((c : Thread nD τ).loc main_arg7)) (m ((c : Thread nD τ).loc main_arg8))
/-- The second layer's repos. -/
def oR : Cert.Spec.SR.Idx → EReal :=
  Cert.Spec.layerRepo (uK m c) (rK m c) (hU m c) (hR m c) (m ((c : Thread nD τ).loc main_arg9)) (m ((c : Thread nD τ).loc main_arg10)) (m ((c : Thread nD τ).loc main_arg11))
/-- The second layer's users. -/
def oU : Cert.Spec.SU.Idx → EReal :=
  Cert.Spec.layerUser (uK m c) (rK m c) (hR m c) (hU m c) (m ((c : Thread nD τ).loc main_arg12)) (m ((c : Thread nD τ).loc main_arg13)) (m ((c : Thread nD τ).loc main_arg14))

theorem W6_v66 : W6 (F := Ideal) m ρ c (Proc.devRef .tc main_v66) = hR m c := repoH_eq m ρ c

/-! ## Between region 0 and region 1 -/

theorem W6_v11 : W6 (F := Ideal) m ρ c (Proc.devRef .tc main_v11) = rS m c :=
  (W6_of_ne m ρ c main_v11 (by decide)).trans (W5_v11 m ρ c)
theorem W6_v18 : W6 (F := Ideal) m ρ c (Proc.devRef .tc main_v18) = uS m c :=
  (W6_of_ne m ρ c main_v18 (by decide)).trans (W5_v18 m ρ c)
theorem W6_v26 : W6 (F := Ideal) m ρ c (Proc.devRef .tc main_v26) = uR m c :=
  (W6_of_ne m ρ c main_v26 (by decide)).trans (W5_v26 m ρ c)
theorem W6_v33 : W6 (F := Ideal) m ρ c (Proc.devRef .tc main_v33) = rR m c :=
  (W6_of_ne m ρ c main_v33 (by decide)).trans (W5_v33 m ρ c)
theorem W6_v42 : W6 (F := Ideal) m ρ c (Proc.devRef .tc main_v42) = invRepo m c :=
  (W6_of_ne m ρ c main_v42 (by decide)).trans (W5_v42 m ρ c)
theorem W6_v50 : W6 (F := Ideal) m ρ c (Proc.devRef .tc main_v50) = invUser m c :=
  (W6_of_ne m ρ c main_v50 (by decide)).trans (W5_v50 m ρ c)
theorem W6_arg1 : W6 (F := Ideal) m ρ c (Proc.devRef .tc main_arg1) = (m ((c : Thread nD τ).loc main_arg1)) :=
  (W6_arr m ρ c 1).trans (((dat0 (V5 m ρ) c).arrAt_in 1 rfl _).trans ((A_eq0 (V5 m ρ) c 1).trans (W5_arg1 m ρ c)))
theorem W6_arg0 : W6 (F := Ideal) m ρ c (Proc.devRef .tc main_arg0) = (m ((c : Thread nD τ).loc main_arg0)) :=
  (W6_of_ne m ρ c main_arg0 (by decide)).trans (W5_arg0 m ρ c)
theorem W6_arg6 : W6 (F := Ideal) m ρ c (Proc.devRef .tc main_arg6) = (m ((c : Thread nD τ).loc main_arg6)) :=
  (W6_of_ne m ρ c main_arg6 (by decide)).trans (W5_arg6 m ρ c)
theorem W6_arg7 : W6 (F := Ideal) m ρ c (Proc.devRef .tc main_arg7) = (m ((c : Thread nD τ).loc main_arg7)) :=
  (W6_of_ne m ρ c main_arg7 (by decide)).trans (W5_arg7 m ρ c)
theorem W6_arg8 : W6 (F := Ideal) m ρ c (Proc.devRef .tc main_arg8) = (m ((c : Thread nD τ).loc main_arg8)) :=
  (W6_of_ne m ρ c main_arg8 (by decide)).trans (W5_arg8 m ρ c)
theorem W6_arg9 : W6 (F := Ideal) m ρ c (Proc.devRef .tc main_arg9) = (m ((c : Thread nD τ).loc main_arg9)) :=
  (W6_of_ne m ρ c main_arg9 (by decide)).trans (W5_arg9 m ρ c)
theorem W6_arg10 : W6 (F := Ideal) m ρ c (Proc.devRef .tc main_arg10) = (m ((c : Thread nD τ).loc main_arg10)) :=
  (W6_of_ne m ρ c main_arg10 (by decide)).trans (W5_arg10 m ρ c)
theorem W6_arg11 : W6 (F := Ideal) m ρ c (Proc.devRef .tc main_arg11) = (m ((c : Thread nD τ).loc main_arg11)) :=
  (W6_of_ne m ρ c main_arg11 (by decide)).trans (W5_arg11 m ρ c)
theorem W6_arg12 : W6 (F := Ideal) m ρ c (Proc.devRef .tc main_arg12) = (m ((c : Thread nD τ).loc main_arg12)) :=
  (W6_of_ne m ρ c main_arg12 (by decide)).trans (W5_arg12 m ρ c)
theorem W6_arg13 : W6 (F := Ideal) m ρ c (Proc.devRef .tc main_arg13) = (m ((c : Thread nD τ).loc main_arg13)) :=
  (W6_of_ne m ρ c main_arg13 (by decide)).trans (W5_arg13 m ρ c)
theorem W6_arg14 : W6 (F := Ideal) m ρ c (Proc.devRef .tc main_arg14) = (m ((c : Thread nD τ).loc main_arg14)) :=
  (W6_of_ne m ρ c main_arg14 (by decide)).trans (W5_arg14 m ρ c)

/-- The first layer's aggregate into the users. -/
theorem V7_v78 : V7 (F := Ideal) m ρ c main_v78
    = Cert.Sage.mean (m ((c : Thread nD τ).loc main_arg1)) (Cert.Spec.srcR (rK m c)) (Cert.Spec.dstOf (uK m c)) := by
  show StableHlo.after hostOps1 (W6 m ρ c) (Proc.devRef .tc main_v78) = _
  after_results_simp
  rw [W6_v26, W6_v33, W6_v50, W6_arg1]
  exact meanUser_form m c (m ((c : Thread nD τ).loc main_arg1))

theorem V7_arg0 : V7 (F := Ideal) m ρ c main_arg0 = (m ((c : Thread nD τ).loc main_arg0)) := by
  show StableHlo.after hostOps1 (W6 m ρ c) (Proc.devRef .tc main_arg0) = _
  after_results_simp
  exact W6_arg0 m ρ c

theorem V7_v79 : V7 (F := Ideal) m ρ c main_v79 = (m ((c : Thread nD τ).loc main_arg6)) := by
  show StableHlo.after hostOps1 (W6 m ρ c) (Proc.devRef .tc main_v79) = _
  after_results_simp
  rw [W6_arg6]
  rfl

theorem V7_v80 : V7 (F := Ideal) m ρ c main_v80 = (m ((c : Thread nD τ).loc main_arg8)) := by
  show StableHlo.after hostOps1 (W6 m ρ c) (Proc.devRef .tc main_v80) = _
  after_results_simp
  rw [W6_arg8]
  rfl

theorem V7_v81 : V7 (F := Ideal) m ρ c main_v81 = shapeCast S1x128 (m ((c : Thread nD τ).loc main_arg7)) shapeCasts_S128_S1x128 := by
  show StableHlo.after hostOps1 (W6 m ρ c) (Proc.devRef .tc main_v81) = _
  after_results_simp
  rw [W6_arg7]
  rfl

/-! ## Region 1: the first layer's users -/

theorem W8_v82 : W8 (F := Ideal) m ρ c (Proc.devRef .tc main_v82) = hU m c := by
  refine (W8_arr m ρ c 5).trans ((Cert.KernelIdeal.Region1.final (V7 m ρ) c).trans ?_)
  unfold Cert.KernelIdeal.Region1.G hU Cert.Spec.layerUserRelu
  rw [V7_v78, V7_v79, V7_v80, V7_v81, bias_row]
  exact congrArg (fun x => Cert.Sage.denseRelu _ x _ _ _) (V7_arg0 m ρ c)

/-! ## Between region 1 and region 2 -/

theorem W8_v11 : W8 (F := Ideal) m ρ c (Proc.devRef .tc main_v11) = rS m c :=
  (W8_of_ne m ρ c main_v11 (by decide)).trans ((show W7 m ρ c (Proc.devRef .tc main_v11) = W6 m ρ c (Proc.devRef .tc main_v11) from by not_written hostOps1).trans (W6_v11 m ρ c))
theorem W8_v18 : W8 (F := Ideal) m ρ c (Proc.devRef .tc main_v18) = uS m c :=
  (W8_of_ne m ρ c main_v18 (by decide)).trans ((show W7 m ρ c (Proc.devRef .tc main_v18) = W6 m ρ c (Proc.devRef .tc main_v18) from by not_written hostOps1).trans (W6_v18 m ρ c))
theorem W8_v42 : W8 (F := Ideal) m ρ c (Proc.devRef .tc main_v42) = invRepo m c :=
  (W8_of_ne m ρ c main_v42 (by decide)).trans ((show W7 m ρ c (Proc.devRef .tc main_v42) = W6 m ρ c (Proc.devRef .tc main_v42) from by not_written hostOps1).trans (W6_v42 m ρ c))
theorem W8_v26 : W8 (F := Ideal) m ρ c (Proc.devRef .tc main_v26) = uR m c :=
  (W8_of_ne m ρ c main_v26 (by decide)).trans ((show W7 m ρ c (Proc.devRef .tc main_v26) = W6 m ρ c (Proc.devRef .tc main_v26) from by not_written hostOps1).trans (W6_v26 m ρ c))
theorem W8_v33 : W8 (F := Ideal) m ρ c (Proc.devRef .tc main_v33) = rR m c :=
  (W8_of_ne m ρ c main_v33 (by decide)).trans ((show W7 m ρ c (Proc.devRef .tc main_v33) = W6 m ρ c (Proc.devRef .tc main_v33) from by not_written hostOps1).trans (W6_v33 m ρ c))
theorem W8_v50 : W8 (F := Ideal) m ρ c (Proc.devRef .tc main_v50) = invUser m c :=
  (W8_of_ne m ρ c main_v50 (by decide)).trans ((show W7 m ρ c (Proc.devRef .tc main_v50) = W6 m ρ c (Proc.devRef .tc main_v50) from by not_written hostOps1).trans (W6_v50 m ρ c))
theorem W8_v66 : W8 (F := Ideal) m ρ c (Proc.devRef .tc main_v66) = hR m c :=
  (W8_of_ne m ρ c main_v66 (by decide)).trans ((show W7 m ρ c (Proc.devRef .tc main_v66) = W6 m ρ c (Proc.devRef .tc main_v66) from by not_written hostOps1).trans (W6_v66 m ρ c))
theorem W8_arg9 : W8 (F := Ideal) m ρ c (Proc.devRef .tc main_arg9) = (m ((c : Thread nD τ).loc main_arg9)) :=
  (W8_of_ne m ρ c main_arg9 (by decide)).trans ((show W7 m ρ c (Proc.devRef .tc main_arg9) = W6 m ρ c (Proc.devRef .tc main_arg9) from by not_written hostOps1).trans (W6_arg9 m ρ c))
theorem W8_arg10 : W8 (F := Ideal) m ρ c (Proc.devRef .tc main_arg10) = (m ((c : Thread nD τ).loc main_arg10)) :=
  (W8_of_ne m ρ c main_arg10 (by decide)).trans ((show W7 m ρ c (Proc.devRef .tc main_arg10) = W6 m ρ c (Proc.devRef .tc main_arg10) from by not_written hostOps1).trans (W6_arg10 m ρ c))
theorem W8_arg11 : W8 (F := Ideal) m ρ c (Proc.devRef .tc main_arg11) = (m ((c : Thread nD τ).loc main_arg11)) :=
  (W8_of_ne m ρ c main_arg11 (by decide)).trans ((show W7 m ρ c (Proc.devRef .tc main_arg11) = W6 m ρ c (Proc.devRef .tc main_arg11) from by not_written hostOps1).trans (W6_arg11 m ρ c))
theorem W8_arg12 : W8 (F := Ideal) m ρ c (Proc.devRef .tc main_arg12) = (m ((c : Thread nD τ).loc main_arg12)) :=
  (W8_of_ne m ρ c main_arg12 (by decide)).trans ((show W7 m ρ c (Proc.devRef .tc main_arg12) = W6 m ρ c (Proc.devRef .tc main_arg12) from by not_written hostOps1).trans (W6_arg12 m ρ c))
theorem W8_arg13 : W8 (F := Ideal) m ρ c (Proc.devRef .tc main_arg13) = (m ((c : Thread nD τ).loc main_arg13)) :=
  (W8_of_ne m ρ c main_arg13 (by decide)).trans ((show W7 m ρ c (Proc.devRef .tc main_arg13) = W6 m ρ c (Proc.devRef .tc main_arg13) from by not_written hostOps1).trans (W6_arg13 m ρ c))
theorem W8_arg14 : W8 (F := Ideal) m ρ c (Proc.devRef .tc main_arg14) = (m ((c : Thread nD τ).loc main_arg14)) :=
  (W8_of_ne m ρ c main_arg14 (by decide)).trans ((show W7 m ρ c (Proc.devRef .tc main_arg14) = W6 m ρ c (Proc.devRef .tc main_arg14) from by not_written hostOps1).trans (W6_arg14 m ρ c))

/-- The second layer's aggregate into the repos. -/
theorem V9_v94 : V9 (F := Ideal) m ρ c main_v94
    = Cert.Sage.mean (hU m c) (Cert.Spec.srcU (uK m c)) (Cert.Spec.dstOf (rK m c)) := by
  show StableHlo.after hostOps2 (W8 m ρ c) (Proc.devRef .tc main_v94) = _
  after_results_simp
  rw [W8_v11, W8_v18, W8_v42, W8_v82]
  exact meanRepo_form m c (hU m c)

theorem V9_v66 : V9 (F := Ideal) m ρ c main_v66 = hR m c := by
  show StableHlo.after hostOps2 (W8 m ρ c) (Proc.devRef .tc main_v66) = _
  after_results_simp
  exact W8_v66 m ρ c

theorem V9_v95 : V9 (F := Ideal) m ρ c main_v95 = (m ((c : Thread nD τ).loc main_arg9)) := by
  show StableHlo.after hostOps2 (W8 m ρ c) (Proc.devRef .tc main_v95) = _
  after_results_simp
  rw [W8_arg9]
  rfl

theorem V9_v96 : V9 (F := Ideal) m ρ c main_v96 = (m ((c : Thread nD τ).loc main_arg11)) := by
  show StableHlo.after hostOps2 (W8 m ρ c) (Proc.devRef .tc main_v96) = _
  after_results_simp
  rw [W8_arg11]
  rfl

theorem V9_v97 : V9 (F := Ideal) m ρ c main_v97 = shapeCast S1x128 (m ((c : Thread nD τ).loc main_arg10)) shapeCasts_S128_S1x128 := by
  show StableHlo.after hostOps2 (W8 m ρ c) (Proc.devRef .tc main_v97) = _
  after_results_simp
  rw [W8_arg10]
  rfl

/-! ## Region 2: the second layer's repos -/

theorem W10_v98 : W10 (F := Ideal) m ρ c (Proc.devRef .tc main_v98) = oR m c := by
  refine (W10_arr m ρ c 5).trans ((Cert.KernelIdeal.Region2.final (V9 m ρ) c).trans ?_)
  unfold Cert.KernelIdeal.Region2.G oR Cert.Spec.layerRepo
  rw [V9_v94, V9_v95, V9_v96, V9_v97, bias_row]
  exact congrArg (fun x => Cert.Sage.dense _ x _ _ _) (V9_v66 m ρ c)

/-! ## Between region 2 and region 3 -/

theorem W10_v66 : W10 (F := Ideal) m ρ c (Proc.devRef .tc main_v66) = hR m c :=
  (W10_arr m ρ c 1).trans (((dat2 (V9 m ρ) c).arrAt_in 1 rfl _).trans ((A_eq2 (V9 m ρ) c 1).trans (V9_v66 m ρ c)))
theorem W10_v26 : W10 (F := Ideal) m ρ c (Proc.devRef .tc main_v26) = uR m c :=
  (W10_of_ne m ρ c main_v26 (by decide)).trans ((show W9 m ρ c (Proc.devRef .tc main_v26) = W8 m ρ c (Proc.devRef .tc main_v26) from by not_written hostOps2).trans (W8_v26 m ρ c))
theorem W10_v33 : W10 (F := Ideal) m ρ c (Proc.devRef .tc main_v33) = rR m c :=
  (W10_of_ne m ρ c main_v33 (by decide)).trans ((show W9 m ρ c (Proc.devRef .tc main_v33) = W8 m ρ c (Proc.devRef .tc main_v33) from by not_written hostOps2).trans (W8_v33 m ρ c))
theorem W10_v50 : W10 (F := Ideal) m ρ c (Proc.devRef .tc main_v50) = invUser m c :=
  (W10_of_ne m ρ c main_v50 (by decide)).trans ((show W9 m ρ c (Proc.devRef .tc main_v50) = W8 m ρ c (Proc.devRef .tc main_v50) from by not_written hostOps2).trans (W8_v50 m ρ c))
theorem W10_v82 : W10 (F := Ideal) m ρ c (Proc.devRef .tc main_v82) = hU m c :=
  (W10_of_ne m ρ c main_v82 (by decide)).trans ((show W9 m ρ c (Proc.devRef .tc main_v82) = W8 m ρ c (Proc.devRef .tc main_v82) from by not_written hostOps2).trans (W8_v82 m ρ c))
theorem W10_arg12 : W10 (F := Ideal) m ρ c (Proc.devRef .tc main_arg12) = (m ((c : Thread nD τ).loc main_arg12)) :=
  (W10_of_ne m ρ c main_arg12 (by decide)).trans ((show W9 m ρ c (Proc.devRef .tc main_arg12) = W8 m ρ c (Proc.devRef .tc main_arg12) from by not_written hostOps2).trans (W8_arg12 m ρ c))
theorem W10_arg13 : W10 (F := Ideal) m ρ c (Proc.devRef .tc main_arg13) = (m ((c : Thread nD τ).loc main_arg13)) :=
  (W10_of_ne m ρ c main_arg13 (by decide)).trans ((show W9 m ρ c (Proc.devRef .tc main_arg13) = W8 m ρ c (Proc.devRef .tc main_arg13) from by not_written hostOps2).trans (W8_arg13 m ρ c))
theorem W10_arg14 : W10 (F := Ideal) m ρ c (Proc.devRef .tc main_arg14) = (m ((c : Thread nD τ).loc main_arg14)) :=
  (W10_of_ne m ρ c main_arg14 (by decide)).trans ((show W9 m ρ c (Proc.devRef .tc main_arg14) = W8 m ρ c (Proc.devRef .tc main_arg14) from by not_written hostOps2).trans (W8_arg14 m ρ c))

/-- The second layer's aggregate into the users. -/
theorem V11_v110 : V11 (F := Ideal) m ρ c main_v110
    = Cert.Sage.mean (hR m c) (Cert.Spec.srcR (rK m c)) (Cert.Spec.dstOf (uK m c)) := by
  show StableHlo.after hostOps3 (W10 m ρ c) (Proc.devRef .tc main_v110) = _
  after_results_simp
  rw [W10_v26, W10_v33, W10_v50, W10_v66]
  exact meanUser_form m c (hR m c)

theorem V11_v82 : V11 (F := Ideal) m ρ c main_v82 = hU m c := by
  show StableHlo.after hostOps3 (W10 m ρ c) (Proc.devRef .tc main_v82) = _
  after_results_simp
  exact W10_v82 m ρ c

theorem V11_v111 : V11 (F := Ideal) m ρ c main_v111 = (m ((c : Thread nD τ).loc main_arg12)) := by
  show StableHlo.after hostOps3 (W10 m ρ c) (Proc.devRef .tc main_v111) = _
  after_results_simp
  rw [W10_arg12]
  rfl

theorem V11_v112 : V11 (F := Ideal) m ρ c main_v112 = (m ((c : Thread nD τ).loc main_arg14)) := by
  show StableHlo.after hostOps3 (W10 m ρ c) (Proc.devRef .tc main_v112) = _
  after_results_simp
  rw [W10_arg14]
  rfl

theorem V11_v113 : V11 (F := Ideal) m ρ c main_v113 = shapeCast S1x128 (m ((c : Thread nD τ).loc main_arg13)) shapeCasts_S128_S1x128 := by
  show StableHlo.after hostOps3 (W10 m ρ c) (Proc.devRef .tc main_v113) = _
  after_results_simp
  rw [W10_arg13]
  rfl

/-! ## Region 3 and the results -/

/-- THE USERS' RESULT: the second layer's users. -/
theorem users_result : W12 (F := Ideal) m ρ c (Proc.devRef .tc main_v114) = oU m c := by
  refine (W12_arr m ρ c 5).trans ((Cert.KernelIdeal.Region3.final (V11 m ρ) c).trans ?_)
  unfold Cert.KernelIdeal.Region3.G oU Cert.Spec.layerUser
  rw [V11_v110, V11_v111, V11_v112, V11_v113, bias_row]
  exact congrArg (fun x => Cert.Sage.dense _ x _ _ _) (V11_v82 m ρ c)

/-- THE REPOS' RESULT: the second layer's repos, untouched by the last stretch and the last region. -/
theorem repos_result : W12 (F := Ideal) m ρ c (Proc.devRef .tc main_v98) = oR m c :=
  (W12_of_ne m ρ c main_v98 (by decide)).trans ((show W11 m ρ c (Proc.devRef .tc main_v98) = W10 m ρ c (Proc.devRef .tc main_v98) from by not_written hostOps3).trans (W10_v98 m ρ c))

end Cert.KernelIdeal.Stages

end
-- ==== Proof.RefValue.lean ====
/-
  The idealized reference's two results are the two-layer network of `Spec`.

  The reference's host program computes each layer with the edges in the order given: a gather of the source rows (negative
  indices wrapped), an accumulating scatter into the destination rows, the same scatter of ones for the counts, the
  quotient by `max (count, 1)` spread along the features, then two `dot_general`s and a bias; the first layers are clamped
  below at zero by a maximum with an all-zero array. Its run's result terms are those operations composed; each layer's
  composition is the entry-by-entry layer of `Spec` (`Sage.plain_mean`, `Sage.host_dense`).
-/
import proofs.«130617_j64527588655555_2_alg».proof.Proof.Gen.ReferenceIdeal.Run
import proofs.«130617_j64527588655555_2_alg».proof.Proof.Spec

set_option maxRecDepth 16384

noncomputable section

namespace Cert.ReferenceIdeal.RefValue

open Cert.ReferenceIdeal Cert.ReferenceIdeal.Gen Cert.ReferenceIdeal.Value Idealize.ShloMosaic Idealize.ShloMosaic.TcCoe
  Idealize.ShloMosaic.ValueIdx Idealize.SL.Sem

/-- The users' side of the edge list. -/
def edgeU (a2 : IVec S2x1500000 32) : IVec S1500000 32 :=
  shapeCast _ (extractStridedSlice S1x1500000 ![0, 0] a2 slices_S2x1500000_S1x1500000_0_0) shapeCasts_S1x1500000_S1500000

/-- The repos' side of the edge list. -/
def edgeR (a2 : IVec S2x1500000 32) : IVec S1500000 32 :=
  shapeCast _ (extractStridedSlice S1x1500000 ![1, 0] a2 slices_S2x1500000_S1x1500000_1_0) shapeCasts_S1x1500000_S1500000

/-- The mean of the users' rows over the edges into each repo, as the host operations compose. -/
def meanRepo (xs : FVec Ideal S200000x128 .f32) (u r : IVec S1500000 32) : FVec Ideal S100000x128 .f32 :=
  Host.divf
    (Host.scatterAdd scatter_S100000x128_S1500000x1_S1500000x128_1_0_0_1
      (broadcastInDim S100000x128 ![] bcast_S_S100000x128 (constant S_ .f32 0x00000000#32))
      (broadcastInDim S1500000x1 ![0] bcast_S1500000_S1500000x1_0 r)
      (Host.gather gather_S200000x128_S1500000x1_S1500000x128_1_0_n_n_0_1_1128 xs
        (broadcastInDim S1500000x1 ![0] bcast_S1500000_S1500000x1_0
          (select (cmpi .slt u (broadcastInDim S1500000 ![] bcast_S_S1500000 (constantI S_ 32 0#32)))
            (addi u (broadcastInDim S1500000 ![] bcast_S_S1500000 (constantI S_ 32 200000#32))) u))))
    (broadcastInDim S100000x128 ![0, 1] bcast_S100000x1_S100000x128_0_1
      (broadcastInDim S100000x1 ![0] bcast_S100000_S100000x1_0
        (maximumf
          (Host.scatterAdd scatter_S100000_S1500000x1_S1500000_n_0_0_1
            (broadcastInDim S100000 ![] bcast_S_S100000 (constant S_ .f32 0x00000000#32))
            (broadcastInDim S1500000x1 ![0] bcast_S1500000_S1500000x1_0 r)
            (broadcastInDim S1500000 ![] bcast_S_S1500000 (constant S_ .f32 0x3F800000#32)))
          (broadcastInDim S100000 ![] bcast_S_S100000 (constant S_ .f32 0x3F800000#32)))))

/-- The mean of the repos' rows over the edges into each user, as the host operations compose. -/
def meanUser (xs : FVec Ideal S100000x128 .f32) (u r : IVec S1500000 32) : FVec Ideal S200000x128 .f32 :=
  Host.divf
    (Host.scatterAdd scatter_S200000x128_S1500000x1_S1500000x128_1_0_0_1
      (broadcastInDim S200000x128 ![] bcast_S_S200000x128 (constant S_ .f32 0x00000000#32))
      (broadcastInDim S1500000x1 ![0] bcast_S1500000_S1500000x1_0 u)
      (Host.gather gather_S100000x128_S1500000x1_S1500000x128_1_0_n_n_0_1_1128 xs
        (broadcastInDim S1500000x1 ![0] bcast_S1500000_S1500000x1_0
          (select (cmpi .slt r (broadcastInDim S1500000 ![] bcast_S_S1500000 (constantI S_ 32 0#32)))
            (addi r (broadcastInDim S1500000 ![] bcast_S_S1500000 (constantI S_ 32 100000#32))) r))))
    (broadcastInDim S200000x128 ![0, 1] bcast_S200000x1_S200000x128_0_1
      (broadcastInDim S200000x1 ![0] bcast_S200000_S200000x1_0
        (maximumf
          (Host.scatterAdd scatter_S200000_S1500000x1_S1500000_n_0_0_1
            (broadcastInDim S200000 ![] bcast_S_S200000 (constant S_ .f32 0x00000000#32))
            (broadcastInDim S1500000x1 ![0] bcast_S1500000_S1500000x1_0 u)
            (broadcastInDim S1500000 ![] bcast_S_S1500000 (constant S_ .f32 0x3F800000#32)))
          (broadcastInDim S200000 ![] bcast_S_S200000 (constant S_ .f32 0x3F800000#32)))))

/-- The dense part over the repos. -/
def denseRepo (a xd : FVec Ideal S100000x128 .f32) (wl : FVec Ideal S128x128 .f32) (b : FVec Ideal S128 .f32)
    (wr : FVec Ideal S128x128 .f32) : FVec Ideal S100000x128 .f32 :=
  addf (addf (Host.dotGeneral dot_S100000x128_S128x128_S100000x128_1_0_0_1_n_n none a wl)
      (broadcastInDim S100000x128 ![0, 1] bcast_S1x128_S100000x128_0_1 (broadcastInDim S1x128 ![1] bcast_S128_S1x128_1 b)))
    (Host.dotGeneral dot_S100000x128_S128x128_S100000x128_1_0_0_1_n_n none xd wr)

/-- The dense part over the users. -/
def denseUser (a xd : FVec Ideal S200000x128 .f32) (wl : FVec Ideal S128x128 .f32) (b : FVec Ideal S128 .f32)
    (wr : FVec Ideal S128x128 .f32) : FVec Ideal S200000x128 .f32 :=
  addf (addf (Host.dotGeneral dot_S200000x128_S128x128_S200000x128_1_0_0_1_n_n none a wl)
      (broadcastInDim S200000x128 ![0, 1] bcast_S1x128_S200000x128_0_1 (broadcastInDim S1x128 ![1] bcast_S128_S1x128_1 b)))
    (Host.dotGeneral dot_S200000x128_S128x128_S200000x128_1_0_0_1_n_n none xd wr)

/-- The clamp at zero over the repos. -/
def reluRepo (x : FVec Ideal S100000x128 .f32) : FVec Ideal S100000x128 .f32 :=
  maximumf x (broadcastInDim S100000x128 ![] bcast_S_S100000x128 (constant S_ .f32 0x00000000#32))

/-- The clamp at zero over the users. -/
def reluUser (x : FVec Ideal S200000x128 .f32) : FVec Ideal S200000x128 .f32 :=
  maximumf x (broadcastInDim S200000x128 ![] bcast_S_S200000x128 (constant S_ .f32 0x00000000#32))

/-! ## Each composition is the layer of `Spec` -/

theorem zero_bcast {s : Shape} (h : S_.BroadcastsInDim s ![]) (i : s.Idx) :
    broadcastInDim s ![] h (constant (F := Ideal) S_ .f32 0x00000000#32) i = 0 :=
  (LibMeanScale.broadcastInDim_scalar_apply _ h i).trans Ideal.ofBits_zero_f32

theorem one_bcast {s : Shape} (h : S_.BroadcastsInDim s ![]) (i : s.Idx) :
    broadcastInDim s ![] h (constant (F := Ideal) S_ .f32 0x3F800000#32) i = 1 :=
  (LibMeanScale.broadcastInDim_scalar_apply _ h i).trans LibMeanAlgebra.ofBits_one

theorem word_bcast {s : Shape} (w : BitVec 32) (h : S_.BroadcastsInDim s ![]) (i : s.Idx) :
    broadcastInDim s ![] h (constantI S_ 32 w) i = w :=
  LibMeanScale.broadcastInDim_scalar_apply _ h i

theorem meanRepo_eq (xs : FVec Ideal S200000x128 .f32) (u r : IVec S1500000 32) :
    meanRepo xs u r = Cert.Sage.mean xs (Cert.Spec.srcU u) (Cert.Spec.dstOf r) :=
  Cert.Sage.plain_mean (Ns := 200000) (Nd := 100000) (E := 1500000) (D := 128) (by omega) 200000#32
    gather_S200000x128_S1500000x1_S1500000x128_1_0_n_n_0_1_1128_wf scatter_S100000x128_S1500000x1_S1500000x128_1_0_0_1_wf
    scatter_S100000_S1500000x1_S1500000_n_0_0_1_wf bcast_S1500000_S1500000x1_0 xs u r _ _ (word_bcast _ _) (word_bcast _ _)
    _ (zero_bcast _) _ (zero_bcast _) _ (one_bcast _) _ (one_bcast _) bcast_S100000x1_S100000x128_0_1 bcast_S100000_S100000x1_0

theorem meanUser_eq (xs : FVec Ideal S100000x128 .f32) (u r : IVec S1500000 32) :
    meanUser xs u r = Cert.Sage.mean xs (Cert.Spec.srcR r) (Cert.Spec.dstOf u) :=
  Cert.Sage.plain_mean (Ns := 100000) (Nd := 200000) (E := 1500000) (D := 128) (by omega) 100000#32
    gather_S100000x128_S1500000x1_S1500000x128_1_0_n_n_0_1_1128_wf scatter_S200000x128_S1500000x1_S1500000x128_1_0_0_1_wf
    scatter_S200000_S1500000x1_S1500000_n_0_0_1_wf bcast_S1500000_S1500000x1_0 xs r u _ _ (word_bcast _ _) (word_bcast _ _)
    _ (zero_bcast _) _ (zero_bcast _) _ (one_bcast _) _ (one_bcast _) bcast_S200000x1_S200000x128_0_1 bcast_S200000_S200000x1_0

theorem denseRepo_eq (a xd : FVec Ideal S100000x128 .f32) (wl : FVec Ideal S128x128 .f32) (b : FVec Ideal S128 .f32)
    (wr : FVec Ideal S128x128 .f32) : denseRepo a xd wl b wr = Cert.Sage.dense a xd wl wr (Cert.Spec.bias b) :=
  Cert.Sage.host_dense (M := 100000) (K := 128) (N := 128) dot_S100000x128_S128x128_S100000x128_1_0_0_1_n_n rfl none a xd wl wr b
    bcast_S128_S1x128_1 bcast_S1x128_S100000x128_0_1

theorem denseUser_eq (a xd : FVec Ideal S200000x128 .f32) (wl : FVec Ideal S128x128 .f32) (b : FVec Ideal S128 .f32)
    (wr : FVec Ideal S128x128 .f32) : denseUser a xd wl b wr = Cert.Sage.dense a xd wl wr (Cert.Spec.bias b) :=
  Cert.Sage.host_dense (M := 200000) (K := 128) (N := 128) dot_S200000x128_S128x128_S200000x128_1_0_0_1_n_n rfl none a xd wl wr b
    bcast_S128_S1x128_1 bcast_S1x128_S200000x128_0_1

theorem reluRepo_dense (a xd : S100000x128.Idx → EReal) (wl wr : S128x128.Idx → EReal) (b : Fin 128 → EReal) :
    reluRepo (Cert.Sage.dense a xd wl wr b) = Cert.Sage.denseRelu a xd wl wr b := by
  funext i
  show max (Cert.Sage.dense a xd wl wr b i) (broadcastInDim S100000x128 ![] bcast_S_S100000x128 (constant (F := Ideal) S_ .f32 0x00000000#32) i) = _
  rw [zero_bcast]
  rfl

theorem reluUser_dense (a xd : S200000x128.Idx → EReal) (wl wr : S128x128.Idx → EReal) (b : Fin 128 → EReal) :
    reluUser (Cert.Sage.dense a xd wl wr b) = Cert.Sage.denseRelu a xd wl wr b := by
  funext i
  show max (Cert.Sage.dense a xd wl wr b i) (broadcastInDim S200000x128 ![] bcast_S_S200000x128 (constant (F := Ideal) S_ .f32 0x00000000#32) i) = _
  rw [zero_bcast]
  rfl

/-! ## The run's two result terms -/

variable (m : (ℓ : Loc nD τ sig) → Buf (Elt Ideal) ℓ) (c : Dev nD)

/-- The first layer's repos, as the run composes them. -/
def repoH : FVec Ideal S100000x128 .f32 :=
  reluRepo (denseRepo (meanRepo (m ((c.tc : Thread nD τ).loc main_arg0)) (edgeU (m ((c.tc : Thread nD τ).loc main_arg2))) (edgeR (m ((c.tc : Thread nD τ).loc main_arg2))))
    (m ((c.tc : Thread nD τ).loc main_arg1)) (m ((c.tc : Thread nD τ).loc main_arg3)) (m ((c.tc : Thread nD τ).loc main_arg4)) (m ((c.tc : Thread nD τ).loc main_arg5)))

/-- The first layer's users, as the run composes them. -/
def userH : FVec Ideal S200000x128 .f32 :=
  reluUser (denseUser (meanUser (m ((c.tc : Thread nD τ).loc main_arg1)) (edgeU (m ((c.tc : Thread nD τ).loc main_arg2))) (edgeR (m ((c.tc : Thread nD τ).loc main_arg2))))
    (m ((c.tc : Thread nD τ).loc main_arg0)) (m ((c.tc : Thread nD τ).loc main_arg6)) (m ((c.tc : Thread nD τ).loc main_arg7)) (m ((c.tc : Thread nD τ).loc main_arg8)))

theorem res_users : res_main_v105 (F := Ideal) m c
    = denseUser (meanUser (repoH m c) (edgeU (m ((c.tc : Thread nD τ).loc main_arg2))) (edgeR (m ((c.tc : Thread nD τ).loc main_arg2))))
        (userH m c) (m ((c.tc : Thread nD τ).loc main_arg12)) (m ((c.tc : Thread nD τ).loc main_arg13)) (m ((c.tc : Thread nD τ).loc main_arg14)) := by
  unfold res_main_v105
  rfl

theorem res_repos : res_main_v80 (F := Ideal) m c
    = denseRepo (meanRepo (userH m c) (edgeU (m ((c.tc : Thread nD τ).loc main_arg2))) (edgeR (m ((c.tc : Thread nD τ).loc main_arg2))))
        (repoH m c) (m ((c.tc : Thread nD τ).loc main_arg9)) (m ((c.tc : Thread nD τ).loc main_arg10)) (m ((c.tc : Thread nD τ).loc main_arg11)) := by
  unfold res_main_v80
  rfl

/-! ## The results are the network of `Spec` -/

theorem repoH_spec : repoH m c
    = Cert.Spec.layerRepoRelu (edgeU (m ((c.tc : Thread nD τ).loc main_arg2))) (edgeR (m ((c.tc : Thread nD τ).loc main_arg2)))
        (m ((c.tc : Thread nD τ).loc main_arg0)) (m ((c.tc : Thread nD τ).loc main_arg1)) (m ((c.tc : Thread nD τ).loc main_arg3))
        (m ((c.tc : Thread nD τ).loc main_arg4)) (m ((c.tc : Thread nD τ).loc main_arg5)) := by
  unfold repoH Cert.Spec.layerRepoRelu
  rw [meanRepo_eq, denseRepo_eq, reluRepo_dense]

theorem userH_spec : userH m c
    = Cert.Spec.layerUserRelu (edgeU (m ((c.tc : Thread nD τ).loc main_arg2))) (edgeR (m ((c.tc : Thread nD τ).loc main_arg2)))
        (m ((c.tc : Thread nD τ).loc main_arg1)) (m ((c.tc : Thread nD τ).loc main_arg0)) (m ((c.tc : Thread nD τ).loc main_arg6))
        (m ((c.tc : Thread nD τ).loc main_arg7)) (m ((c.tc : Thread nD τ).loc main_arg8)) := by
  unfold userH Cert.Spec.layerUserRelu
  rw [meanUser_eq, denseUser_eq, reluUser_dense]

/-- THE USERS' RESULT of the reference's run. -/
theorem users_spec : res_main_v105 (F := Ideal) m c
    = Cert.Spec.layerUser (edgeU (m ((c.tc : Thread nD τ).loc main_arg2))) (edgeR (m ((c.tc : Thread nD τ).loc main_arg2)))
        (Cert.Spec.layerRepoRelu (edgeU (m ((c.tc : Thread nD τ).loc main_arg2))) (edgeR (m ((c.tc : Thread nD τ).loc main_arg2)))
          (m ((c.tc : Thread nD τ).loc main_arg0)) (m ((c.tc : Thread nD τ).loc main_arg1)) (m ((c.tc : Thread nD τ).loc main_arg3))
          (m ((c.tc : Thread nD τ).loc main_arg4)) (m ((c.tc : Thread nD τ).loc main_arg5)))
        (Cert.Spec.layerUserRelu (edgeU (m ((c.tc : Thread nD τ).loc main_arg2))) (edgeR (m ((c.tc : Thread nD τ).loc main_arg2)))
          (m ((c.tc : Thread nD τ).loc main_arg1)) (m ((c.tc : Thread nD τ).loc main_arg0)) (m ((c.tc : Thread nD τ).loc main_arg6))
          (m ((c.tc : Thread nD τ).loc main_arg7)) (m ((c.tc : Thread nD τ).loc main_arg8)))
        (m ((c.tc : Thread nD τ).loc main_arg12)) (m ((c.tc : Thread nD τ).loc main_arg13)) (m ((c.tc : Thread nD τ).loc main_arg14)) := by
  rw [res_users, meanUser_eq, denseUser_eq, repoH_spec, userH_spec]
  rfl

/-- THE REPOS' RESULT of the reference's run. -/
theorem repos_spec : res_main_v80 (F := Ideal) m c
    = Cert.Spec.layerRepo (edgeU (m ((c.tc : Thread nD τ).loc main_arg2))) (edgeR (m ((c.tc : Thread nD τ).loc main_arg2)))
        (Cert.Spec.layerUserRelu (edgeU (m ((c.tc : Thread nD τ).loc main_arg2))) (edgeR (m ((c.tc : Thread nD τ).loc main_arg2)))
          (m ((c.tc : Thread nD τ).loc main_arg1)) (m ((c.tc : Thread nD τ).loc main_arg0)) (m ((c.tc : Thread nD τ).loc main_arg6))
          (m ((c.tc : Thread nD τ).loc main_arg7)) (m ((c.tc : Thread nD τ).loc main_arg8)))
        (Cert.Spec.layerRepoRelu (edgeU (m ((c.tc : Thread nD τ).loc main_arg2))) (edgeR (m ((c.tc : Thread nD τ).loc main_arg2)))
          (m ((c.tc : Thread nD τ).loc main_arg0)) (m ((c.tc : Thread nD τ).loc main_arg1)) (m ((c.tc : Thread nD τ).loc main_arg3))
          (m ((c.tc : Thread nD τ).loc main_arg4)) (m ((c.tc : Thread nD τ).loc main_arg5)))
        (m ((c.tc : Thread nD τ).loc main_arg9)) (m ((c.tc : Thread nD τ).loc main_arg10)) (m ((c.tc : Thread nD τ).loc main_arg11)) := by
  rw [res_repos, meanRepo_eq, denseRepo_eq, repoH_spec, userH_spec]
  rfl

end Cert.ReferenceIdeal.RefValue

end
-- ==== Proof.lean ====
/-
  The certificate of a two-layer heterogeneous graph network (mean-aggregating layers over two node types): the kernel
  program against its plain reference, on the extended reals.

  THE TWO PROGRAMS. Both take 200000 user rows and 100000 repo rows of 128 features, 1500000 edges each joining a user and
  a repo, and four layers' weights and biases. A layer updating one node type takes, per node, the mean of the other
  type's rows over the edges into the node, and returns (mean · Wl + b) + own · Wr; the first layer of each type is
  clamped below at zero and feeds the second.
    * The reference runs every step as host operations with the edges in the order given, dividing the sums by
      `max (count, 1)`.
    * The kernel first argsorts the edges by destination, once per direction, takes both sides of the edge list at the
      sorted positions, aggregates in that order, multiplies by the reciprocal of `max (count, 1)` computed once per
      direction, and runs each layer's dense part as a pipelined region over blocks of 5000 rows (two matrix-unit products
      into zero accumulators, plus a bias row).
  WHY THEY AGREE at the idealized instance (`Spec`, `LibSageMean`, `LibSageSorted`): an argsort is a permutation of the edges, and
  a finite sum over the edges into a node does not depend on the order the edges are listed in (commutativity and
  associativity of addition on the extended reals: no finiteness of the features is used); `max (count, 1)` is a positive
  real, so multiplying by its reciprocal is dividing by it, for every extended-real sum; a change of float format is the
  identity; and the blocked products are the same sums, in the same grouping, as the host's contractions.
  The kernel's value is read off the fold of its segments (`KernelRun`, `KernelStages`, `Region0` … `Region3`), the
  reference's off its run (`RefValue`). The three frames are the generated frame runs; the idealization rewrote nothing.
-/
import proofs.«130617_j64527588655555_2_alg».proof.Defs
import proofs.«130617_j64527588655555_2_alg».proof.Proof.Gen.Kernel
import proofs.«130617_j64527588655555_2_alg».proof.Proof.Gen.Kernel.Skeleton
import proofs.«130617_j64527588655555_2_alg».proof.Proof.Gen.Kernel.Launch
import proofs.«130617_j64527588655555_2_alg».proof.Proof.Gen.Kernel.Points
import proofs.«130617_j64527588655555_2_alg».proof.Proof.Gen.Kernel.Frame
import proofs.«130617_j64527588655555_2_alg».proof.Proof.Gen.KernelIdeal
import proofs.«130617_j64527588655555_2_alg».proof.Proof.Gen.KernelIdeal.Skeleton
import proofs.«130617_j64527588655555_2_alg».proof.Proof.Gen.KernelIdeal.Launch
import proofs.«130617_j64527588655555_2_alg».proof.Proof.Gen.KernelIdeal.Points
import proofs.«130617_j64527588655555_2_alg».proof.Proof.Gen.KernelIdeal.Frame
import proofs.«130617_j64527588655555_2_alg».proof.Proof.Gen.ReferenceIdeal
import proofs.«130617_j64527588655555_2_alg».proof.Proof.Gen.Pre_finite_inputs
import proofs.«130617_j64527588655555_2_alg».proof.Proof.Gen.ReferenceIdeal.Run
import proofs.«130617_j64527588655555_2_alg».proof.Proof.KernelRun
import proofs.«130617_j64527588655555_2_alg».proof.Proof.KernelStages
import proofs.«130617_j64527588655555_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

namespace Claims

theorem frame_p : Cert.frame_Kernel (hKernel := Cert.Kernel.Gen.facts) (hPre_finite_inputs := Cert.Pre_finite_inputs.Gen.facts) :=
  fun m ρ _ => Cert.Kernel.Gen.frame m ρ

theorem frame_pi : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- The kernel's two result arrays (the generated run of the segments, read by `KernelStages`) and the reference's (its
    generated run, read by `RefValue`) are the same two-layer network of the same argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Stages.oU m c, fun c => Cert.KernelIdeal.Stages.oR m c, ?_, ?_⟩
  · exact (θ_run Cert.KernelIdeal.defs _ _).mono
      (fun r h c => ⟨(h c).1.trans (Cert.KernelIdeal.Stages.users_result m ρ c),
        (h c).2.1.trans (Cert.KernelIdeal.Stages.repos_result m ρ c), (h c).2.2⟩)
      (Cert.KernelIdeal.RunValue.run_main (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14⟩ := hagree c
      rw [Cert.ReferenceIdeal.RefValue.users_spec, h0, h1, h2, h3, h4, h5, h6, h7, h8, h12, h13, h14]
      rfl
    · obtain ⟨h0, h1, h2, h3, h4, h5, h6, h7, h8, h9, h10, h11, h12, h13, h14⟩ := hagree c
      rw [Cert.ReferenceIdeal.RefValue.repos_spec, h0, h1, h2, h3, h4, h5, h6, h7, h8, h9, h10, h11]
      rfl

end Claims

theorem claim : Cert.Claim := ⟨Cert.Kernel.Gen.facts, Cert.KernelIdeal.Gen.facts, Cert.ReferenceIdeal.Gen.facts, Cert.Pre_finite_inputs.Gen.facts,
  Claims.frame_p, Claims.frame_pi, Claims.frame_ri, trivial, Claims.algebraic⟩

end Cert.Proof

end
